-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S2x256x256 : Shape := ⟨3, ![2, 256, 256]⟩
abbrev S2x256 : Shape := ⟨2, ![2, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part1 {F : FTy → Type} [FloatOps F] (main_arg5 : FVec F S2x256 .f32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S2x256x256 .f32) (main_arg5 : FVec F S2x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2x256x256 .f32 := Host.absf main_arg4
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S2x256x256 : Shape := ⟨3, ![2, 256, 256]⟩
abbrev S2x256 : Shape := ⟨2, ![2, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S2000x256 : Shape := ⟨2, ![2000, 256]⟩
abbrev S1x256x256 : Shape := ⟨3, ![1, 256, 256]⟩
abbrev S2000x1 : Shape := ⟨2, ![2000, 1]⟩
abbrev S800000x256 : Shape := ⟨2, ![800000, 256]⟩

abbrev nBuf : Space → Nat
  | .hbm => 72
  | .vmem => 38
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S2x256x256, .f32⟩
  | .hbm, ⟨5, _⟩ => ⟨S2x256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S1x256, .f32⟩
  | .hbm, ⟨31, _⟩ => ⟨S50000x256, .f32⟩
  | .hbm, ⟨32, _⟩ => ⟨S1x256x256, .f32⟩
  | .hbm, ⟨33, _⟩ => ⟨S256x256, .f32⟩
  | .hbm, ⟨34, _⟩ => ⟨S50000x256, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x256, .f32⟩
  | .hbm, ⟨44, _⟩ => ⟨S_, .f32⟩
  | .hbm, ⟨45, _⟩ => ⟨S50000x256, .f32⟩
  | .hbm, ⟨46, _⟩ => ⟨S800000x1, .i32⟩
  | .hbm, ⟨47, _⟩ => ⟨S50000x256, .f32⟩
  | .hbm, ⟨48, _⟩ => ⟨S1x256, .f32⟩
  | .hbm, ⟨49, _⟩ => ⟨S256, .f32⟩
  | .hbm, ⟨50, _⟩ => ⟨S1x256, .f32⟩
  | .hbm, ⟨51, _⟩ => ⟨S50000x256, .f32⟩
  | .hbm, ⟨52, _⟩ => ⟨S1x256x256, .f32⟩
  | .hbm, ⟨53, _⟩ => ⟨S256x256, .f32⟩
  | .hbm, ⟨54, _⟩ => ⟨S50000x256, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x256, .f32⟩
  | .hbm, ⟨64, _⟩ => ⟨S_, .f32⟩
  | .hbm, ⟨65, _⟩ => ⟨S50000x256, .f32⟩
  | .hbm, ⟨66, _⟩ => ⟨S800000x1, .i32⟩
  | .hbm, ⟨67, _⟩ => ⟨S50000x256, .f32⟩
  | .hbm, ⟨68, _⟩ => ⟨S1x256, .f32⟩
  | .hbm, ⟨69, _⟩ => ⟨S256, .f32⟩
  | .hbm, ⟨70, _⟩ => ⟨S1x256, .f32⟩
  | .hbm, ⟨71, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S2000x1, .f32⟩
  | .local _ .vmem, ⟨10, _⟩ => ⟨S2000x1, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x1, .f32⟩
  | .local _ .vmem, ⟨18, _⟩ => ⟨S2000x1, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x256, .f32⟩
  | .local _ .vmem, ⟨25, _⟩ => ⟨S2000x1, .f32⟩
  | .local _ .vmem, ⟨26, _⟩ => ⟨S2000x1, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x1, .f32⟩
  | .local _ .vmem, ⟨34, _⟩ => ⟨S2000x1, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2x256x256_S1x256x256_0_0_0 : S2x256x256.Slices ![0, 0, 0] S1x256x256
  shapeCasts_S1x256x256_S256x256 : S1x256x256.ShapeCasts S256x256
  shapeCasts_S2000x256_S2000x256 : S2000x256.ShapeCasts S2000x256
  shapeCasts_S256x256_S256x256 : S256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S50000x256 : S_.BroadcastsInDim S50000x256 (![] : Fin 0 → Fin S50000x256.rank)
  slices_S2x256_S1x256_0_0 : S2x256.Slices ![0, 0] S1x256
  shapeCasts_S1x256_S256 : S1x256.ShapeCasts S256
  slices_S2x256x256_S1x256x256_1_0_0 : S2x256x256.Slices ![1, 0, 0] S1x256x256
  slices_S2x256_S1x256_1_0 : S2x256.Slices ![1, 0] S1x256
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .f32 = 32 ∨ (Rect.block (s := S50000x256) S2000x256.size (cc4_transform_4 i) (hinb4_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v34) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v37) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v47) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v50) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v51) S2000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S2x256x256 : Shape := ⟨3, ![2, 256, 256]⟩
abbrev S2x256 : Shape := ⟨2, ![2, 256]⟩
abbrev S1x800000 : Shape := ⟨2, ![1, 800000]⟩
abbrev S800000 : Shape := ⟨1, ![800000]⟩
abbrev S1x256 : Shape := ⟨2, ![1, 256]⟩
abbrev S_ : Shape := ⟨0, ![]⟩
abbrev S1x256x256 : Shape := ⟨3, ![1, 256, 256]⟩
abbrev S50000 : Shape := ⟨1, ![50000]⟩
abbrev S850000 : Shape := ⟨1, ![850000]⟩
abbrev S850000x1 : Shape := ⟨2, ![850000, 1]⟩
abbrev S850000x256 : Shape := ⟨2, ![850000, 256]⟩

abbrev nBuf : Space → Nat
  | .hbm => 147
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S2x256x256, .f32⟩
  | 5 => ⟨S2x256, .f32⟩
  | 6 => ⟨S1x800000, .i32⟩
  | 7 => ⟨S800000, .i32⟩
  | 8 => ⟨S1x800000, .i32⟩
  | 9 => ⟨S800000, .i32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S50000x256, .f32⟩
  | 16 => ⟨S50000x256, .f32⟩
  | 17 => ⟨S1x256x256, .f32⟩
  | 18 => ⟨S256x256, .f32⟩
  | 19 => ⟨S1x256, .f32⟩
  | 20 => ⟨S256, .f32⟩
  | 21 => ⟨S50000x256, .f32⟩
  | 22 => ⟨S50000, .i32⟩
  | 23 => ⟨S850000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S_, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x256, .f32⟩
  | 69 => ⟨S850000x1, .f32⟩
  | 70 => ⟨S850000x256, .f32⟩
  | 71 => ⟨S850000x256, .f32⟩
  | 72 => ⟨S_, .f32⟩
  | 73 => ⟨S50000x256, .f32⟩
  | 74 => ⟨S850000x1, .i32⟩
  | 75 => ⟨S50000x256, .f32⟩
  | 76 => ⟨S1x256, .f32⟩
  | 77 => ⟨S50000x256, .f32⟩
  | 78 => ⟨S50000x256, .f32⟩
  | 79 => ⟨S_, .f32⟩
  | 80 => ⟨S50000x256, .f32⟩
  | 81 => ⟨S50000x256, .f32⟩
  | 82 => ⟨S1x256x256, .f32⟩
  | 83 => ⟨S256x256, .f32⟩
  | 84 => ⟨S1x256, .f32⟩
  | 85 => ⟨S256, .f32⟩
  | 86 => ⟨S50000x256, .f32⟩
  | 87 => ⟨S50000, .i32⟩
  | 88 => ⟨S850000, .i32⟩
  | 89 => ⟨S850000, .i32⟩
  | 90 => ⟨S_, .f32⟩
  | 91 => ⟨S850000, .f32⟩
  | 92 => ⟨S_, .f32⟩
  | 93 => ⟨S50000, .f32⟩
  | 94 => ⟨S850000x1, .i32⟩
  | 95 => ⟨S50000, .f32⟩
  | 96 => ⟨S_, .f32⟩
  | 97 => ⟨S50000, .f32⟩
  | 98 => ⟨S50000, .i1⟩
  | 99 => ⟨S_, .f32⟩
  | 100 => ⟨S50000, .f32⟩
  | 101 => ⟨S50000, .f32⟩
  | 102 => ⟨S_, .f32⟩
  | 103 => ⟨S_, .f32⟩
  | 104 => ⟨S50000, .f32⟩
  | 105 => ⟨S50000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000, .f32⟩
  | 124 => ⟨S850000, .f32⟩
  | 125 => ⟨S_, .i32⟩
  | 126 => ⟨S850000, .i32⟩
  | 127 => ⟨S850000, .i1⟩
  | _ => ⟨S50000x256, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x256, .f32⟩
  | 6 => ⟨S850000x1, .f32⟩
  | 7 => ⟨S850000x256, .f32⟩
  | 8 => ⟨S850000x256, .f32⟩
  | 9 => ⟨S_, .f32⟩
  | 10 => ⟨S50000x256, .f32⟩
  | 11 => ⟨S850000x1, .i32⟩
  | 12 => ⟨S50000x256, .f32⟩
  | 13 => ⟨S1x256, .f32⟩
  | 14 => ⟨S50000x256, .f32⟩
  | 15 => ⟨S50000x256, .f32⟩
  | 16 => ⟨S_, .f32⟩
  | 17 => ⟨S50000x256, .f32⟩
  | 18 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call2_cst : Ref sig .tc := ⟨.hbm, 79, rfl⟩
abbrev main_call2_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_call3_v0 : Ref sig .tc := ⟨.hbm, 103, rfl⟩
abbrev main_call3_v1 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_c_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_17 : Ref sig .tc := ⟨.hbm, 115, rfl⟩
abbrev main_v82 : Ref sig .tc := ⟨.hbm, 116, rfl⟩
abbrev main_v83 : Ref sig .tc := ⟨.hbm, 117, rfl⟩
abbrev main_c_18 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_19 : Ref sig .tc := ⟨.hbm, 125, rfl⟩
abbrev main_v90 : Ref sig .tc := ⟨.hbm, 126, rfl⟩
abbrev main_v91 : Ref sig .tc := ⟨.hbm, 127, rfl⟩
abbrev main_c_20 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_call4_cst : Ref sig .tc := ⟨.hbm, 144, rfl⟩
abbrev main_call4_v0 : Ref sig .tc := ⟨.hbm, 145, rfl⟩
abbrev main_v106 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  slices_S2x256x256_S1x256x256_1_0_0 : S2x256x256.Slices ![1, 0, 0] S1x256x256
  slices_S2x256_S1x256_1_0 : S2x256.Slices ![1, 0] S1x256
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.KernelRun.lean ====
/-
  The idealized kernel program's run with its result named.

  The program is five tiled regions among stretches of host operations.  The generated frame certificate follows the
  contents of the device's buffers from the launch through every stretch and region (the fold W0, W1, …, W12) and
  concludes that the argument arrays end as launched.  The same run says where EVERY unscoped buffer ends: at the last
  boundary's contents W12.  Here that is stated for the result buffer as well, so that the result of the program is
  W12 at that buffer; what W12 holds there is read elsewhere, region by region and stretch by stretch.
-/
import proofs.«134774_j63513976373392_2_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last boundary's
    contents, and the argument arrays end as launched. -/
theorem run_named : θ_run defs (onTc (τ := τ) (main (F := F))) ⟨m, fun _ => 0, ρ⟩ (fun r => ∀ c : Dev nD,
      r.2.mem ((c.tc : Thread nD τ).loc main_v51) = W12 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v51 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.Gcn.KRun

end
-- ==== Proof.LibScatterRows.lean ====
/-
  Reading the host's index operations at one element, at the ideal instance (every float an extended real, every
  operation exact): the accumulating scatter along axis 0 (rows of a matrix, entries of a flat array), the gather
  along axis 0, the concatenation of two flat arrays, the column of start indices built from a flat array, the
  iota, the wrap-around normalisation of a signed index, and the splitting of a finite sum over `A + B` terms.
  Everything is stated over generic extents and over any dimension record with the stated data, so that it applies
  to every program of this family.
-/
import Idealize.ShloMosaic.PureOps.Ideal
import Idealize.ShloMosaic.Lib.ValueIdx
import Idealize.ShloMosaic.Lib.Pipeline.Value

noncomputable section

open scoped BigOperators

namespace Cert.Lib.ScatterRows

open Idealize.ShloMosaic Idealize.ShloMosaic.ValueIdx

/-- A start index read as a signed integer and clamped into `[0, N − 1]`: a negative integer gives `0`
    (the natural-number part of a negative integer is `0`), one past the end gives `N − 1`. -/
def clampRow (N : Nat) (hN : 0 < N) (z : ℤ) : Fin N := ⟨min z.toNat (N - 1), by omega⟩

/-! ## Rows of a matrix: scatter-add and gather along axis 0 -/

section Rows
variable {N D E w : Nat}

/-- Row scatter, operand axis 0 (the row axis): the window of update `(e, c)` starts at the row index stored at
    `idx[e, 0]`, read as a signed integer and not clamped. -/
theorem start0 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 0
      = (idx (ix2 (j 0) 0)).toInt := by
  unfold ScatterDims.start
  rw [dif_pos (show (0 : Fin 2) ∈ [(0 : Fin 2)] from List.mem_singleton.mpr rfl)]
  congr 2
  funext b; refine Fin.ext ?_
  match b with
  | ⟨0, _⟩ => rfl
  | ⟨1, _⟩ => rfl

/-- Row scatter, operand axis 1 (the column axis): the scatter indices do not address it, so every window starts
    at column `0`. -/
theorem start1 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 1 = 0 := by
  unfold ScatterDims.start
  rw [dif_neg (show (1 : Fin 2) ∉ [(0 : Fin 2)] by decide)]

/-- Row scatter: the row axis is an inserted window axis, so the window coordinate on it is `0`. -/
theorem window0 (wf) (j : (⟨2, ![E, D]⟩ : Shape).Idx) :
    (⟨[1], [0], [0], 1, wf⟩ : ScatterDims ⟨2, ![N, D]⟩ ⟨2, ![E, 1]⟩ ⟨2, ![E, D]⟩).window j 0 = 0 := by
  have h0 : (0 : Fin 2) ∉ (⟨[1], [0], [0], 1, wf⟩ : ScatterDims ⟨2, ![N, D]⟩ ⟨2, ![E, 1]⟩ ⟨2, ![E, D]⟩).sKept := by
    show (0 : Fin 2) ∉ [(1 : Fin 2)]
    decide
  unfold ScatterDims.window
  rw [dif_neg h0]

/-- Row scatter: the column axis carries the update's own column, so the window coordinate of update `(e, c)`
    on it is `c`. -/
theorem window1 (wf) (j : (⟨2, ![E, D]⟩ : Shape).Idx) :
    (⟨[1], [0], [0], 1, wf⟩ : ScatterDims ⟨2, ![N, D]⟩ ⟨2, ![E, 1]⟩ ⟨2, ![E, D]⟩).window j 1 = (j 1).val := by
  have h1 : (1 : Fin 2) ∈ (⟨[1], [0], [0], 1, wf⟩ : ScatterDims ⟨2, ![N, D]⟩ ⟨2, ![E, 1]⟩ ⟨2, ![E, D]⟩).sKept := by
    show (1 : Fin 2) ∈ [(1 : Fin 2)]
    decide
  unfold ScatterDims.window
  rw [dif_pos h1]
  rfl

/-- WHERE AN UPDATE LANDS. Update element `(e, c)` of a row scatter lands on operand element `(i, j)` exactly
    when the row index `idx[e, 0]`, read signed, is `i` and the column is unchanged, `c = j`; an update whose row
    index is negative or at least `N` lands nowhere (it is dropped). -/
theorem resultIdx?_rows (wf) (idx : IVec ⟨2, ![E, 1]⟩ w) (e : Fin E) (j' : Fin D) (i : Fin N) (j : Fin D) :
    (⟨[1], [0], [0], 1, wf⟩ : ScatterDims ⟨2, ![N, D]⟩ ⟨2, ![E, 1]⟩ ⟨2, ![E, D]⟩).resultIdx? (ix2 e j') idx
        = some (ix2 i j)
      ↔ (idx (ix2 e 0)).toInt = (i.val : ℤ) ∧ j' = j := by
  have hs0 : (⟨[1], [0], [0], 1, wf⟩ : ScatterDims ⟨2, ![N, D]⟩ ⟨2, ![E, 1]⟩ ⟨2, ![E, D]⟩).start (ix2 e j') idx 0
      = (idx (ix2 e 0)).toInt := start0 wf (ix2 e j') idx
  have hs1 := start1 (N := N) wf (ix2 e j') idx
  have hw0 := window0 (N := N) (E := E) wf (ix2 e j')
  have hw1 : (⟨[1], [0], [0], 1, wf⟩ : ScatterDims ⟨2, ![N, D]⟩ ⟨2, ![E, 1]⟩ ⟨2, ![E, D]⟩).window (ix2 e j') 1
      = j'.val := window1 wf (ix2 e j')
  unfold ScatterDims.resultIdx?
  split
  next h =>
    rw [Option.some.injEq]
    have ha0 := (h 0).1
    rw [hs0, hw0] at ha0
    constructor
    · intro hf
      have h0 : ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val :=
        congrArg Fin.val (congrFun hf 0)
      have h1 : ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j.val :=
        congrArg Fin.val (congrFun hf 1)
      rw [hs0, hw0] at h0
      rw [hs1, hw1] at h1
      refine ⟨by omega, Fin.ext (by omega)⟩
    · rintro ⟨hz, rfl⟩
      funext a
      refine Fin.ext ?_
      match a with
      | ⟨0, _⟩ =>
        show ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val
        rw [hs0, hw0, hz]; omega
      | ⟨1, _⟩ =>
        show ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j'.val
        rw [hs1, hw1]; omega
  next h =>
    constructor
    · intro hf; exact absurd hf (by simp)
    · rintro ⟨hz, rfl⟩
      exfalso; apply h
      intro a
      match a with
      | ⟨0, _⟩ =>
        show 0 ≤ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ)
          ∧ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ) < (N : ℤ)
        rw [hs0, hw0, hz]; have := i.isLt; omega
      | ⟨1, _⟩ =>
        show 0 ≤ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ)
          ∧ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ) < (D : ℤ)
        rw [hs1, hw1]; have := j'.isLt; omega

/-- THE ROW SCATTER-ADD READ AT `(i, j)`. Scattering the rows of `upd : [E, D]` into `x : [N, D]` at the row
    indices `idx : [E, 1]` and adding: element `(i, j)` of the result is `x[i, j]` plus the sum, over all updates
    `e` whose row index `idx[e, 0]` (read signed) equals `i`, of `upd[e, j]`. Stated for any dimension record
    whose data are those of a row scatter (window axis `1`, inserted axis `0`, index map `[0]`, index vector on
    axis `1`). -/
theorem scatterAdd_rows_apply (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd d x idx upd (ix2 i j)
      = x (ix2 i j) + ∑ e : Fin E, if (idx (ix2 e 0)).toInt = (i.val : ℤ) then upd (ix2 e j) else 0 := by
  obtain ⟨uw, iw, sd, iv, wf⟩ := d
  subst h1 h2 h3 h4
  unfold Ideal.hostScatterAdd
  congr 1
  rw [Finset.sum_filter, sum_idx2]
  refine Finset.sum_congr rfl fun e _ => ?_
  refine (Finset.sum_congr rfl fun j' _ => if_congr (resultIdx?_rows wf idx e j' i j) rfl rfl).trans ?_
  by_cases hz : (idx (ix2 e 0)).toInt = (i.val : ℤ)
  · simp only [hz, true_and]
    rw [Finset.sum_ite_eq']
    simp
  · simp [hz]

/-- The same read for the float instance's scatter-add at the ideal instance, at any schedule key: there it is the
    exact sum above, whatever the key. -/
theorem floatOps_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (sched : HostSchedule)
    (x : FVec Ideal ⟨2, ![N, D]⟩ φ) (idx : IVec ⟨2, ![E, 1]⟩ w) (upd : FVec Ideal ⟨2, ![E, D]⟩ φ)
    (i : Fin N) (j : Fin D) :
    FloatOps.hostScatterAdd (F := Ideal) d sched x idx upd (ix2 i j)
      = x (ix2 i j) + ∑ e : Fin E, if (idx (ix2 e 0)).toInt = (i.val : ℤ) then upd (ix2 e j) else 0 :=
  scatterAdd_rows_apply d h1 h2 h3 h4 x idx upd i j

/-- The same read for the host's accumulating scatter of a one-device program, at the ideal instance. -/
theorem host_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (i : Fin N) (j : Fin D) :
    Host.scatterAdd (F := Ideal) d x idx upd (ix2 i j)
      = x (ix2 i j) + ∑ e : Fin E, if (idx (ix2 e 0)).toInt = (i.val : ℤ) then upd (ix2 e j) else 0 :=
  scatterAdd_rows_apply d h1 h2 h3 h4 x idx upd i j

/-- THE ROW GATHER READ AT `(e, j)`. Gathering whole rows of `x : [N, D]` at the row indices `idx : [E, 1]`:
    element `(e, j)` of the result is `x[r, j]`, where `r` is the row index `idx[e, 0]` read as a signed
    integer and clamped into `[0, N − 1]` (the gather clamps every start index so that the slice fits). Stated for
    any dimension record whose data are those of a row gather (offset axis `1`, collapsed axis `0`, index map
    `[0]`, index vector on axis `1`, slices `1 × D`, no batching axes). -/
theorem gather_rows_apply {α : Type} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (j : Fin D) :
    Host.gather d x idx (ix2 e j) = x (ix2 (clampRow N hN (idx (ix2 e 0)).toInt) j) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[1], [0], [], [], [0], 1, ![1, D], wf⟩ : GatherDims ⟨2, ![N, D]⟩ ⟨2, ![E, 1]⟩ ⟨2, ![E, D]⟩).start (ix2 e j) idx 0 + (⟨[1], [0], [], [], [0], 1, ![1, D], wf⟩ : GatherDims ⟨2, ![N, D]⟩ ⟨2, ![E, 1]⟩ ⟨2, ![E, D]⟩).batchCoord (ix2 e j) 0 + (⟨[1], [0], [], [], [0], 1, ![1, D], wf⟩ : GatherDims ⟨2, ![N, D]⟩ ⟨2, ![E, 1]⟩ ⟨2, ![E, D]⟩).offCoord (ix2 e j) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (⟨[1], [0], [], [], [0], 1, ![1, D], wf⟩ : GatherDims ⟨2, ![N, D]⟩ ⟨2, ![E, 1]⟩ ⟨2, ![E, D]⟩).siIdx (ix2 e j) ⟨List.idxOf (0 : Fin 2) [(0 : Fin 2)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (⟨[1], [0], [], [], [0], 1, ![1, D], wf⟩ : GatherDims ⟨2, ![N, D]⟩ ⟨2, ![E, 1]⟩ ⟨2, ![E, D]⟩).start (ix2 e j) idx 1 + (⟨[1], [0], [], [], [0], 1, ![1, D], wf⟩ : GatherDims ⟨2, ![N, D]⟩ ⟨2, ![E, 1]⟩ ⟨2, ![E, D]⟩).batchCoord (ix2 e j) 1 + (⟨[1], [0], [], [], [0], 1, ![1, D], wf⟩ : GatherDims ⟨2, ![N, D]⟩ ⟨2, ![E, 1]⟩ ⟨2, ![E, D]⟩).offCoord (ix2 e j) 1 = j.val
    have hk : (1 : Fin 2) ∈ (⟨[1], [0], [], [], [0], 1, ![1, D], wf⟩ : GatherDims ⟨2, ![N, D]⟩ ⟨2, ![E, 1]⟩ ⟨2, ![E, D]⟩).sKept := by
      show (1 : Fin 2) ∈ [(1 : Fin 2)]
      decide
    rw [GatherDims.batchCoord_eq_zero _ _ _ List.not_mem_nil]
    unfold GatherDims.start
    rw [dif_neg (show (1 : Fin 2) ∉ [(0 : Fin 2)] by decide)]
    unfold GatherDims.offCoord
    rw [dif_pos hk]
    simp only [Nat.zero_add, Nat.add_zero]
    rfl

end Rows

/-! ## Entries of a flat array: scatter-add and gather along its one axis -/

section Flat
variable {N E w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Flat scatter: the window of update `e` starts at the index stored at `idx[e, 0]`, read as a signed integer
    and not clamped. -/
theorem startFlat (wf) (j : (⟨1, ![E]⟩ : Shape).Idx) (idx : IVec ⟨2, ![E, 1]⟩ w) :
    (⟨[], [0], [0], 1, wf⟩ : ScatterDims ⟨1, ![N]⟩ ⟨2, ![E, 1]⟩ ⟨1, ![E]⟩).start j idx 0 = (idx (ix2 (j 0) 0)).toInt := by
  unfold ScatterDims.start
  rw [dif_pos (show (0 : Fin 1) ∈ [(0 : Fin 1)] from List.mem_singleton.mpr rfl)]
  congr 2
  funext b; refine Fin.ext ?_
  match b with
  | ⟨0, _⟩ => rfl
  | ⟨1, _⟩ => rfl

/-- Flat scatter: the one operand axis is an inserted window axis, so the window coordinate on it is `0`. -/
theorem windowFlat (wf) (j : (⟨1, ![E]⟩ : Shape).Idx) : (⟨[], [0], [0], 1, wf⟩ : ScatterDims ⟨1, ![N]⟩ ⟨2, ![E, 1]⟩ ⟨1, ![E]⟩).window j 0 = 0 := by
  have h0 : (0 : Fin 1) ∉ (⟨[], [0], [0], 1, wf⟩ : ScatterDims ⟨1, ![N]⟩ ⟨2, ![E, 1]⟩ ⟨1, ![E]⟩).sKept := by
    show (0 : Fin 1) ∉ ([] : List (Fin 1))
    decide
  unfold ScatterDims.window
  rw [dif_neg h0]

/-- WHERE A FLAT UPDATE LANDS. Update element `e` of a flat scatter lands on operand element `i` exactly when the
    index `idx[e, 0]`, read signed, is `i`; an update whose index is negative or at least `N` is dropped. -/
theorem resultIdx?_flat (wf) (idx : IVec ⟨2, ![E, 1]⟩ w) (e : Fin E) (i : Fin N) :
    (⟨[], [0], [0], 1, wf⟩ : ScatterDims ⟨1, ![N]⟩ ⟨2, ![E, 1]⟩ ⟨1, ![E]⟩).resultIdx? (ix1 e) idx = some (ix1 i) ↔ (idx (ix2 e 0)).toInt = (i.val : ℤ) := by
  have hs0 : (⟨[], [0], [0], 1, wf⟩ : ScatterDims ⟨1, ![N]⟩ ⟨2, ![E, 1]⟩ ⟨1, ![E]⟩).start (ix1 e) idx 0 = (idx (ix2 e 0)).toInt := startFlat wf (ix1 e) idx
  have hw0 := windowFlat (N := N) (E := E) wf (ix1 e)
  unfold ScatterDims.resultIdx?
  split
  next h =>
    rw [Option.some.injEq]
    have ha0 := (h 0).1
    rw [hs0, hw0] at ha0
    constructor
    · intro hf
      have h0 : ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val :=
        congrArg Fin.val (congrFun hf 0)
      rw [hs0, hw0] at h0
      omega
    · intro hz
      funext a
      refine Fin.ext ?_
      match a with
      | ⟨0, _⟩ =>
        show ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val
        rw [hs0, hw0, hz]; omega
  next h =>
    constructor
    · intro hf; exact absurd hf (by simp)
    · intro hz
      exfalso; apply h
      intro a
      match a with
      | ⟨0, _⟩ =>
        show 0 ≤ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)
          ∧ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ) < (N : ℤ)
        rw [hs0, hw0, hz]; have := i.isLt; omega

/-- THE FLAT SCATTER-ADD READ AT `i`. Scattering the entries of `upd : [E]` into `x : [N]` at the indices
    `idx : [E, 1]` and adding: entry `i` of the result is `x[i]` plus the sum, over all updates `e` whose index
    `idx[e, 0]` (read signed) equals `i`, of `upd[e]`. Stated for any dimension record whose data are those of a
    flat scatter (no window axis, inserted axis `0`, index map `[0]`, index vector on axis `1`). -/
theorem scatterAdd_flat_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i)
      = x (ix1 i) + ∑ e : Fin E, if (idx (ix2 e 0)).toInt = (i.val : ℤ) then upd (ix1 e) else 0 := by
  obtain ⟨uw, iw, sd, iv, wf⟩ := d
  subst h1 h2 h3 h4
  unfold Ideal.hostScatterAdd
  congr 1
  rw [Finset.sum_filter, sum_idx1]
  exact Finset.sum_congr rfl fun e _ => if_congr (resultIdx?_flat wf idx e i) rfl rfl

/-- The same read for the float instance's scatter-add at the ideal instance, at any schedule key. -/
theorem floatOps_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (sched : HostSchedule)
    (x : FVec Ideal ⟨1, ![N]⟩ φ) (idx : IVec ⟨2, ![E, 1]⟩ w) (upd : FVec Ideal ⟨1, ![E]⟩ φ) (i : Fin N) :
    FloatOps.hostScatterAdd (F := Ideal) d sched x idx upd (ix1 i)
      = x (ix1 i) + ∑ e : Fin E, if (idx (ix2 e 0)).toInt = (i.val : ℤ) then upd (ix1 e) else 0 :=
  scatterAdd_flat_apply d h1 h2 h3 h4 x idx upd i

/-- The same read for the host's accumulating scatter of a one-device program, at the ideal instance. -/
theorem host_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (i : Fin N) :
    Host.scatterAdd (F := Ideal) d x idx upd (ix1 i)
      = x (ix1 i) + ∑ e : Fin E, if (idx (ix2 e 0)).toInt = (i.val : ℤ) then upd (ix1 e) else 0 :=
  scatterAdd_flat_apply d h1 h2 h3 h4 x idx upd i

/-- THE FLAT GATHER READ AT `e`. Gathering entries of `x : [N]` at the indices `idx : [E, 1]`: entry `e` of the
    result is `x[r]`, where `r` is the index `idx[e, 0]` read as a signed integer and clamped into `[0, N − 1]`.
    Stated for any dimension record whose data are those of a flat gather (no offset axis, collapsed axis `0`,
    index map `[0]`, index vector on axis `1`, slices of one entry, no batching axes). -/
theorem gather_flat_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (clampRow N hN (idx (ix2 e 0)).toInt)) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[], [0], [], [], [0], 1, ![1], wf⟩ : GatherDims ⟨1, ![N]⟩ ⟨2, ![E, 1]⟩ ⟨1, ![E]⟩).start (ix1 e) idx 0 + (⟨[], [0], [], [], [0], 1, ![1], wf⟩ : GatherDims ⟨1, ![N]⟩ ⟨2, ![E, 1]⟩ ⟨1, ![E]⟩).batchCoord (ix1 e) 0 + (⟨[], [0], [], [], [0], 1, ![1], wf⟩ : GatherDims ⟨1, ![N]⟩ ⟨2, ![E, 1]⟩ ⟨1, ![E]⟩).offCoord (ix1 e) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ [(0 : Fin 1)] from List.mem_singleton.mpr rfl)]
    have hsi : (⟨[], [0], [], [], [0], 1, ![1], wf⟩ : GatherDims ⟨1, ![N]⟩ ⟨2, ![E, 1]⟩ ⟨1, ![E]⟩).siIdx (ix1 e) ⟨List.idxOf (0 : Fin 1) [(0 : Fin 1)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Flat

/-! ## Two flat arrays laid end to end -/

section Concat
variable {α : Type}

/-- THE CONCATENATION OF TWO FLAT ARRAYS READ AT `e`: below `A` it is the first array at `e`, from `A` on the
    second array at `e − A`. -/
theorem concatenate_flat_apply {A B C : Nat} (hC : C = A + B)
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) :
    concatenate ⟨1, ![C]⟩ 0 [⟨⟨1, ![A]⟩, a⟩, ⟨⟨1, ![B]⟩, b⟩] h (ix1 e)
      = if hlt : e.val < A then a (ix1 ⟨e.val, hlt⟩) else b (ix1 ⟨e.val - A, by omega⟩) := by
  by_cases hlt : e.val < A
  · rw [dif_pos hlt]
    refine concatenate_pair_apply_left 0 a b h (ix1 e) rfl (ix1 ⟨e.val, hlt⟩) ?_
    intro b1
    match b1 with
    | ⟨0, _⟩ => rfl
  · rw [dif_neg hlt]
    refine concatenate_pair_apply_right 0 a b h (ix1 e) rfl rfl (ix1 ⟨e.val - A, by omega⟩) ?_ ?_
    · intro b1 hb
      match b1 with
      | ⟨0, _⟩ => exact absurd rfl hb
    · show e.val - A + A = e.val
      omega

end Concat

/-! ## The column of start indices, the iota, and the normalisation of a signed index -/

section Words
variable {α : Type}

/-- A flat array `v : [E]` broadcast to a column `[E, 1]` along axis 0 reads `v[e]` at `(e, 0)`. -/
theorem broadcastInDim_col_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e 0) = v (ix1 e) := by
  unfold broadcastInDim
  congr 1
  funext a
  refine Fin.ext ?_
  match a with
  | ⟨0, _⟩ =>
    show (if h1 : E = 1 then (⟨0, by omega⟩ : Fin E) else ⟨e.val, e.isLt⟩).val = e.val
    split
    · have := e.isLt; show 0 = e.val; omega
    · rfl

/-- The iota along the one axis of a flat array reads the position `k`, as a 32-bit word. -/
theorem iotaInDim_flat_apply {N : Nat} (k : Fin N) : iotaInDim ⟨1, ![N]⟩ 32 0 (ix1 k) = BitVec.ofNat 32 k.val := rfl

/-- A natural number below `2³¹`, written as a 32-bit word and read back signed, is itself. -/
theorem toInt_ofNat_small (k : Nat) (hk : k < 2 ^ 31) : (BitVec.ofNat 32 k).toInt = (k : ℤ) := by
  rw [BitVec.toInt_ofNat']
  unfold Int.bmod
  simp only []
  split <;> omega

/-- THE NORMALISATION OF A SIGNED INDEX. "If `s` is negative take `s + n`, else `s`", computed on 32-bit words
    with `n` below `2³¹`, is the same computation on the integers: the sum cannot wrap, since a negative `s` is at
    least `−2³¹`, so `s + n` lies in `[−2³¹, 2³¹)`. -/
theorem nrm_toInt (s : BitVec 32) (n : Nat) (hn : n < 2 ^ 31) :
    (Scalar.select (IntOp.cmpi .slt s 0#32) (IntOp.addi s (BitVec.ofNat 32 n)) s).toInt
      = if s.toInt < 0 then s.toInt + (n : ℤ) else s.toInt := by
  have hlo : -2 ^ (32 - 1) ≤ s.toInt := BitVec.le_toInt s
  have hhi : s.toInt < 2 ^ (32 - 1) := BitVec.toInt_lt
  unfold Scalar.select IntOp.cmpi IntOp.addi
  simp only [BitVec.slt_eq_decide, BitVec.toInt_zero]
  by_cases h : s.toInt < 0
  · rw [if_pos (by simp [h]), if_pos h, BitVec.toInt_add, toInt_ofNat_small n hn]
    unfold Int.bmod
    simp only []
    split <;> omega
  · rw [if_neg (by simp [h]), if_neg h]

end Words

/-! ## A sum over `A + B` terms -/

/-- A finite sum over `C = A + B` terms is the sum of its first `A` terms plus the sum of its last `B` terms. -/
theorem sum_fin_add {M : Type*} [AddCommMonoid M] {A B C : Nat} (hC : C = A + B) (f : Fin C → M) :
    ∑ e : Fin C, f e = ∑ e : Fin A, f ⟨e.val, by omega⟩ + ∑ k : Fin B, f ⟨A + k.val, by omega⟩ := by
  subst hC
  rw [Fin.sum_univ_add]
  rfl

/-- The same splitting for extended-real terms. -/
theorem sum_fin_add_ereal {A B C : Nat} (hC : C = A + B) (f : Fin C → EReal) :
    ∑ e : Fin C, f e = ∑ e : Fin A, f ⟨e.val, by omega⟩ + ∑ k : Fin B, f ⟨A + k.val, by omega⟩ :=
  sum_fin_add hC f

end Cert.Lib.ScatterRows

end
-- ==== Proof.Spec.lean ====
/-
  The mathematics both programs compute, as functions of whole arrays read index by index at the extended reals.

  A graph of 50000 nodes with 256 features each and 800000 directed edges (source row `src e`, target row `dst e`, stored as
  32-bit words).  One dense layer  relu (x · w + b)  is followed by two graph-convolution layers.  A convolution layer
  multiplies by a weight matrix, h = x · w, and then mixes rows along the edges and along one self-loop per node with the
  symmetric normalisation  dv i = (1 + number of edges into i) ^ (-1/2):

      out i  =  relu ( Σ_{e : dst e = i} h (row e) · dv (row e) · dv i   +   h i · dv i · dv i   +   b ).

  The two programs group this differently.  One scales every row first (h' i = h i · dv i), adds the edge rows and the node's
  own row, and multiplies the sum by dv i afterwards (`layerK`); the other forms one list of 850000 edges, the 800000 given
  ones followed by the 50000 self-loops, gives each the weight dv (row e) · dv (target e), and adds the weighted rows
  (`layerR`).  That the two agree is the law of the layer (a nonnegative real factor moves in and out of a finite sum of
  extended reals; products re-associate); it is proved elsewhere, over these definitions.

  Conventions, as both programs have them: a source index is first normalised (a negative word s counts from the end,
  s + 50000) and then clamped into [0, 49999] when a row is fetched (`rowOf`); a target index is used as it is when rows are
  added into the result, and an edge whose target is negative or at least 50000 is dropped — which is what the condition
  `(dst e).toInt = i` says for a row i of the result.
-/
import Idealize.ShloMosaic.PureOps.Ideal
import Idealize.ShloMosaic.Lib.ValueIdx
import proofs.«134774_j63513976373392_2_alg».proof.Proof.LibScatterRows

noncomputable section

open scoped BigOperators

namespace Cert.Gcn

open Idealize.ShloMosaic Idealize.ShloMosaic.ValueIdx Cert.Lib.ScatterRows

/-- Node features [50000, 256]. -/
abbrev SN : Shape := ⟨2, ![50000, 256]⟩
/-- A weight matrix [256, 256]. -/
abbrev SW : Shape := ⟨2, ![256, 256]⟩
/-- A bias laid as one row [1, 256]. -/
abbrev SRow : Shape := ⟨2, ![1, 256]⟩
/-- The normaliser laid as one column [50000, 1]. -/
abbrev SCol : Shape := ⟨2, ![50000, 1]⟩
/-- A bias vector [256]. -/
abbrev SB : Shape := ⟨1, ![256]⟩
/-- One value per node [50000]. -/
abbrev SD : Shape := ⟨1, ![50000]⟩
/-- One word per edge [800000]. -/
abbrev SE : Shape := ⟨1, ![800000]⟩

/-- The matrix product x · w at row i and column j. -/
def mm (x : SN.Idx → EReal) (w : SW.Idx → EReal) (i : Fin 50000) (j : Fin 256) : EReal :=
  ∑ k : Fin 256, x (ix2 i k) * w (ix2 k j)

/-! ## What each of the three tiled bodies computes, as one function of its whole operand arrays -/

/-- relu (x · w + b), the bias given as a row [1, 256]. -/
def proj (x : SN.Idx → EReal) (w : SW.Idx → EReal) (brow : SRow.Idx → EReal) : SN.Idx → EReal :=
  fun i => max (mm x w (i 0) (i 1) + brow (ix2 (0 : Fin 1) (i 1))) 0

/-- (x · w) with row i scaled by the column entry dcol (i, 0). -/
def mmScale (x : SN.Idx → EReal) (w : SW.Idx → EReal) (dcol : SCol.Idx → EReal) : SN.Idx → EReal :=
  fun i => mm x w (i 0) (i 1) * dcol (ix2 (i 0) (0 : Fin 1))

/-- relu ((agg + hp) · dcol + b): the sum of two arrays, row i scaled by dcol (i, 0), the bias row added. -/
def fin (agg hp : SN.Idx → EReal) (dcol : SCol.Idx → EReal) (brow : SRow.Idx → EReal) : SN.Idx → EReal :=
  fun i => max ((agg i + hp i) * dcol (ix2 (i 0) (0 : Fin 1)) + brow (ix2 (0 : Fin 1) (i 1))) 0

/-! ## The layers -/

/-- The dense layer relu (x · w + b), the bias a vector [256]. -/
def dense0 (x : SN.Idx → EReal) (w : SW.Idx → EReal) (b : SB.Idx → EReal) : SN.Idx → EReal :=
  fun i => max (mm x w (i 0) (i 1) + b (ix1 (i 1))) 0

/-- A signed index normalised: a negative one counts from the end. -/
def wrapZ (s : BitVec 32) : ℤ := if s.toInt < 0 then s.toInt + (50000 : ℕ) else s.toInt

/-- The row an edge's index word fetches: normalised, then clamped into [0, 49999]. -/
def rowOf (a : SE.Idx → BitVec 32) (e : Fin 800000) : Fin 50000 :=
  clampRow 50000 (by norm_num) (wrapZ (a (ix1 e)))

/-- The number of edges whose target is row i, as an extended real. -/
def deg (dst : SE.Idx → BitVec 32) (i : Fin 50000) : EReal :=
  ∑ e : Fin 800000, if (dst (ix1 e)).toInt = (i.val : ℤ) then (1 : EReal) else 0

/-- The normaliser: (edges into i, plus the self-loop) to the power -1/2 where that count is positive, else 0. -/
def dinv (dst : SE.Idx → BitVec 32) : SD.Idx → EReal :=
  fun i => if 0 < 0 + deg dst (i 0) + 1 then Ideal.pow (0 + deg dst (i 0) + 1) (Ideal.ofBits .f32 0xBF000000#32) else 0

/-- A row of x · w scaled by its own normaliser. -/
def hpK (x : SN.Idx → EReal) (w : SW.Idx → EReal) (dv : SD.Idx → EReal) (i : Fin 50000) (j : Fin 256) : EReal :=
  mm x w i j * dv (ix1 i)

/-- The convolution layer, rows scaled first and the sum scaled afterwards. -/
def layerK (x : SN.Idx → EReal) (w : SW.Idx → EReal) (b : SB.Idx → EReal) (dv : SD.Idx → EReal)
    (src dst : SE.Idx → BitVec 32) : SN.Idx → EReal :=
  fun i => max (((0 + ∑ e : Fin 800000, if (dst (ix1 e)).toInt = ((i 0).val : ℤ) then hpK x w dv (rowOf src e) (i 1) else 0)
        + hpK x w dv (i 0) (i 1)) * dv (ix1 (i 0)) + b (ix1 (i 1))) 0

/-- The convolution layer, one weighted sum over the given edges followed by the self-loops. -/
def layerR (x : SN.Idx → EReal) (w : SW.Idx → EReal) (b : SB.Idx → EReal) (dv : SD.Idx → EReal)
    (src dst : SE.Idx → BitVec 32) : SN.Idx → EReal :=
  fun i => max ((0 + ((∑ e : Fin 800000, if (dst (ix1 e)).toInt = ((i 0).val : ℤ)
            then mm x w (rowOf src e) (i 1) * (dv (ix1 (rowOf src e)) * dv (ix1 (rowOf dst e))) else 0)
          + ∑ k : Fin 50000, if (k.val : ℤ) = ((i 0).val : ℤ) then mm x w k (i 1) * (dv (ix1 k) * dv (ix1 k)) else 0))
        + b (ix1 (i 1))) 0

end Cert.Gcn

end
-- ==== Proof.KLayerDef.lean ====
/-
  The host-side pieces of the idealized kernel program as functions of their inputs, operation for operation as the
  program has them, and one whole graph-convolution layer of it.

  From the target words dst the program counts, per node, the edges into it and adds one for the node's own loop
  (`kDeg`), and takes that count to the power -1/2 where it is positive (`kDinv`).  A layer first forms, in a tiled
  region, the rows  hp = (x · W) scaled by the normaliser  (Spec's `mmScale`, the normaliser laid as a column); then the
  host fetches, per edge, row src of hp (a negative index counts from the end) and adds it into row dst of a zero array
  (`kAgg`); a second tiled region finishes with  relu ((agg + hp) · normaliser + bias)  (Spec's `fin`, the bias laid as a
  row).  `kLayer` is that composition.
-/
import proofs.«134774_j63513976373392_2_alg».proof.KernelIdeal
import proofs.«134774_j63513976373392_2_alg».proof.Proof.Gen.KernelIdeal
import proofs.«134774_j63513976373392_2_alg».proof.Proof.Spec

noncomputable section

namespace Cert.Gcn.K

open Cert.KernelIdeal Cert.KernelIdeal.Gen Idealize.ShloMosaic

variable {F : FTy → Type} [FloatOps F]

/-- A list of index words as a column of start indices. -/
def col (v : (⟨S800000, .i32⟩ : BufTy).Contents (Elt F)) : (⟨S800000x1, .i32⟩ : BufTy).Contents (Elt F) :=
  broadcastInDim S800000x1 ![0] bcast_S800000_S800000x1_0 v

/-- A signed index word normalised: a negative one has 50000 added. -/
def nrm (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- The number of edges into each node, plus one for its own loop. -/
def kDeg (dst : (⟨S800000, .i32⟩ : BufTy).Contents (Elt F)) : (⟨S50000, .f32⟩ : BufTy).Contents (Elt F) :=
  addf
    (Host.scatterAdd scatter_S50000_S800000x1_S800000_n_0_0_1
      (broadcastInDim S50000 ![] bcast_S_S50000 (constant S_ .f32 0x00000000#32))
      (col dst)
      (broadcastInDim S800000 ![] bcast_S_S800000 (constant S_ .f32 0x3F800000#32)))
    (broadcastInDim S50000 ![] bcast_S_S50000 (constant S_ .f32 0x3F800000#32))

/-- The normaliser: that number to the power -1/2 where it is positive, else 0. -/
def kDinv (dst : (⟨S800000, .i32⟩ : BufTy).Contents (Elt F)) : (⟨S50000, .f32⟩ : BufTy).Contents (Elt F) :=
  select (cmpf .ogt (kDeg dst) (broadcastInDim S50000 ![] bcast_S_S50000 (constant S_ .f32 0x00000000#32)))
    (Host.powf (kDeg dst) (broadcastInDim S50000 ![] bcast_S_S50000 (constant S_ .f32 0xBF000000#32)))
    (broadcastInDim S50000 ![] bcast_S_S50000 (id (constant S_ .f32 0x00000000#32)))

/-- Per edge, row src of hp added into row dst of a zero array. -/
def kAgg (hp : (⟨S50000x256, .f32⟩ : BufTy).Contents (Elt F)) (src dst : (⟨S800000, .i32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (col dst)
    (Host.gather gather_S50000x256_S800000x1_S800000x256_1_0_n_n_0_1_1256 hp (col (nrm src)))

/-- A normaliser vector laid as a column [50000, 1]. -/
def dcolOf (dv : (⟨S50000, .f32⟩ : BufTy).Contents (Elt F)) : (⟨S50000x1, .f32⟩ : BufTy).Contents (Elt F) :=
  shapeCast S50000x1 dv shapeCasts_S50000_S50000x1

/-- A bias vector laid as a row [1, 256]. -/
def browOf (b : (⟨S256, .f32⟩ : BufTy).Contents (Elt F)) : (⟨S1x256, .f32⟩ : BufTy).Contents (Elt F) :=
  shapeCast S1x256 b shapeCasts_S256_S1x256

/-- One whole layer of the kernel program at the extended reals: scale, gather and add along the edges, finish. -/
def kLayer (x : (⟨S50000x256, .f32⟩ : BufTy).Contents (Elt Ideal)) (W : (⟨S256x256, .f32⟩ : BufTy).Contents (Elt Ideal))
    (b : (⟨S256, .f32⟩ : BufTy).Contents (Elt Ideal)) (dv : (⟨S50000, .f32⟩ : BufTy).Contents (Elt Ideal))
    (src dst : (⟨S800000, .i32⟩ : BufTy).Contents (Elt Ideal)) : SN.Idx → EReal :=
  fin (kAgg (F := Ideal) (mmScale x W (dcolOf (F := Ideal) dv)) src dst) (mmScale x W (dcolOf (F := Ideal) dv))
    (dcolOf (F := Ideal) dv) (browOf (F := Ideal) b)

end Cert.Gcn.K

end
-- ==== Proof.KernelHost.lean ====
/-
  The host stretches of the idealized kernel program, each read as a function of the buffer contents it starts from.

  Between its five tiled regions the program runs short stretches of host operations.  For each stretch, and for ANY
  contents Wv of the buffers when the stretch begins, the buffers the later computation reads are named here: a buffer the
  stretch computes, as the stretch's operations applied to the contents of the buffers they read; a buffer the stretch does
  not write, as what it held.  The first three stretches cut the edge table into source and target words, count the edges
  into each node and form the normaliser (`kDinv`), lay it as a column and lay the dense layer's bias as a row; a stretch
  before each scaling region cuts out that layer's weight matrix; a stretch before each finishing region fetches and adds
  the scaled rows along the edges (`kAgg`) and lays that layer's bias as a row.
-/
import proofs.«134774_j63513976373392_2_alg».proof.Proof.Gen.KernelIdeal.Launch
import proofs.«134774_j63513976373392_2_alg».proof.Proof.KLayerDef
import Idealize.ShloMosaic.Lib.StableHlo.Run

noncomputable section

namespace Cert.Gcn.KHost

open Cert.KernelIdeal Cert.KernelIdeal.Gen Cert.Gcn.K Idealize.ShloMosaic Idealize.ShloMosaic.TcCoe Idealize.SL.Sem Idealize.ShloMosaic.StableHlo

variable {F : FTy → Type} [FloatOps F]

/-- The source words: row 0 of the edge table, flattened. -/
def srcOf (a1 : (⟨S2x800000, .i32⟩ : BufTy).Contents (Elt F)) : (⟨S800000, .i32⟩ : BufTy).Contents (Elt F) :=
  shapeCast S800000 (extractStridedSlice S1x800000 ![0, 0] a1 slices_S2x800000_S1x800000_0_0) shapeCasts_S1x800000_S800000
/-- The target words: row 1 of the edge table, flattened. -/
def dstOf (a1 : (⟨S2x800000, .i32⟩ : BufTy).Contents (Elt F)) : (⟨S800000, .i32⟩ : BufTy).Contents (Elt F) :=
  shapeCast S800000 (extractStridedSlice S1x800000 ![1, 0] a1 slices_S2x800000_S1x800000_1_0) shapeCasts_S1x800000_S800000
/-- The first convolution layer's weight matrix: slab 0 of the weight table. -/
def wOf0 (a4 : (⟨S2x256x256, .f32⟩ : BufTy).Contents (Elt F)) : (⟨S256x256, .f32⟩ : BufTy).Contents (Elt F) :=
  shapeCast S256x256 (extractStridedSlice S1x256x256 ![0, 0, 0] a4 slices_S2x256x256_S1x256x256_0_0_0) shapeCasts_S1x256x256_S256x256
/-- The second convolution layer's weight matrix: slab 1 of the weight table. -/
def wOf1 (a4 : (⟨S2x256x256, .f32⟩ : BufTy).Contents (Elt F)) : (⟨S256x256, .f32⟩ : BufTy).Contents (Elt F) :=
  shapeCast S256x256 (extractStridedSlice S1x256x256 ![1, 0, 0] a4 slices_S2x256x256_S1x256x256_1_0_0) shapeCasts_S1x256x256_S256x256
/-- The first convolution layer's bias: row 0 of the bias table. -/
def bOf0 (a5 : (⟨S2x256, .f32⟩ : BufTy).Contents (Elt F)) : (⟨S256, .f32⟩ : BufTy).Contents (Elt F) :=
  shapeCast S256 (extractStridedSlice S1x256 ![0, 0] a5 slices_S2x256_S1x256_0_0) shapeCasts_S1x256_S256
/-- The second convolution layer's bias: row 1 of the bias table. -/
def bOf1 (a5 : (⟨S2x256, .f32⟩ : BufTy).Contents (Elt F)) : (⟨S256, .f32⟩ : BufTy).Contents (Elt F) :=
  shapeCast S256 (extractStridedSlice S1x256 ![1, 0] a5 slices_S2x256_S1x256_1_0) shapeCasts_S1x256_S256

variable (Wv : Valuation τ sig (Elt F))

/-! ## The opening stretch: the edge words, the edge counts, the comparison and the power -/

theorem s0_v1 : StableHlo.after hostOps0 Wv (Proc.devRef .tc main_v1) = srcOf (Wv (Proc.devRef .tc main_arg1)) := by
  after_results; rfl
theorem s0_v3 : StableHlo.after hostOps0 Wv (Proc.devRef .tc main_v3) = dstOf (Wv (Proc.devRef .tc main_arg1)) := by
  after_results; rfl
theorem s0_v11 : StableHlo.after hostOps0 Wv (Proc.devRef .tc main_v11)
    = cmpf .ogt (kDeg (dstOf (Wv (Proc.devRef .tc main_arg1)))) (broadcastInDim S50000 ![] bcast_S_S50000 (constant S_ .f32 0x00000000#32)) := by
  after_results; rfl
theorem s0_v13 : StableHlo.after hostOps0 Wv (Proc.devRef .tc main_v13)
    = Host.powf (kDeg (dstOf (Wv (Proc.devRef .tc main_arg1)))) (broadcastInDim S50000 ![] bcast_S_S50000 (constant S_ .f32 0xBF000000#32)) := by
  after_results; rfl
theorem s0_cst_4 : StableHlo.after hostOps0 Wv (Proc.devRef .tc main_cst_4) = constant S_ .f32 0x00000000#32 := by
  after_results
theorem s0_arg0 : StableHlo.after hostOps0 Wv (Proc.devRef .tc main_arg0) = Wv (Proc.devRef .tc main_arg0) := by
  after_results_simp
theorem s0_arg2 : StableHlo.after hostOps0 Wv (Proc.devRef .tc main_arg2) = Wv (Proc.devRef .tc main_arg2) := by
  after_results_simp
theorem s0_arg3 : StableHlo.after hostOps0 Wv (Proc.devRef .tc main_arg3) = Wv (Proc.devRef .tc main_arg3) := by
  after_results_simp
theorem s0_arg4 : StableHlo.after hostOps0 Wv (Proc.devRef .tc main_arg4) = Wv (Proc.devRef .tc main_arg4) := by
  after_results_simp
theorem s0_arg5 : StableHlo.after hostOps0 Wv (Proc.devRef .tc main_arg5) = Wv (Proc.devRef .tc main_arg5) := by
  after_results_simp

/-! ## The choice between the power and zero -/

theorem s01_v14 : StableHlo.after hostOps0_1 Wv (Proc.devRef .tc main_v14)
    = select (Wv (Proc.devRef .tc main_v11)) (Wv (Proc.devRef .tc main_v13))
        (broadcastInDim S50000 ![] bcast_S_S50000 (id (Wv (Proc.devRef .tc main_cst_4)))) := by
  after_results; rfl
theorem s01_v1 : StableHlo.after hostOps0_1 Wv (Proc.devRef .tc main_v1) = Wv (Proc.devRef .tc main_v1) := by
  after_results_simp
theorem s01_v3 : StableHlo.after hostOps0_1 Wv (Proc.devRef .tc main_v3) = Wv (Proc.devRef .tc main_v3) := by
  after_results_simp
theorem s01_arg0 : StableHlo.after hostOps0_1 Wv (Proc.devRef .tc main_arg0) = Wv (Proc.devRef .tc main_arg0) := by
  after_results_simp
theorem s01_arg2 : StableHlo.after hostOps0_1 Wv (Proc.devRef .tc main_arg2) = Wv (Proc.devRef .tc main_arg2) := by
  after_results_simp
theorem s01_arg3 : StableHlo.after hostOps0_1 Wv (Proc.devRef .tc main_arg3) = Wv (Proc.devRef .tc main_arg3) := by
  after_results_simp
theorem s01_arg4 : StableHlo.after hostOps0_1 Wv (Proc.devRef .tc main_arg4) = Wv (Proc.devRef .tc main_arg4) := by
  after_results_simp
theorem s01_arg5 : StableHlo.after hostOps0_1 Wv (Proc.devRef .tc main_arg5) = Wv (Proc.devRef .tc main_arg5) := by
  after_results_simp

/-! ## The normaliser as a column, the dense layer's bias as a row -/

theorem s02_v15 : StableHlo.after hostOps0_2 Wv (Proc.devRef .tc main_v15) = dcolOf (Wv (Proc.devRef .tc main_v14)) := by
  after_results; rfl
theorem s02_v16 : StableHlo.after hostOps0_2 Wv (Proc.devRef .tc main_v16) = browOf (Wv (Proc.devRef .tc main_arg3)) := by
  after_results; rfl
theorem s02_v1 : StableHlo.after hostOps0_2 Wv (Proc.devRef .tc main_v1) = Wv (Proc.devRef .tc main_v1) := by
  after_results_simp
theorem s02_v3 : StableHlo.after hostOps0_2 Wv (Proc.devRef .tc main_v3) = Wv (Proc.devRef .tc main_v3) := by
  after_results_simp
theorem s02_arg0 : StableHlo.after hostOps0_2 Wv (Proc.devRef .tc main_arg0) = Wv (Proc.devRef .tc main_arg0) := by
  after_results_simp
theorem s02_arg2 : StableHlo.after hostOps0_2 Wv (Proc.devRef .tc main_arg2) = Wv (Proc.devRef .tc main_arg2) := by
  after_results_simp
theorem s02_arg4 : StableHlo.after hostOps0_2 Wv (Proc.devRef .tc main_arg4) = Wv (Proc.devRef .tc main_arg4) := by
  after_results_simp
theorem s02_arg5 : StableHlo.after hostOps0_2 Wv (Proc.devRef .tc main_arg5) = Wv (Proc.devRef .tc main_arg5) := by
  after_results_simp

/-! ## Before the first scaling region: the first weight matrix -/

theorem s1_v19 : StableHlo.after hostOps1 Wv (Proc.devRef .tc main_v19) = wOf0 (Wv (Proc.devRef .tc main_arg4)) := by
  after_results; rfl
theorem s1_v17 : StableHlo.after hostOps1 Wv (Proc.devRef .tc main_v17) = Wv (Proc.devRef .tc main_v17) := by
  after_results_simp
theorem s1_v15 : StableHlo.after hostOps1 Wv (Proc.devRef .tc main_v15) = Wv (Proc.devRef .tc main_v15) := by
  after_results_simp
theorem s1_v1 : StableHlo.after hostOps1 Wv (Proc.devRef .tc main_v1) = Wv (Proc.devRef .tc main_v1) := by
  after_results_simp
theorem s1_v3 : StableHlo.after hostOps1 Wv (Proc.devRef .tc main_v3) = Wv (Proc.devRef .tc main_v3) := by
  after_results_simp
theorem s1_arg4 : StableHlo.after hostOps1 Wv (Proc.devRef .tc main_arg4) = Wv (Proc.devRef .tc main_arg4) := by
  after_results_simp
theorem s1_arg5 : StableHlo.after hostOps1 Wv (Proc.devRef .tc main_arg5) = Wv (Proc.devRef .tc main_arg5) := by
  after_results_simp

/-! ## Before the first finishing region: the rows added along the edges, the first bias as a row -/

theorem s2_v30 : StableHlo.after hostOps2 Wv (Proc.devRef .tc main_v30)
    = kAgg (Wv (Proc.devRef .tc main_v20)) (Wv (Proc.devRef .tc main_v1)) (Wv (Proc.devRef .tc main_v3)) := by
  after_results; rfl
theorem s2_v33 : StableHlo.after hostOps2 Wv (Proc.devRef .tc main_v33) = browOf (bOf0 (Wv (Proc.devRef .tc main_arg5))) := by
  after_results; rfl
theorem s2_v20 : StableHlo.after hostOps2 Wv (Proc.devRef .tc main_v20) = Wv (Proc.devRef .tc main_v20) := by
  after_results_simp
theorem s2_v15 : StableHlo.after hostOps2 Wv (Proc.devRef .tc main_v15) = Wv (Proc.devRef .tc main_v15) := by
  after_results_simp
theorem s2_v1 : StableHlo.after hostOps2 Wv (Proc.devRef .tc main_v1) = Wv (Proc.devRef .tc main_v1) := by
  after_results_simp
theorem s2_v3 : StableHlo.after hostOps2 Wv (Proc.devRef .tc main_v3) = Wv (Proc.devRef .tc main_v3) := by
  after_results_simp
theorem s2_arg4 : StableHlo.after hostOps2 Wv (Proc.devRef .tc main_arg4) = Wv (Proc.devRef .tc main_arg4) := by
  after_results_simp
theorem s2_arg5 : StableHlo.after hostOps2 Wv (Proc.devRef .tc main_arg5) = Wv (Proc.devRef .tc main_arg5) := by
  after_results_simp

/-! ## Before the second scaling region: the second weight matrix -/

theorem s3_v36 : StableHlo.after hostOps3 Wv (Proc.devRef .tc main_v36) = wOf1 (Wv (Proc.devRef .tc main_arg4)) := by
  after_results; rfl
theorem s3_v34 : StableHlo.after hostOps3 Wv (Proc.devRef .tc main_v34) = Wv (Proc.devRef .tc main_v34) := by
  after_results_simp
theorem s3_v15 : StableHlo.after hostOps3 Wv (Proc.devRef .tc main_v15) = Wv (Proc.devRef .tc main_v15) := by
  after_results_simp
theorem s3_v1 : StableHlo.after hostOps3 Wv (Proc.devRef .tc main_v1) = Wv (Proc.devRef .tc main_v1) := by
  after_results_simp
theorem s3_v3 : StableHlo.after hostOps3 Wv (Proc.devRef .tc main_v3) = Wv (Proc.devRef .tc main_v3) := by
  after_results_simp
theorem s3_arg5 : StableHlo.after hostOps3 Wv (Proc.devRef .tc main_arg5) = Wv (Proc.devRef .tc main_arg5) := by
  after_results_simp

/-! ## Before the second finishing region: the rows added along the edges, the second bias as a row -/

theorem s4_v47 : StableHlo.after hostOps4 Wv (Proc.devRef .tc main_v47)
    = kAgg (Wv (Proc.devRef .tc main_v37)) (Wv (Proc.devRef .tc main_v1)) (Wv (Proc.devRef .tc main_v3)) := by
  after_results; rfl
theorem s4_v50 : StableHlo.after hostOps4 Wv (Proc.devRef .tc main_v50) = browOf (bOf1 (Wv (Proc.devRef .tc main_arg5))) := by
  after_results; rfl
theorem s4_v37 : StableHlo.after hostOps4 Wv (Proc.devRef .tc main_v37) = Wv (Proc.devRef .tc main_v37) := by
  after_results_simp
theorem s4_v15 : StableHlo.after hostOps4 Wv (Proc.devRef .tc main_v15) = Wv (Proc.devRef .tc main_v15) := by
  after_results_simp

end Cert.Gcn.KHost

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.TileBodies.lean ====
/-
  The five tiled bodies, each read at one entry of the tile it stores.

  Every body loads whole tiles and stores one whole tile of 2000 rows and 256 columns.  At the extended reals a change
  of float format moves no value and a reshape to the same shape moves no entry, so at row p and column q of the stored
  tile
    * the dense body holds  max (Σ_k x (p, k) · w (k, q) + b (0, q), 0): the product into a zero accumulator is the
      plain finite sum over the contracted coordinate, and the bias row [1, 256] is repeated down the 2000 rows;
    * the two scaling bodies hold  (Σ_k x (p, k) · w (k, q)) · d (p, 0): the column [2000, 1] is repeated along each row;
    * the two finishing bodies hold  max ((a (p, q) + h (p, q)) · d (p, 0) + b (0, q), 0).
  A body's one store covers its whole staging tile, and its loads read whole tiles, so what it leaves in the staging
  tile is exactly that payload of the tiles it was given.
-/
import proofs.«134774_j63513976373392_2_alg».proof.Proof.Gen.KernelIdeal.Frame
import proofs.«134774_j63513976373392_2_alg».proof.Proof.LibTileMatmul
import Idealize.ShloMosaic.Lib.ValueLayout

noncomputable section

open scoped BigOperators

namespace Cert.Gcn.Tiles

open Cert.KernelIdeal Cert.KernelIdeal.Gen Idealize.ShloMosaic Idealize.ShloMosaic.ValueIdx Idealize.ShloMosaic.TileMatmul

/-- The zero offsets of a whole-tile access, as the constant function. -/
theorem hz : (![0, 0] : Fin 2 → Nat) = fun _ => 0 := funext fun a => by fin_cases a <;> rfl

/-- A column `[a, 1]` broadcast to `[a, b]` reads, at `(p, c)`, the column's entry of row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The tile product into the zero accumulator at `(p, q)`: the finite sum over the contracted coordinate. -/
theorem mm_tile_apply {φ₁ φ₂ : FTy} (A : FVec Ideal S2000x256 φ₁) (B : FVec Ideal S256x256 φ₂) (p : Fin 2000) (q : Fin 256) :
    matmul (F := Ideal) dot_S2000x256_S256x256_S2000x256_1_0_0_1_n_n none A B
        (constant (F := Ideal) S2000x256 .f32 0x00000000#32) (ix2 p q)
      = ∑ k : Fin 256, A (ix2 p k) * B (ix2 k q) :=
  matmul_zero_apply (m := 2000) (k := 256) (n := 256) Gen.dot_S2000x256_S256x256_S2000x256_1_0_0_1_n_n_wf none A B p q

/-! ## The stored tile at an entry -/

/-- The dense body: relu of the row of x against the column of w, plus the bias row's entry. -/
theorem pay0_apply (x0 : Vec Ideal S2000x256 .f32) (x1 : Vec Ideal S256x256 .f32) (x2 : Vec Ideal S1x256 .f32)
    (p : Fin 2000) (q : Fin 256) :
    (k0_pay1 (F := Ideal) x0 x1 x2 (ix2 p q) : EReal)
      = max ((∑ k : Fin 256, (x0 (ix2 p k) : EReal) * x1 (ix2 k q)) + x2 (ix2 (0 : Fin 1) q)) 0 := by
  unfold k0_pay1
  simp only [maximumf_apply, addf_apply, broadcast_apply, mm_tile_apply, truncf_apply, shapeCast_self,
    broadcastTo_1b_ab_apply, Ideal.ofBits_def, Ideal.ofBits_zero_f32]

/-- The first scaling body: the row of x against the column of w, times the column tile's entry of that row. -/
theorem pay1_apply (x0 : Vec Ideal S2000x256 .f32) (x1 : Vec Ideal S256x256 .f32) (x2 : Vec Ideal S2000x1 .f32)
    (p : Fin 2000) (q : Fin 256) :
    (k1_pay1 (F := Ideal) x0 x1 x2 (ix2 p q) : EReal)
      = (∑ k : Fin 256, (x0 (ix2 p k) : EReal) * x1 (ix2 k q)) * x2 (ix2 p (0 : Fin 1)) := by
  unfold k1_pay1
  simp only [mulf_apply, mm_tile_apply, truncf_apply, shapeCast_self, broadcastTo_a1_ab_apply]

/-- The second scaling body: the same text. -/
theorem pay3_apply (x0 : Vec Ideal S2000x256 .f32) (x1 : Vec Ideal S256x256 .f32) (x2 : Vec Ideal S2000x1 .f32)
    (p : Fin 2000) (q : Fin 256) :
    (k3_pay1 (F := Ideal) x0 x1 x2 (ix2 p q) : EReal)
      = (∑ k : Fin 256, (x0 (ix2 p k) : EReal) * x1 (ix2 k q)) * x2 (ix2 p (0 : Fin 1)) := by
  unfold k3_pay1
  simp only [mulf_apply, mm_tile_apply, truncf_apply, shapeCast_self, broadcastTo_a1_ab_apply]

/-- The first finishing body: relu of the two tiles' sum scaled by the column tile's entry, plus the bias row's entry. -/
theorem pay2_apply (x0 x1 : Vec Ideal S2000x256 .f32) (x2 : Vec Ideal S2000x1 .f32) (x3 : Vec Ideal S1x256 .f32)
    (p : Fin 2000) (q : Fin 256) :
    (k2_pay1 (F := Ideal) x0 x1 x2 x3 (ix2 p q) : EReal)
      = max (((x0 (ix2 p q) : EReal) + x1 (ix2 p q)) * x2 (ix2 p (0 : Fin 1)) + x3 (ix2 (0 : Fin 1) q)) 0 := by
  unfold k2_pay1
  simp only [maximumf_apply, addf_apply, mulf_apply, broadcast_apply, shapeCast_self, broadcastTo_a1_ab_apply,
    broadcastTo_1b_ab_apply, Ideal.ofBits_def, Ideal.ofBits_zero_f32]

/-- The second finishing body: the same text. -/
theorem pay4_apply (x0 x1 : Vec Ideal S2000x256 .f32) (x2 : Vec Ideal S2000x1 .f32) (x3 : Vec Ideal S1x256 .f32)
    (p : Fin 2000) (q : Fin 256) :
    (k4_pay1 (F := Ideal) x0 x1 x2 x3 (ix2 p q) : EReal)
      = max (((x0 (ix2 p q) : EReal) + x1 (ix2 p q)) * x2 (ix2 p (0 : Fin 1)) + x3 (ix2 (0 : Fin 1) q)) 0 := by
  unfold k4_pay1
  simp only [maximumf_apply, addf_apply, mulf_apply, broadcast_apply, shapeCast_self, broadcastTo_a1_ab_apply,
    broadcastTo_1b_ab_apply, Ideal.ofBits_def, Ideal.ofBits_zero_f32]

/-! ## What a body leaves in its staging tile is its payload of the tiles it loaded -/

theorem out0_eq (x0 : Vec Ideal S2000x256 .f32) (x1 : Vec Ideal S256x256 .f32) (x2 : Vec Ideal S1x256 .f32) :
    out0_3 (F := Ideal) x0 x1 x2 = k0_pay1 x0 x1 x2 := by
  unfold out0_3
  rw [View.canon_unit_zero hz]
  simp only [View.ld_unit_zero (S := S2000x256) hz, View.ld_unit_zero (S := S256x256) hz, View.ld_unit_zero (S := S1x256) hz]

theorem out1_eq (x0 : Vec Ideal S2000x256 .f32) (x1 : Vec Ideal S256x256 .f32) (x2 : Vec Ideal S2000x1 .f32) :
    out1_3 (F := Ideal) x0 x1 x2 = k1_pay1 x0 x1 x2 := by
  unfold out1_3
  rw [View.canon_unit_zero hz]
  simp only [View.ld_unit_zero (S := S2000x256) hz, View.ld_unit_zero (S := S256x256) hz, View.ld_unit_zero (S := S2000x1) hz]

theorem out2_eq (x0 x1 : Vec Ideal S2000x256 .f32) (x2 : Vec Ideal S2000x1 .f32) (x3 : Vec Ideal S1x256 .f32) :
    out2_4 (F := Ideal) x0 x1 x2 x3 = k2_pay1 x0 x1 x2 x3 := by
  unfold out2_4
  rw [View.canon_unit_zero hz]
  simp only [View.ld_unit_zero (S := S2000x256) hz, View.ld_unit_zero (S := S2000x1) hz, View.ld_unit_zero (S := S1x256) hz]

theorem out3_eq (x0 : Vec Ideal S2000x256 .f32) (x1 : Vec Ideal S256x256 .f32) (x2 : Vec Ideal S2000x1 .f32) :
    out3_3 (F := Ideal) x0 x1 x2 = k3_pay1 x0 x1 x2 := by
  unfold out3_3
  rw [View.canon_unit_zero hz]
  simp only [View.ld_unit_zero (S := S2000x256) hz, View.ld_unit_zero (S := S256x256) hz, View.ld_unit_zero (S := S2000x1) hz]

theorem out4_eq (x0 x1 : Vec Ideal S2000x256 .f32) (x2 : Vec Ideal S2000x1 .f32) (x3 : Vec Ideal S1x256 .f32) :
    out4_4 (F := Ideal) x0 x1 x2 x3 = k4_pay1 x0 x1 x2 x3 := by
  unfold out4_4
  rw [View.canon_unit_zero hz]
  simp only [View.ld_unit_zero (S := S2000x256) hz, View.ld_unit_zero (S := S2000x1) hz, View.ld_unit_zero (S := S1x256) hz]

end Cert.Gcn.Tiles

end
-- ==== Proof.TileRegion0.lean ====
/-
  The dense layer's tiled kernel as one function of its whole operand arrays.

  The grid has 25 points; point t works on rows 2000·t … 2000·t + 1999 of the node features (its tile is block (t, 0) of the
  [50000, 256] array), on the whole weight matrix and on the whole bias row (block (0, 0) at every point), and writes
  back block (t, 0) of the result.  Entry (p, q) of the tile a point stores is
  relu (Σ_k x (2000·t + p, k) · w (k, q) + b (0, q)), which is entry (2000·t + p, q) of the whole-array function
  `proj x w b`: a row of the product needs only that row of x.  Row r of the result lies in the block of point r / 2000,
  so the 25 write-backs cover the array and it ends holding `proj x w b`.
-/
import proofs.«134774_j63513976373392_2_alg».proof.Proof.TileBodies
import proofs.«134774_j63513976373392_2_alg».proof.Proof.Spec
import Idealize.ShloMosaic.Lib.Pipeline.Value

noncomputable section

open scoped BigOperators

namespace Cert.Gcn.Tiles

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of the four windows at every point: the features and the result move with the point along the
    rows, the weight and the bias row stay at block (0, 0). Decided over the 25 points. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature tile of point `t`, read off a table `A`: entry `y` is `A` at row `2000·t + y₀`, column `y₁`. -/
theorem read0_0 (A : S50000x256.Idx → EReal) (t : Fin cfg0.N) (y : ((cfg0.win 0).xblock (grid0.coords t)).Idx)
    (i : S50000x256.Idx) (h0 : (i 0).val = 2000 * t.val + (y 0).val) (h1 : (i 1).val = (y 1).val) :
    ((cfg0.win 0).blk t).view.read (Elt Ideal) A y = A i := by
  obtain ⟨e0, e1, -⟩ := idx0 t
  rw [View.read_apply]
  show A (((cfg0.win 0).blk t).view.emb y) = A i
  refine congrArg A (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 256 + 1 * (y 1).val = (i 1).val; rw [e1, h1]; omega

/-- The weight tile is the whole weight matrix at every point. -/
theorem read0_1 (W : S256x256.Idx → EReal) (t : Fin cfg0.N) (y : ((cfg0.win 1).xblock (grid0.coords t)).Idx)
    (i : S256x256.Idx) (h0 : (i 0).val = (y 0).val) (h1 : (i 1).val = (y 1).val) :
    ((cfg0.win 1).blk t).view.read (Elt Ideal) W y = W i := by
  obtain ⟨-, -, e0, e1, -⟩ := idx0 t
  rw [View.read_apply]
  show W (((cfg0.win 1).blk t).view.emb y) = W i
  refine congrArg W (funext fun a => Fin.ext ?_)
  match a with
  | ⟨0, _⟩ => show win0_1.index t (0 : Fin 2) * 256 + 1 * (y 0).val = (i 0).val; rw [e0, h0]; omega
  | ⟨1, _⟩ => show win0_1.index t (1 : Fin 2) * 256 + 1 * (y 1).val = (i 1).val; rw [e1, h1]; omega

/-- The bias tile is the whole bias row at every point. -/
theorem read0_2 (B : S1x256.Idx → EReal) (t : Fin cfg0.N) (y : ((cfg0.win 2).xblock (grid0.coords t)).Idx)
    (i : S1x256.Idx) (h0 : (i 0).val = (y 0).val) (h1 : (i 1).val = (y 1).val) :
    ((cfg0.win 2).blk t).view.read (Elt Ideal) B y = B i := by
  obtain ⟨-, -, -, -, e0, e1, -⟩ := idx0 t
  rw [View.read_apply]
  show B (((cfg0.win 2).blk t).view.emb y) = B i
  refine congrArg B (funext fun a => Fin.ext ?_)
  match a with
  | ⟨0, _⟩ => show win0_2.index t (0 : Fin 2) * 1 + 1 * (y 0).val = (i 0).val; rw [e0, h0]; omega
  | ⟨1, _⟩ => show win0_2.index t (1 : Fin 2) * 256 + 1 * (y 1).val = (i 1).val; rw [e1, h1]; omega

/-- The result tile of point `t`, read off a table `G`: entry `y` is `G` at row `2000·t + y₀`, column `y₁`. -/
theorem read0_3 (G : S50000x256.Idx → EReal) (t : Fin cfg0.N) (y : ((cfg0.win 3).xblock (grid0.coords t)).Idx)
    (i : S50000x256.Idx) (h0 : (i 0).val = 2000 * t.val + (y 0).val) (h1 : (i 1).val = (y 1).val) :
    ((cfg0.win 3).blk t).view.read (Elt Ideal) G y = G i := by
  obtain ⟨-, -, -, -, -, -, e0, e1⟩ := idx0 t
  rw [View.read_apply]
  show G (((cfg0.win 3).blk t).view.emb y) = G i
  refine congrArg G (funext fun a => Fin.ext ?_)
  match a with
  | ⟨0, _⟩ => show win0_3.index t (0 : Fin 2) * 2000 + 1 * (y 0).val = (i 0).val; rw [e0, h0]; omega
  | ⟨1, _⟩ => show win0_3.index t (1 : Fin 2) * 256 + 1 * (y 1).val = (i 1).val; rw [e1, h1]; omega

/-- What a write-back moves of a staging tile `X` is all of it: entry `y` is `X` at `y`'s coordinates. -/
theorem cut0 (t : Fin cfg0.N) (X : Vec Ideal S2000x256 .f32) (y : ((cfg0.win 3).xblock (grid0.coords t)).Idx)
    (p : Fin 2000) (q : Fin 256) (hp : p.val = (y 0).val) (hq : q.val = (y 1).val) :
    (cfg0.win 3).cut (grid0.coords t) X y = X (ix2 p q) := by
  show X ((cfg0.win 3).xinj (grid0.coords t) y) = X (ix2 p q)
  refine congrArg X (funext fun a => Fin.ext ?_)
  match a with
  | ⟨0, _⟩ => exact hp.symm
  | ⟨1, _⟩ => exact hq.symm

/-- ONE POINT. If the three loaded tiles are the rows `2000·t …` of `A`, all of `W` and all of `B`, what the point writes
    back is block `t` of `proj A W B`. -/
theorem tile0 (A : S50000x256.Idx → EReal) (W : S256x256.Idx → EReal) (B : S1x256.Idx → EReal) (t : Fin cfg0.N)
    (x0 : Vec Ideal S2000x256 .f32) (x1 : Vec Ideal S256x256 .f32) (x2 : Vec Ideal S1x256 .f32)
    (h0 : ∀ (p : Fin 2000) (k : Fin 256) (i : Fin 50000), i.val = 2000 * t.val + p.val → (x0 (ix2 p k) : EReal) = A (ix2 i k))
    (h1 : ∀ (k q : Fin 256), (x1 (ix2 k q) : EReal) = W (ix2 k q))
    (h2 : ∀ q : Fin 256, (x2 (ix2 (0 : Fin 1) q) : EReal) = B (ix2 (0 : Fin 1) q)) :
    (cfg0.win 3).cut (grid0.coords t) (k0_pay1 (F := Ideal) x0 x1 x2)
      = ((cfg0.win 3).blk t).view.read (Elt Ideal) (proj A W B) := by
  funext y
  have hN : t.val < 25 := lt_of_lt_of_eq t.isLt N_0
  have hp : (y 0).val < 2000 := (y 0).isLt
  have hq : (y 1).val < 256 := (y 1).isLt
  rw [cut0 t _ y ⟨(y 0).val, hp⟩ ⟨(y 1).val, hq⟩ rfl rfl, pay0_apply,
    read0_3 (proj A W B) t y (ix2 ⟨2000 * t.val + (y 0).val, by omega⟩ ⟨(y 1).val, hq⟩) rfl rfl]
  show _ = max ((∑ k : Fin 256, A (ix2 ⟨2000 * t.val + (y 0).val, _⟩ k) * W (ix2 k ⟨(y 1).val, hq⟩))
    + B (ix2 (0 : Fin 1) ⟨(y 1).val, hq⟩)) 0
  rw [h2]
  refine congrArg (fun s => max (s + _) 0) (Finset.sum_congr rfl fun k _ => ?_)
  rw [h0 ⟨(y 0).val, hp⟩ k ⟨2000 * t.val + (y 0).val, by omega⟩ rfl, h1]

/-- The three input tiles of point `t` as the region finds its arrays. -/
theorem iblk0_0_apply (c : Dev nD) (t : Fin cfg0.N) (p : Fin 2000) (k : Fin 256) (i : Fin 50000)
    (hi : i.val = 2000 * t.val + p.val) :
    ((iblk0 V c 0 t : Vec Ideal S2000x256 .f32) (ix2 p k) : EReal) = (V c main_arg0 : S50000x256.Idx → EReal) (ix2 i k) := by
  unfold iblk0
  exact read0_0 (V c main_arg0) t (ix2 p k) (ix2 i k) hi rfl

theorem iblk0_1_apply (c : Dev nD) (t : Fin cfg0.N) (k q : Fin 256) :
    ((iblk0 V c 1 t : Vec Ideal S256x256 .f32) (ix2 k q) : EReal) = (V c main_arg2 : S256x256.Idx → EReal) (ix2 k q) := by
  unfold iblk0
  exact read0_1 (V c main_arg2) t (ix2 k q) (ix2 k q) rfl rfl

theorem iblk0_2_apply (c : Dev nD) (t : Fin cfg0.N) (q : Fin 256) :
    ((iblk0 V c 2 t : Vec Ideal S1x256 .f32) (ix2 (0 : Fin 1) q) : EReal) = (V c main_v16 : S1x256.Idx → EReal) (ix2 (0 : Fin 1) q) := by
  unfold iblk0
  exact read0_2 (V c main_v16) t (ix2 (0 : Fin 1) q) (ix2 (0 : Fin 1) q) rfl rfl

/-- WHAT POINT `t` WRITES BACK is block `t` of `proj` of the three arrays as the region finds them. -/
theorem flushed0 (c : Dev nD) (t : Fin cfg0.N) :
    (dat0 (F := Ideal) V c).flushed 3 t
      = ((cfg0.win 3).blk t).view.read (Elt Ideal) (proj (V c main_arg0) (V c main_arg2) (V c main_v16)) := by
  show (cfg0.win 3).cut (grid0.coords t) ((dat0 V c).after 3 t) = _
  rw [after0_3, out0_eq]
  exact tile0 (V c main_arg0) (V c main_arg2) (V c main_v16) t (iblk0 V c 0 t) (iblk0 V c 1 t) (iblk0 V c 2 t)
    (iblk0_0_apply V c t) (iblk0_1_apply V c t) (iblk0_2_apply V c t)

/-- Row `r` of the result lies in the block of point `r / 2000`. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, e0, e1⟩ := idx0 t
  refine ⟨t, flush0_3 t, ?_⟩
  show i ∈ ((View.whole main_v17).slice (win0_3.rect t)).set
  rw [View.set_slice_whole, Rect.mem_set_unit]
  intro a
  match a with
  | ⟨0, _⟩ =>
    show win0_3.index t (0 : Fin 2) * 2000 ≤ (i 0).val ∧ (i 0).val < win0_3.index t (0 : Fin 2) * 2000 + 2000
    rw [e0, ht]; omega
  | ⟨1, _⟩ =>
    show win0_3.index t (1 : Fin 2) * 256 ≤ (i 1).val ∧ (i 1).val < win0_3.index t (1 : Fin 2) * 256 + 256
    rw [e1]; omega

/-- THE ARRAY after the region: `proj` of the region's three input arrays. -/
theorem region0 (c : Dev nD) :
    ((dat0 (F := Ideal) V c).arrAt 3 cfg0.N : SN.Idx → EReal) = proj (V c main_arg0) (V c main_arg2) (V c main_v16) :=
  (dat0 (F := Ideal) V c).arrAt_eq_of_cover 3 (proj (V c main_arg0) (V c main_arg2) (V c main_v16))
    (fun t _ => flushed0 V c t) cover0

end Cert.Gcn.Tiles

end
-- ==== Proof.TileRegion1.lean ====
/-
  The first scaling kernel as one function of its whole operand arrays.

  The grid has 25 points; point t works on rows 2000·t … 2000·t + 1999 of the features (block (t, 0) of the [50000, 256]
  array) and of the normaliser column (block (t, 0) of the [50000, 1] array), on the whole weight matrix (block (0, 0) at
  every point), and writes back block (t, 0) of the result.  Entry (p, q) of the tile a point stores is
  (Σ_k x (2000·t + p, k) · w (k, q)) · d (2000·t + p, 0), which is entry (2000·t + p, q) of the whole-array function
  `mmScale x w d`: a row of the product needs only that row of x, and its scale only that row of d.  Row r of the result
  lies in the block of point r / 2000, so the 25 write-backs cover the array and it ends holding `mmScale x w d`.
-/
import proofs.«134774_j63513976373392_2_alg».proof.Proof.TileBodies
import proofs.«134774_j63513976373392_2_alg».proof.Proof.Spec
import Idealize.ShloMosaic.Lib.Pipeline.Value

noncomputable section

open scoped BigOperators

namespace Cert.Gcn.Tiles

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of the four windows at every point: the features, the column and the result move with the point
    along the rows, the weight stays at block (0, 0). Decided over the 25 points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The feature tile of point `t`, read off a table `A`: entry `y` is `A` at row `2000·t + y₀`, column `y₁`. -/
theorem read1_0 (A : S50000x256.Idx → EReal) (t : Fin cfg1.N) (y : ((cfg1.win 0).xblock (grid1.coords t)).Idx)
    (i : S50000x256.Idx) (h0 : (i 0).val = 2000 * t.val + (y 0).val) (h1 : (i 1).val = (y 1).val) :
    ((cfg1.win 0).blk t).view.read (Elt Ideal) A y = A i := by
  obtain ⟨e0, e1, -⟩ := idx1 t
  rw [View.read_apply]
  show A (((cfg1.win 0).blk t).view.emb y) = A i
  refine congrArg A (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

/-- The weight tile is the whole weight matrix at every point. -/
theorem read1_1 (W : S256x256.Idx → EReal) (t : Fin cfg1.N) (y : ((cfg1.win 1).xblock (grid1.coords t)).Idx)
    (i : S256x256.Idx) (h0 : (i 0).val = (y 0).val) (h1 : (i 1).val = (y 1).val) :
    ((cfg1.win 1).blk t).view.read (Elt Ideal) W y = W i := by
  obtain ⟨-, -, e0, e1, -⟩ := idx1 t
  rw [View.read_apply]
  show W (((cfg1.win 1).blk t).view.emb y) = W i
  refine congrArg W (funext fun a => Fin.ext ?_)
  match a with
  | ⟨0, _⟩ => show win1_1.index t (0 : Fin 2) * 256 + 1 * (y 0).val = (i 0).val; rw [e0, h0]; omega
  | ⟨1, _⟩ => show win1_1.index t (1 : Fin 2) * 256 + 1 * (y 1).val = (i 1).val; rw [e1, h1]; omega

/-- The column tile of point `t`, read off a table `D`: entry `y` is `D` at row `2000·t + y₀`. -/
theorem read1_2 (D : S50000x1.Idx → EReal) (t : Fin cfg1.N) (y : ((cfg1.win 2).xblock (grid1.coords t)).Idx)
    (i : S50000x1.Idx) (h0 : (i 0).val = 2000 * t.val + (y 0).val) (h1 : (i 1).val = (y 1).val) :
    ((cfg1.win 2).blk t).view.read (Elt Ideal) D y = D i := by
  obtain ⟨-, -, -, -, e0, e1, -⟩ := idx1 t
  rw [View.read_apply]
  show D (((cfg1.win 2).blk t).view.emb y) = D i
  refine congrArg D (funext fun a => Fin.ext ?_)
  match a with
  | ⟨0, _⟩ => show win1_2.index t (0 : Fin 2) * 2000 + 1 * (y 0).val = (i 0).val; rw [e0, h0]; omega
  | ⟨1, _⟩ => show win1_2.index t (1 : Fin 2) * 1 + 1 * (y 1).val = (i 1).val; rw [e1, h1]; omega

/-- The result tile of point `t`, read off a table `G`: entry `y` is `G` at row `2000·t + y₀`, column `y₁`. -/
theorem read1_3 (G : S50000x256.Idx → EReal) (t : Fin cfg1.N) (y : ((cfg1.win 3).xblock (grid1.coords t)).Idx)
    (i : S50000x256.Idx) (h0 : (i 0).val = 2000 * t.val + (y 0).val) (h1 : (i 1).val = (y 1).val) :
    ((cfg1.win 3).blk t).view.read (Elt Ideal) G y = G i := by
  obtain ⟨-, -, -, -, -, -, e0, e1⟩ := idx1 t
  rw [View.read_apply]
  show G (((cfg1.win 3).blk t).view.emb y) = G i
  refine congrArg G (funext fun a => Fin.ext ?_)
  match a with
  | ⟨0, _⟩ => show win1_3.index t (0 : Fin 2) * 2000 + 1 * (y 0).val = (i 0).val; rw [e0, h0]; omega
  | ⟨1, _⟩ => show win1_3.index t (1 : Fin 2) * 256 + 1 * (y 1).val = (i 1).val; rw [e1, h1]; omega

/-- What a write-back moves of a staging tile `X` is all of it: entry `y` is `X` at `y`'s coordinates. -/
theorem cut1 (t : Fin cfg1.N) (X : Vec Ideal S2000x256 .f32) (y : ((cfg1.win 3).xblock (grid1.coords t)).Idx)
    (p : Fin 2000) (q : Fin 256) (hp : p.val = (y 0).val) (hq : q.val = (y 1).val) :
    (cfg1.win 3).cut (grid1.coords t) X y = X (ix2 p q) := by
  show X ((cfg1.win 3).xinj (grid1.coords t) y) = X (ix2 p q)
  refine congrArg X (funext fun a => Fin.ext ?_)
  match a with
  | ⟨0, _⟩ => exact hp.symm
  | ⟨1, _⟩ => exact hq.symm

/-- ONE POINT. If the three loaded tiles are the rows `2000·t …` of `A`, all of `W` and the rows `2000·t …` of `D`, what the
    point writes back is block `t` of `mmScale A W D`. -/
theorem tile1 (A : S50000x256.Idx → EReal) (W : S256x256.Idx → EReal) (D : S50000x1.Idx → EReal) (t : Fin cfg1.N)
    (x0 : Vec Ideal S2000x256 .f32) (x1 : Vec Ideal S256x256 .f32) (x2 : Vec Ideal S2000x1 .f32)
    (h0 : ∀ (p : Fin 2000) (k : Fin 256) (i : Fin 50000), i.val = 2000 * t.val + p.val → (x0 (ix2 p k) : EReal) = A (ix2 i k))
    (h1 : ∀ (k q : Fin 256), (x1 (ix2 k q) : EReal) = W (ix2 k q))
    (h2 : ∀ (p : Fin 2000) (i : Fin 50000), i.val = 2000 * t.val + p.val →
      (x2 (ix2 p (0 : Fin 1)) : EReal) = D (ix2 i (0 : Fin 1))) :
    (cfg1.win 3).cut (grid1.coords t) (k1_pay1 (F := Ideal) x0 x1 x2)
      = ((cfg1.win 3).blk t).view.read (Elt Ideal) (mmScale A W D) := by
  funext y
  have hN : t.val < 25 := lt_of_lt_of_eq t.isLt N_1
  have hp : (y 0).val < 2000 := (y 0).isLt
  have hq : (y 1).val < 256 := (y 1).isLt
  rw [cut1 t _ y ⟨(y 0).val, hp⟩ ⟨(y 1).val, hq⟩ rfl rfl, pay1_apply,
    read1_3 (mmScale A W D) t y (ix2 ⟨2000 * t.val + (y 0).val, by omega⟩ ⟨(y 1).val, hq⟩) rfl rfl]
  show _ = (∑ k : Fin 256, A (ix2 ⟨2000 * t.val + (y 0).val, _⟩ k) * W (ix2 k ⟨(y 1).val, hq⟩))
    * D (ix2 ⟨2000 * t.val + (y 0).val, _⟩ (0 : Fin 1))
  rw [h2 ⟨(y 0).val, hp⟩ ⟨2000 * t.val + (y 0).val, by omega⟩ rfl]
  refine congrArg (fun s => s * _) (Finset.sum_congr rfl fun k _ => ?_)
  rw [h0 ⟨(y 0).val, hp⟩ k ⟨2000 * t.val + (y 0).val, by omega⟩ rfl, h1]

/-- The three input tiles of point `t` as the region finds its arrays. -/
theorem iblk1_0_apply (c : Dev nD) (t : Fin cfg1.N) (p : Fin 2000) (k : Fin 256) (i : Fin 50000)
    (hi : i.val = 2000 * t.val + p.val) :
    ((iblk1 V c 0 t : Vec Ideal S2000x256 .f32) (ix2 p k) : EReal) = (V c main_v17 : S50000x256.Idx → EReal) (ix2 i k) := by
  unfold iblk1
  exact read1_0 (V c main_v17) t (ix2 p k) (ix2 i k) hi rfl

theorem iblk1_1_apply (c : Dev nD) (t : Fin cfg1.N) (k q : Fin 256) :
    ((iblk1 V c 1 t : Vec Ideal S256x256 .f32) (ix2 k q) : EReal) = (V c main_v19 : S256x256.Idx → EReal) (ix2 k q) := by
  unfold iblk1
  exact read1_1 (V c main_v19) t (ix2 k q) (ix2 k q) rfl rfl

theorem iblk1_2_apply (c : Dev nD) (t : Fin cfg1.N) (p : Fin 2000) (i : Fin 50000)
    (hi : i.val = 2000 * t.val + p.val) :
    ((iblk1 V c 2 t : Vec Ideal S2000x1 .f32) (ix2 p (0 : Fin 1)) : EReal)
      = (V c main_v15 : S50000x1.Idx → EReal) (ix2 i (0 : Fin 1)) := by
  unfold iblk1
  exact read1_2 (V c main_v15) t (ix2 p (0 : Fin 1)) (ix2 i (0 : Fin 1)) hi rfl

/-- WHAT POINT `t` WRITES BACK is block `t` of `mmScale` of the three arrays as the region finds them. -/
theorem flushed1 (c : Dev nD) (t : Fin cfg1.N) :
    (dat1 (F := Ideal) V c).flushed 3 t
      = ((cfg1.win 3).blk t).view.read (Elt Ideal) (mmScale (V c main_v17) (V c main_v19) (V c main_v15)) := by
  show (cfg1.win 3).cut (grid1.coords t) ((dat1 V c).after 3 t) = _
  rw [after1_3, out1_eq]
  exact tile1 (V c main_v17) (V c main_v19) (V c main_v15) t (iblk1 V c 0 t) (iblk1 V c 1 t) (iblk1 V c 2 t)
    (iblk1_0_apply V c t) (iblk1_1_apply V c t) (iblk1_2_apply V c t)

/-- Row `r` of the result lies in the block of point `r / 2000`. -/
theorem cover1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, e0, e1⟩ := idx1 t
  refine ⟨t, flush1_3 t, ?_⟩
  show i ∈ ((View.whole main_v20).slice (win1_3.rect t)).set
  rw [View.set_slice_whole, Rect.mem_set_unit]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 256 ≤ (i 1).val ∧ (i 1).val < win1_3.index t (1 : Fin 2) * 256 + 256
    rw [e1]; omega

/-- THE ARRAY after the region: `mmScale` of the region's three input arrays. -/
theorem region1 (c : Dev nD) :
    ((dat1 (F := Ideal) V c).arrAt 3 cfg1.N : SN.Idx → EReal) = mmScale (V c main_v17) (V c main_v19) (V c main_v15) :=
  (dat1 (F := Ideal) V c).arrAt_eq_of_cover 3 (mmScale (V c main_v17) (V c main_v19) (V c main_v15))
    (fun t _ => flushed1 V c t) cover1

end Cert.Gcn.Tiles

end
-- ==== Proof.TileRegion2.lean ====
/-
  The first finishing kernel as one function of its whole operand arrays.

  The grid has 25 points; point t works on rows 2000·t … 2000·t + 1999 of the two [50000, 256] arrays it adds (block
  (t, 0) of each) and of the normaliser column (block (t, 0) of the [50000, 1] array), on the whole bias row (block (0, 0)
  at every point), and writes back block (t, 0) of the result.  Entry (p, q) of the tile a point stores is
  relu ((a (2000·t + p, q) + h (2000·t + p, q)) · d (2000·t + p, 0) + b (0, q)), which is entry (2000·t + p, q) of the
  whole-array function `fin a h d b`: every operation is entry by entry.  Row r of the result lies in the block of point
  r / 2000, so the 25 write-backs cover the array and it ends holding `fin a h d b`.
-/
import proofs.«134774_j63513976373392_2_alg».proof.Proof.TileBodies
import proofs.«134774_j63513976373392_2_alg».proof.Proof.Spec
import Idealize.ShloMosaic.Lib.Pipeline.Value

noncomputable section

open scoped BigOperators

namespace Cert.Gcn.Tiles

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of the five windows at every point: the two summands, the column and the result move with the
    point along the rows, the bias row stays at block (0, 0). Decided over the 25 points. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The first summand's tile of point `t`, read off a table `A`: entry `y` is `A` at row `2000·t + y₀`, column `y₁`. -/
theorem read2_0 (A : S50000x256.Idx → EReal) (t : Fin cfg2.N) (y : ((cfg2.win 0).xblock (grid2.coords t)).Idx)
    (i : S50000x256.Idx) (h0 : (i 0).val = 2000 * t.val + (y 0).val) (h1 : (i 1).val = (y 1).val) :
    ((cfg2.win 0).blk t).view.read (Elt Ideal) A y = A i := by
  obtain ⟨e0, e1, -⟩ := idx2 t
  rw [View.read_apply]
  show A (((cfg2.win 0).blk t).view.emb y) = A i
  refine congrArg A (funext fun a => Fin.ext ?_)
  match a with
  | ⟨0, _⟩ => show win2_0.index t (0 : Fin 2) * 2000 + 1 * (y 0).val = (i 0).val; rw [e0, h0]; omega
  | ⟨1, _⟩ => show win2_0.index t (1 : Fin 2) * 256 + 1 * (y 1).val = (i 1).val; rw [e1, h1]; omega

/-- The second summand's tile of point `t`, read off a table `H`: the same rows. -/
theorem read2_1 (H : S50000x256.Idx → EReal) (t : Fin cfg2.N) (y : ((cfg2.win 1).xblock (grid2.coords t)).Idx)
    (i : S50000x256.Idx) (h0 : (i 0).val = 2000 * t.val + (y 0).val) (h1 : (i 1).val = (y 1).val) :
    ((cfg2.win 1).blk t).view.read (Elt Ideal) H y = H i := by
  obtain ⟨-, -, e0, e1, -⟩ := idx2 t
  rw [View.read_apply]
  show H (((cfg2.win 1).blk t).view.emb y) = H i
  refine congrArg H (funext fun a => Fin.ext ?_)
  match a with
  | ⟨0, _⟩ => show win2_1.index t (0 : Fin 2) * 2000 + 1 * (y 0).val = (i 0).val; rw [e0, h0]; omega
  | ⟨1, _⟩ => show win2_1.index t (1 : Fin 2) * 256 + 1 * (y 1).val = (i 1).val; rw [e1, h1]; omega

/-- The column tile of point `t`, read off a table `D`: entry `y` is `D` at row `2000·t + y₀`. -/
theorem read2_2 (D : S50000x1.Idx → EReal) (t : Fin cfg2.N) (y : ((cfg2.win 2).xblock (grid2.coords t)).Idx)
    (i : S50000x1.Idx) (h0 : (i 0).val = 2000 * t.val + (y 0).val) (h1 : (i 1).val = (y 1).val) :
    ((cfg2.win 2).blk t).view.read (Elt Ideal) D y = D i := by
  obtain ⟨-, -, -, -, e0, e1, -⟩ := idx2 t
  rw [View.read_apply]
  show D (((cfg2.win 2).blk t).view.emb y) = D i
  refine congrArg D (funext fun a => Fin.ext ?_)
  match a with
  | ⟨0, _⟩ => show win2_2.index t (0 : Fin 2) * 2000 + 1 * (y 0).val = (i 0).val; rw [e0, h0]; omega
  | ⟨1, _⟩ => show win2_2.index t (1 : Fin 2) * 1 + 1 * (y 1).val = (i 1).val; rw [e1, h1]; omega

/-- The bias tile is the whole bias row at every point. -/
theorem read2_3 (B : S1x256.Idx → EReal) (t : Fin cfg2.N) (y : ((cfg2.win 3).xblock (grid2.coords t)).Idx)
    (i : S1x256.Idx) (h0 : (i 0).val = (y 0).val) (h1 : (i 1).val = (y 1).val) :
    ((cfg2.win 3).blk t).view.read (Elt Ideal) B y = B i := by
  obtain ⟨-, -, -, -, -, -, e0, e1, -⟩ := idx2 t
  rw [View.read_apply]
  show B (((cfg2.win 3).blk t).view.emb y) = B i
  refine congrArg B (funext fun a => Fin.ext ?_)
  match a with
  | ⟨0, _⟩ => show win2_3.index t (0 : Fin 2) * 1 + 1 * (y 0).val = (i 0).val; rw [e0, h0]; omega
  | ⟨1, _⟩ => show win2_3.index t (1 : Fin 2) * 256 + 1 * (y 1).val = (i 1).val; rw [e1, h1]; omega

/-- The result tile of point `t`, read off a table `G`: entry `y` is `G` at row `2000·t + y₀`, column `y₁`. -/
theorem read2_4 (G : S50000x256.Idx → EReal) (t : Fin cfg2.N) (y : ((cfg2.win 4).xblock (grid2.coords t)).Idx)
    (i : S50000x256.Idx) (h0 : (i 0).val = 2000 * t.val + (y 0).val) (h1 : (i 1).val = (y 1).val) :
    ((cfg2.win 4).blk t).view.read (Elt Ideal) G y = G i := by
  obtain ⟨-, -, -, -, -, -, -, -, e0, e1⟩ := idx2 t
  rw [View.read_apply]
  show G (((cfg2.win 4).blk t).view.emb y) = G i
  refine congrArg G (funext fun a => Fin.ext ?_)
  match a with
  | ⟨0, _⟩ => show win2_4.index t (0 : Fin 2) * 2000 + 1 * (y 0).val = (i 0).val; rw [e0, h0]; omega
  | ⟨1, _⟩ => show win2_4.index t (1 : Fin 2) * 256 + 1 * (y 1).val = (i 1).val; rw [e1, h1]; omega

/-- What a write-back moves of a staging tile `X` is all of it: entry `y` is `X` at `y`'s coordinates. -/
theorem cut2 (t : Fin cfg2.N) (X : Vec Ideal S2000x256 .f32) (y : ((cfg2.win 4).xblock (grid2.coords t)).Idx)
    (p : Fin 2000) (q : Fin 256) (hp : p.val = (y 0).val) (hq : q.val = (y 1).val) :
    (cfg2.win 4).cut (grid2.coords t) X y = X (ix2 p q) := by
  show X ((cfg2.win 4).xinj (grid2.coords t) y) = X (ix2 p q)
  refine congrArg X (funext fun a => Fin.ext ?_)
  match a with
  | ⟨0, _⟩ => exact hp.symm
  | ⟨1, _⟩ => exact hq.symm

/-- ONE POINT. If the four loaded tiles are the rows `2000·t …` of `A`, of `H` and of `D`, and all of `B`, what the point
    writes back is block `t` of `fin A H D B`. -/
theorem tile2 (A H : S50000x256.Idx → EReal) (D : S50000x1.Idx → EReal) (B : S1x256.Idx → EReal) (t : Fin cfg2.N)
    (x0 x1 : Vec Ideal S2000x256 .f32) (x2 : Vec Ideal S2000x1 .f32) (x3 : Vec Ideal S1x256 .f32)
    (h0 : ∀ (p : Fin 2000) (q : Fin 256) (i : Fin 50000), i.val = 2000 * t.val + p.val → (x0 (ix2 p q) : EReal) = A (ix2 i q))
    (h1 : ∀ (p : Fin 2000) (q : Fin 256) (i : Fin 50000), i.val = 2000 * t.val + p.val → (x1 (ix2 p q) : EReal) = H (ix2 i q))
    (h2 : ∀ (p : Fin 2000) (i : Fin 50000), i.val = 2000 * t.val + p.val →
      (x2 (ix2 p (0 : Fin 1)) : EReal) = D (ix2 i (0 : Fin 1)))
    (h3 : ∀ q : Fin 256, (x3 (ix2 (0 : Fin 1) q) : EReal) = B (ix2 (0 : Fin 1) q)) :
    (cfg2.win 4).cut (grid2.coords t) (k2_pay1 (F := Ideal) x0 x1 x2 x3)
      = ((cfg2.win 4).blk t).view.read (Elt Ideal) (fin A H D B) := by
  funext y
  have hN : t.val < 25 := lt_of_lt_of_eq t.isLt N_2
  have hp : (y 0).val < 2000 := (y 0).isLt
  have hq : (y 1).val < 256 := (y 1).isLt
  rw [cut2 t _ y ⟨(y 0).val, hp⟩ ⟨(y 1).val, hq⟩ rfl rfl, pay2_apply,
    read2_4 (fin A H D B) t y (ix2 ⟨2000 * t.val + (y 0).val, by omega⟩ ⟨(y 1).val, hq⟩) rfl rfl]
  show _ = max ((A (ix2 ⟨2000 * t.val + (y 0).val, _⟩ ⟨(y 1).val, hq⟩) + H (ix2 ⟨2000 * t.val + (y 0).val, _⟩ ⟨(y 1).val, hq⟩))
      * D (ix2 ⟨2000 * t.val + (y 0).val, _⟩ (0 : Fin 1)) + B (ix2 (0 : Fin 1) ⟨(y 1).val, hq⟩)) 0
  rw [h0 ⟨(y 0).val, hp⟩ ⟨(y 1).val, hq⟩ ⟨2000 * t.val + (y 0).val, by omega⟩ rfl,
    h1 ⟨(y 0).val, hp⟩ ⟨(y 1).val, hq⟩ ⟨2000 * t.val + (y 0).val, by omega⟩ rfl,
    h2 ⟨(y 0).val, hp⟩ ⟨2000 * t.val + (y 0).val, by omega⟩ rfl, h3]

/-- The four input tiles of point `t` as the region finds its arrays. -/
theorem iblk2_0_apply (c : Dev nD) (t : Fin cfg2.N) (p : Fin 2000) (q : Fin 256) (i : Fin 50000)
    (hi : i.val = 2000 * t.val + p.val) :
    ((iblk2 V c 0 t : Vec Ideal S2000x256 .f32) (ix2 p q) : EReal) = (V c main_v30 : S50000x256.Idx → EReal) (ix2 i q) := by
  unfold iblk2
  exact read2_0 (V c main_v30) t (ix2 p q) (ix2 i q) hi rfl

theorem iblk2_1_apply (c : Dev nD) (t : Fin cfg2.N) (p : Fin 2000) (q : Fin 256) (i : Fin 50000)
    (hi : i.val = 2000 * t.val + p.val) :
    ((iblk2 V c 1 t : Vec Ideal S2000x256 .f32) (ix2 p q) : EReal) = (V c main_v20 : S50000x256.Idx → EReal) (ix2 i q) := by
  unfold iblk2
  exact read2_1 (V c main_v20) t (ix2 p q) (ix2 i q) hi rfl

theorem iblk2_2_apply (c : Dev nD) (t : Fin cfg2.N) (p : Fin 2000) (i : Fin 50000)
    (hi : i.val = 2000 * t.val + p.val) :
    ((iblk2 V c 2 t : Vec Ideal S2000x1 .f32) (ix2 p (0 : Fin 1)) : EReal)
      = (V c main_v15 : S50000x1.Idx → EReal) (ix2 i (0 : Fin 1)) := by
  unfold iblk2
  exact read2_2 (V c main_v15) t (ix2 p (0 : Fin 1)) (ix2 i (0 : Fin 1)) hi rfl

theorem iblk2_3_apply (c : Dev nD) (t : Fin cfg2.N) (q : Fin 256) :
    ((iblk2 V c 3 t : Vec Ideal S1x256 .f32) (ix2 (0 : Fin 1) q) : EReal)
      = (V c main_v33 : S1x256.Idx → EReal) (ix2 (0 : Fin 1) q) := by
  unfold iblk2
  exact read2_3 (V c main_v33) t (ix2 (0 : Fin 1) q) (ix2 (0 : Fin 1) q) rfl rfl

/-- WHAT POINT `t` WRITES BACK is block `t` of `fin` of the four arrays as the region finds them. -/
theorem flushed2 (c : Dev nD) (t : Fin cfg2.N) :
    (dat2 (F := Ideal) V c).flushed 4 t
      = ((cfg2.win 4).blk t).view.read (Elt Ideal) (fin (V c main_v30) (V c main_v20) (V c main_v15) (V c main_v33)) := by
  show (cfg2.win 4).cut (grid2.coords t) ((dat2 V c).after 4 t) = _
  rw [after2_4, out2_eq]
  exact tile2 (V c main_v30) (V c main_v20) (V c main_v15) (V c main_v33) t
    (iblk2 V c 0 t) (iblk2 V c 1 t) (iblk2 V c 2 t) (iblk2 V c 3 t)
    (iblk2_0_apply V c t) (iblk2_1_apply V c t) (iblk2_2_apply V c t) (iblk2_3_apply V c t)

/-- Row `r` of the result lies in the block of point `r / 2000`. -/
theorem cover2 (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, -, -, -, -, e0, e1⟩ := idx2 t
  refine ⟨t, flush2_4 t, ?_⟩
  show i ∈ ((View.whole main_v34).slice (win2_4.rect t)).set
  rw [View.set_slice_whole, Rect.mem_set_unit]
  intro a
  match a with
  | ⟨0, _⟩ =>
    show win2_4.index t (0 : Fin 2) * 2000 ≤ (i 0).val ∧ (i 0).val < win2_4.index t (0 : Fin 2) * 2000 + 2000
    rw [e0, ht]; omega
  | ⟨1, _⟩ =>
    show win2_4.index t (1 : Fin 2) * 256 ≤ (i 1).val ∧ (i 1).val < win2_4.index t (1 : Fin 2) * 256 + 256
    rw [e1]; omega

/-- THE ARRAY after the region: `fin` of the region's four input arrays. -/
theorem region2 (c : Dev nD) :
    ((dat2 (F := Ideal) V c).arrAt 4 cfg2.N : SN.Idx → EReal)
      = fin (V c main_v30) (V c main_v20) (V c main_v15) (V c main_v33) :=
  (dat2 (F := Ideal) V c).arrAt_eq_of_cover 4 (fin (V c main_v30) (V c main_v20) (V c main_v15) (V c main_v33))
    (fun t _ => flushed2 V c t) cover2

end Cert.Gcn.Tiles

end
-- ==== Proof.TileRegion3.lean ====
/-
  The second scaling kernel as one function of its whole operand arrays.

  The grid has 25 points; point t works on rows 2000·t … 2000·t + 1999 of the features (block (t, 0) of the [50000, 256]
  array) and of the normaliser column (block (t, 0) of the [50000, 1] array), on the whole weight matrix (block (0, 0) at
  every point), and writes back block (t, 0) of the result.  Entry (p, q) of the tile a point stores is
  (Σ_k x (2000·t + p, k) · w (k, q)) · d (2000·t + p, 0), which is entry (2000·t + p, q) of the whole-array function
  `mmScale x w d`: a row of the product needs only that row of x, and its scale only that row of d.  Row r of the result
  lies in the block of point r / 2000, so the 25 write-backs cover the array and it ends holding `mmScale x w d`.
-/
import proofs.«134774_j63513976373392_2_alg».proof.Proof.TileBodies
import proofs.«134774_j63513976373392_2_alg».proof.Proof.Spec
import Idealize.ShloMosaic.Lib.Pipeline.Value

noncomputable section

open scoped BigOperators

namespace Cert.Gcn.Tiles

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of the four windows at every point: the features, the column and the result move with the point
    along the rows, the weight stays at block (0, 0). Decided over the 25 points. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The feature tile of point `t`, read off a table `A`: entry `y` is `A` at row `2000·t + y₀`, column `y₁`. -/
theorem read3_0 (A : S50000x256.Idx → EReal) (t : Fin cfg3.N) (y : ((cfg3.win 0).xblock (grid3.coords t)).Idx)
    (i : S50000x256.Idx) (h0 : (i 0).val = 2000 * t.val + (y 0).val) (h1 : (i 1).val = (y 1).val) :
    ((cfg3.win 0).blk t).view.read (Elt Ideal) A y = A i := by
  obtain ⟨e0, e1, -⟩ := idx3 t
  rw [View.read_apply]
  show A (((cfg3.win 0).blk t).view.emb y) = A i
  refine congrArg A (funext fun a => Fin.ext ?_)
  match a with
  | ⟨0, _⟩ => show win3_0.index t (0 : Fin 2) * 2000 + 1 * (y 0).val = (i 0).val; rw [e0, h0]; omega
  | ⟨1, _⟩ => show win3_0.index t (1 : Fin 2) * 256 + 1 * (y 1).val = (i 1).val; rw [e1, h1]; omega

/-- The weight tile is the whole weight matrix at every point. -/
theorem read3_1 (W : S256x256.Idx → EReal) (t : Fin cfg3.N) (y : ((cfg3.win 1).xblock (grid3.coords t)).Idx)
    (i : S256x256.Idx) (h0 : (i 0).val = (y 0).val) (h1 : (i 1).val = (y 1).val) :
    ((cfg3.win 1).blk t).view.read (Elt Ideal) W y = W i := by
  obtain ⟨-, -, e0, e1, -⟩ := idx3 t
  rw [View.read_apply]
  show W (((cfg3.win 1).blk t).view.emb y) = W i
  refine congrArg W (funext fun a => Fin.ext ?_)
  match a with
  | ⟨0, _⟩ => show win3_1.index t (0 : Fin 2) * 256 + 1 * (y 0).val = (i 0).val; rw [e0, h0]; omega
  | ⟨1, _⟩ => show win3_1.index t (1 : Fin 2) * 256 + 1 * (y 1).val = (i 1).val; rw [e1, h1]; omega

/-- The column tile of point `t`, read off a table `D`: entry `y` is `D` at row `2000·t + y₀`. -/
theorem read3_2 (D : S50000x1.Idx → EReal) (t : Fin cfg3.N) (y : ((cfg3.win 2).xblock (grid3.coords t)).Idx)
    (i : S50000x1.Idx) (h0 : (i 0).val = 2000 * t.val + (y 0).val) (h1 : (i 1).val = (y 1).val) :
    ((cfg3.win 2).blk t).view.read (Elt Ideal) D y = D i := by
  obtain ⟨-, -, -, -, e0, e1, -⟩ := idx3 t
  rw [View.read_apply]
  show D (((cfg3.win 2).blk t).view.emb y) = D i
  refine congrArg D (funext fun a => Fin.ext ?_)
  match a with
  | ⟨0, _⟩ => show win3_2.index t (0 : Fin 2) * 2000 + 1 * (y 0).val = (i 0).val; rw [e0, h0]; omega
  | ⟨1, _⟩ => show win3_2.index t (1 : Fin 2) * 1 + 1 * (y 1).val = (i 1).val; rw [e1, h1]; omega

/-- The result tile of point `t`, read off a table `G`: entry `y` is `G` at row `2000·t + y₀`, column `y₁`. -/
theorem read3_3 (G : S50000x256.Idx → EReal) (t : Fin cfg3.N) (y : ((cfg3.win 3).xblock (grid3.coords t)).Idx)
    (i : S50000x256.Idx) (h0 : (i 0).val = 2000 * t.val + (y 0).val) (h1 : (i 1).val = (y 1).val) :
    ((cfg3.win 3).blk t).view.read (Elt Ideal) G y = G i := by
  obtain ⟨-, -, -, -, -, -, e0, e1⟩ := idx3 t
  rw [View.read_apply]
  show G (((cfg3.win 3).blk t).view.emb y) = G i
  refine congrArg G (funext fun a => Fin.ext ?_)
  match a with
  | ⟨0, _⟩ => show win3_3.index t (0 : Fin 2) * 2000 + 1 * (y 0).val = (i 0).val; rw [e0, h0]; omega
  | ⟨1, _⟩ => show win3_3.index t (1 : Fin 2) * 256 + 1 * (y 1).val = (i 1).val; rw [e1, h1]; omega

/-- What a write-back moves of a staging tile `X` is all of it: entry `y` is `X` at `y`'s coordinates. -/
theorem cut3 (t : Fin cfg3.N) (X : Vec Ideal S2000x256 .f32) (y : ((cfg3.win 3).xblock (grid3.coords t)).Idx)
    (p : Fin 2000) (q : Fin 256) (hp : p.val = (y 0).val) (hq : q.val = (y 1).val) :
    (cfg3.win 3).cut (grid3.coords t) X y = X (ix2 p q) := by
  show X ((cfg3.win 3).xinj (grid3.coords t) y) = X (ix2 p q)
  refine congrArg X (funext fun a => Fin.ext ?_)
  match a with
  | ⟨0, _⟩ => exact hp.symm
  | ⟨1, _⟩ => exact hq.symm

/-- ONE POINT. If the three loaded tiles are the rows `2000·t …` of `A`, all of `W` and the rows `2000·t …` of `D`, what the
    point writes back is block `t` of `mmScale A W D`. -/
theorem tile3 (A : S50000x256.Idx → EReal) (W : S256x256.Idx → EReal) (D : S50000x1.Idx → EReal) (t : Fin cfg3.N)
    (x0 : Vec Ideal S2000x256 .f32) (x1 : Vec Ideal S256x256 .f32) (x2 : Vec Ideal S2000x1 .f32)
    (h0 : ∀ (p : Fin 2000) (k : Fin 256) (i : Fin 50000), i.val = 2000 * t.val + p.val → (x0 (ix2 p k) : EReal) = A (ix2 i k))
    (h1 : ∀ (k q : Fin 256), (x1 (ix2 k q) : EReal) = W (ix2 k q))
    (h2 : ∀ (p : Fin 2000) (i : Fin 50000), i.val = 2000 * t.val + p.val →
      (x2 (ix2 p (0 : Fin 1)) : EReal) = D (ix2 i (0 : Fin 1))) :
    (cfg3.win 3).cut (grid3.coords t) (k3_pay1 (F := Ideal) x0 x1 x2)
      = ((cfg3.win 3).blk t).view.read (Elt Ideal) (mmScale A W D) := by
  funext y
  have hN : t.val < 25 := lt_of_lt_of_eq t.isLt N_3
  have hp : (y 0).val < 2000 := (y 0).isLt
  have hq : (y 1).val < 256 := (y 1).isLt
  rw [cut3 t _ y ⟨(y 0).val, hp⟩ ⟨(y 1).val, hq⟩ rfl rfl, pay3_apply,
    read3_3 (mmScale A W D) t y (ix2 ⟨2000 * t.val + (y 0).val, by omega⟩ ⟨(y 1).val, hq⟩) rfl rfl]
  show _ = (∑ k : Fin 256, A (ix2 ⟨2000 * t.val + (y 0).val, _⟩ k) * W (ix2 k ⟨(y 1).val, hq⟩))
    * D (ix2 ⟨2000 * t.val + (y 0).val, _⟩ (0 : Fin 1))
  rw [h2 ⟨(y 0).val, hp⟩ ⟨2000 * t.val + (y 0).val, by omega⟩ rfl]
  refine congrArg (fun s => s * _) (Finset.sum_congr rfl fun k _ => ?_)
  rw [h0 ⟨(y 0).val, hp⟩ k ⟨2000 * t.val + (y 0).val, by omega⟩ rfl, h1]

/-- The three input tiles of point `t` as the region finds its arrays. -/
theorem iblk3_0_apply (c : Dev nD) (t : Fin cfg3.N) (p : Fin 2000) (k : Fin 256) (i : Fin 50000)
    (hi : i.val = 2000 * t.val + p.val) :
    ((iblk3 V c 0 t : Vec Ideal S2000x256 .f32) (ix2 p k) : EReal) = (V c main_v34 : S50000x256.Idx → EReal) (ix2 i k) := by
  unfold iblk3
  exact read3_0 (V c main_v34) t (ix2 p k) (ix2 i k) hi rfl

theorem iblk3_1_apply (c : Dev nD) (t : Fin cfg3.N) (k q : Fin 256) :
    ((iblk3 V c 1 t : Vec Ideal S256x256 .f32) (ix2 k q) : EReal) = (V c main_v36 : S256x256.Idx → EReal) (ix2 k q) := by
  unfold iblk3
  exact read3_1 (V c main_v36) t (ix2 k q) (ix2 k q) rfl rfl

theorem iblk3_2_apply (c : Dev nD) (t : Fin cfg3.N) (p : Fin 2000) (i : Fin 50000)
    (hi : i.val = 2000 * t.val + p.val) :
    ((iblk3 V c 2 t : Vec Ideal S2000x1 .f32) (ix2 p (0 : Fin 1)) : EReal)
      = (V c main_v15 : S50000x1.Idx → EReal) (ix2 i (0 : Fin 1)) := by
  unfold iblk3
  exact read3_2 (V c main_v15) t (ix2 p (0 : Fin 1)) (ix2 i (0 : Fin 1)) hi rfl

/-- WHAT POINT `t` WRITES BACK is block `t` of `mmScale` of the three arrays as the region finds them. -/
theorem flushed3 (c : Dev nD) (t : Fin cfg3.N) :
    (dat3 (F := Ideal) V c).flushed 3 t
      = ((cfg3.win 3).blk t).view.read (Elt Ideal) (mmScale (V c main_v34) (V c main_v36) (V c main_v15)) := by
  show (cfg3.win 3).cut (grid3.coords t) ((dat3 V c).after 3 t) = _
  rw [after3_3, out3_eq]
  exact tile3 (V c main_v34) (V c main_v36) (V c main_v15) t (iblk3 V c 0 t) (iblk3 V c 1 t) (iblk3 V c 2 t)
    (iblk3_0_apply V c t) (iblk3_1_apply V c t) (iblk3_2_apply V c t)

/-- Row `r` of the result lies in the block of point `r / 2000`. -/
theorem cover3 (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  obtain ⟨t, ht⟩ : ∃ t : Fin cfg3.N, t.val = (i 0).val / 2000 :=
    ⟨⟨(i 0).val / 2000, by rw [show cfg3.N = 25 from N_3]; omega⟩, rfl⟩
  obtain ⟨-, -, -, -, -, -, e0, e1⟩ := idx3 t
  refine ⟨t, flush3_3 t, ?_⟩
  show i ∈ ((View.whole main_v37).slice (win3_3.rect t)).set
  rw [View.set_slice_whole, Rect.mem_set_unit]
  intro a
  match a with
  | ⟨0, _⟩ =>
    show win3_3.index t (0 : Fin 2) * 2000 ≤ (i 0).val ∧ (i 0).val < win3_3.index t (0 : Fin 2) * 2000 + 2000
    rw [e0, ht]; omega
  | ⟨1, _⟩ =>
    show win3_3.index t (1 : Fin 2) * 256 ≤ (i 1).val ∧ (i 1).val < win3_3.index t (1 : Fin 2) * 256 + 256
    rw [e1]; omega

/-- THE ARRAY after the region: `mmScale` of the region's three input arrays. -/
theorem region3 (c : Dev nD) :
    ((dat3 (F := Ideal) V c).arrAt 3 cfg3.N : SN.Idx → EReal) = mmScale (V c main_v34) (V c main_v36) (V c main_v15) :=
  (dat3 (F := Ideal) V c).arrAt_eq_of_cover 3 (mmScale (V c main_v34) (V c main_v36) (V c main_v15))
    (fun t _ => flushed3 V c t) cover3

end Cert.Gcn.Tiles

end
-- ==== Proof.TileRegion4.lean ====
/-
  The second finishing kernel as one function of its whole operand arrays.

  The grid has 25 points; point t works on rows 2000·t … 2000·t + 1999 of the two [50000, 256] arrays it adds (block
  (t, 0) of each) and of the normaliser column (block (t, 0) of the [50000, 1] array), on the whole bias row (block (0, 0)
  at every point), and writes back block (t, 0) of the result.  Entry (p, q) of the tile a point stores is
  relu ((a (2000·t + p, q) + h (2000·t + p, q)) · d (2000·t + p, 0) + b (0, q)), which is entry (2000·t + p, q) of the
  whole-array function `fin a h d b`: every operation is entry by entry.  Row r of the result lies in the block of point
  r / 2000, so the 25 write-backs cover the array and it ends holding `fin a h d b`.
-/
import proofs.«134774_j63513976373392_2_alg».proof.Proof.TileBodies
import proofs.«134774_j63513976373392_2_alg».proof.Proof.Spec
import Idealize.ShloMosaic.Lib.Pipeline.Value

noncomputable section

open scoped BigOperators

namespace Cert.Gcn.Tiles

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of the five windows at every point: the two summands, the column and the result move with the
    point along the rows, the bias row stays at block (0, 0). Decided over the 25 points. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The first summand's tile of point `t`, read off a table `A`: entry `y` is `A` at row `2000·t + y₀`, column `y₁`. -/
theorem read4_0 (A : S50000x256.Idx → EReal) (t : Fin cfg4.N) (y : ((cfg4.win 0).xblock (grid4.coords t)).Idx)
    (i : S50000x256.Idx) (h0 : (i 0).val = 2000 * t.val + (y 0).val) (h1 : (i 1).val = (y 1).val) :
    ((cfg4.win 0).blk t).view.read (Elt Ideal) A y = A i := by
  obtain ⟨e0, e1, -⟩ := idx4 t
  rw [View.read_apply]
  show A (((cfg4.win 0).blk t).view.emb y) = A i
  refine congrArg A (funext fun a => Fin.ext ?_)
  match a with
  | ⟨0, _⟩ => show win4_0.index t (0 : Fin 2) * 2000 + 1 * (y 0).val = (i 0).val; rw [e0, h0]; omega
  | ⟨1, _⟩ => show win4_0.index t (1 : Fin 2) * 256 + 1 * (y 1).val = (i 1).val; rw [e1, h1]; omega

/-- The second summand's tile of point `t`, read off a table `H`: the same rows. -/
theorem read4_1 (H : S50000x256.Idx → EReal) (t : Fin cfg4.N) (y : ((cfg4.win 1).xblock (grid4.coords t)).Idx)
    (i : S50000x256.Idx) (h0 : (i 0).val = 2000 * t.val + (y 0).val) (h1 : (i 1).val = (y 1).val) :
    ((cfg4.win 1).blk t).view.read (Elt Ideal) H y = H i := by
  obtain ⟨-, -, e0, e1, -⟩ := idx4 t
  rw [View.read_apply]
  show H (((cfg4.win 1).blk t).view.emb y) = H i
  refine congrArg H (funext fun a => Fin.ext ?_)
  match a with
  | ⟨0, _⟩ => show win4_1.index t (0 : Fin 2) * 2000 + 1 * (y 0).val = (i 0).val; rw [e0, h0]; omega
  | ⟨1, _⟩ => show win4_1.index t (1 : Fin 2) * 256 + 1 * (y 1).val = (i 1).val; rw [e1, h1]; omega

/-- The column tile of point `t`, read off a table `D`: entry `y` is `D` at row `2000·t + y₀`. -/
theorem read4_2 (D : S50000x1.Idx → EReal) (t : Fin cfg4.N) (y : ((cfg4.win 2).xblock (grid4.coords t)).Idx)
    (i : S50000x1.Idx) (h0 : (i 0).val = 2000 * t.val + (y 0).val) (h1 : (i 1).val = (y 1).val) :
    ((cfg4.win 2).blk t).view.read (Elt Ideal) D y = D i := by
  obtain ⟨-, -, -, -, e0, e1, -⟩ := idx4 t
  rw [View.read_apply]
  show D (((cfg4.win 2).blk t).view.emb y) = D i
  refine congrArg D (funext fun a => Fin.ext ?_)
  match a with
  | ⟨0, _⟩ => show win4_2.index t (0 : Fin 2) * 2000 + 1 * (y 0).val = (i 0).val; rw [e0, h0]; omega
  | ⟨1, _⟩ => show win4_2.index t (1 : Fin 2) * 1 + 1 * (y 1).val = (i 1).val; rw [e1, h1]; omega

/-- The bias tile is the whole bias row at every point. -/
theorem read4_3 (B : S1x256.Idx → EReal) (t : Fin cfg4.N) (y : ((cfg4.win 3).xblock (grid4.coords t)).Idx)
    (i : S1x256.Idx) (h0 : (i 0).val = (y 0).val) (h1 : (i 1).val = (y 1).val) :
    ((cfg4.win 3).blk t).view.read (Elt Ideal) B y = B i := by
  obtain ⟨-, -, -, -, -, -, e0, e1, -⟩ := idx4 t
  rw [View.read_apply]
  show B (((cfg4.win 3).blk t).view.emb y) = B i
  refine congrArg B (funext fun a => Fin.ext ?_)
  match a with
  | ⟨0, _⟩ => show win4_3.index t (0 : Fin 2) * 1 + 1 * (y 0).val = (i 0).val; rw [e0, h0]; omega
  | ⟨1, _⟩ => show win4_3.index t (1 : Fin 2) * 256 + 1 * (y 1).val = (i 1).val; rw [e1, h1]; omega

/-- The result tile of point `t`, read off a table `G`: entry `y` is `G` at row `2000·t + y₀`, column `y₁`. -/
theorem read4_4 (G : S50000x256.Idx → EReal) (t : Fin cfg4.N) (y : ((cfg4.win 4).xblock (grid4.coords t)).Idx)
    (i : S50000x256.Idx) (h0 : (i 0).val = 2000 * t.val + (y 0).val) (h1 : (i 1).val = (y 1).val) :
    ((cfg4.win 4).blk t).view.read (Elt Ideal) G y = G i := by
  obtain ⟨-, -, -, -, -, -, -, -, e0, e1⟩ := idx4 t
  rw [View.read_apply]
  show G (((cfg4.win 4).blk t).view.emb y) = G i
  refine congrArg G (funext fun a => Fin.ext ?_)
  match a with
  | ⟨0, _⟩ => show win4_4.index t (0 : Fin 2) * 2000 + 1 * (y 0).val = (i 0).val; rw [e0, h0]; omega
  | ⟨1, _⟩ => show win4_4.index t (1 : Fin 2) * 256 + 1 * (y 1).val = (i 1).val; rw [e1, h1]; omega

/-- What a write-back moves of a staging tile `X` is all of it: entry `y` is `X` at `y`'s coordinates. -/
theorem cut4 (t : Fin cfg4.N) (X : Vec Ideal S2000x256 .f32) (y : ((cfg4.win 4).xblock (grid4.coords t)).Idx)
    (p : Fin 2000) (q : Fin 256) (hp : p.val = (y 0).val) (hq : q.val = (y 1).val) :
    (cfg4.win 4).cut (grid4.coords t) X y = X (ix2 p q) := by
  show X ((cfg4.win 4).xinj (grid4.coords t) y) = X (ix2 p q)
  refine congrArg X (funext fun a => Fin.ext ?_)
  match a with
  | ⟨0, _⟩ => exact hp.symm
  | ⟨1, _⟩ => exact hq.symm

/-- ONE POINT. If the four loaded tiles are the rows `2000·t …` of `A`, of `H` and of `D`, and all of `B`, what the point
    writes back is block `t` of `fin A H D B`. -/
theorem tile4 (A H : S50000x256.Idx → EReal) (D : S50000x1.Idx → EReal) (B : S1x256.Idx → EReal) (t : Fin cfg4.N)
    (x0 x1 : Vec Ideal S2000x256 .f32) (x2 : Vec Ideal S2000x1 .f32) (x3 : Vec Ideal S1x256 .f32)
    (h0 : ∀ (p : Fin 2000) (q : Fin 256) (i : Fin 50000), i.val = 2000 * t.val + p.val → (x0 (ix2 p q) : EReal) = A (ix2 i q))
    (h1 : ∀ (p : Fin 2000) (q : Fin 256) (i : Fin 50000), i.val = 2000 * t.val + p.val → (x1 (ix2 p q) : EReal) = H (ix2 i q))
    (h2 : ∀ (p : Fin 2000) (i : Fin 50000), i.val = 2000 * t.val + p.val →
      (x2 (ix2 p (0 : Fin 1)) : EReal) = D (ix2 i (0 : Fin 1)))
    (h3 : ∀ q : Fin 256, (x3 (ix2 (0 : Fin 1) q) : EReal) = B (ix2 (0 : Fin 1) q)) :
    (cfg4.win 4).cut (grid4.coords t) (k4_pay1 (F := Ideal) x0 x1 x2 x3)
      = ((cfg4.win 4).blk t).view.read (Elt Ideal) (fin A H D B) := by
  funext y
  have hN : t.val < 25 := lt_of_lt_of_eq t.isLt N_4
  have hp : (y 0).val < 2000 := (y 0).isLt
  have hq : (y 1).val < 256 := (y 1).isLt
  rw [cut4 t _ y ⟨(y 0).val, hp⟩ ⟨(y 1).val, hq⟩ rfl rfl, pay4_apply,
    read4_4 (fin A H D B) t y (ix2 ⟨2000 * t.val + (y 0).val, by omega⟩ ⟨(y 1).val, hq⟩) rfl rfl]
  show _ = max ((A (ix2 ⟨2000 * t.val + (y 0).val, _⟩ ⟨(y 1).val, hq⟩) + H (ix2 ⟨2000 * t.val + (y 0).val, _⟩ ⟨(y 1).val, hq⟩))
      * D (ix2 ⟨2000 * t.val + (y 0).val, _⟩ (0 : Fin 1)) + B (ix2 (0 : Fin 1) ⟨(y 1).val, hq⟩)) 0
  rw [h0 ⟨(y 0).val, hp⟩ ⟨(y 1).val, hq⟩ ⟨2000 * t.val + (y 0).val, by omega⟩ rfl,
    h1 ⟨(y 0).val, hp⟩ ⟨(y 1).val, hq⟩ ⟨2000 * t.val + (y 0).val, by omega⟩ rfl,
    h2 ⟨(y 0).val, hp⟩ ⟨2000 * t.val + (y 0).val, by omega⟩ rfl, h3]

/-- The four input tiles of point `t` as the region finds its arrays. -/
theorem iblk4_0_apply (c : Dev nD) (t : Fin cfg4.N) (p : Fin 2000) (q : Fin 256) (i : Fin 50000)
    (hi : i.val = 2000 * t.val + p.val) :
    ((iblk4 V c 0 t : Vec Ideal S2000x256 .f32) (ix2 p q) : EReal) = (V c main_v47 : S50000x256.Idx → EReal) (ix2 i q) := by
  unfold iblk4
  exact read4_0 (V c main_v47) t (ix2 p q) (ix2 i q) hi rfl

theorem iblk4_1_apply (c : Dev nD) (t : Fin cfg4.N) (p : Fin 2000) (q : Fin 256) (i : Fin 50000)
    (hi : i.val = 2000 * t.val + p.val) :
    ((iblk4 V c 1 t : Vec Ideal S2000x256 .f32) (ix2 p q) : EReal) = (V c main_v37 : S50000x256.Idx → EReal) (ix2 i q) := by
  unfold iblk4
  exact read4_1 (V c main_v37) t (ix2 p q) (ix2 i q) hi rfl

theorem iblk4_2_apply (c : Dev nD) (t : Fin cfg4.N) (p : Fin 2000) (i : Fin 50000)
    (hi : i.val = 2000 * t.val + p.val) :
    ((iblk4 V c 2 t : Vec Ideal S2000x1 .f32) (ix2 p (0 : Fin 1)) : EReal)
      = (V c main_v15 : S50000x1.Idx → EReal) (ix2 i (0 : Fin 1)) := by
  unfold iblk4
  exact read4_2 (V c main_v15) t (ix2 p (0 : Fin 1)) (ix2 i (0 : Fin 1)) hi rfl

theorem iblk4_3_apply (c : Dev nD) (t : Fin cfg4.N) (q : Fin 256) :
    ((iblk4 V c 3 t : Vec Ideal S1x256 .f32) (ix2 (0 : Fin 1) q) : EReal)
      = (V c main_v50 : S1x256.Idx → EReal) (ix2 (0 : Fin 1) q) := by
  unfold iblk4
  exact read4_3 (V c main_v50) t (ix2 (0 : Fin 1) q) (ix2 (0 : Fin 1) q) rfl rfl

/-- WHAT POINT `t` WRITES BACK is block `t` of `fin` of the four arrays as the region finds them. -/
theorem flushed4 (c : Dev nD) (t : Fin cfg4.N) :
    (dat4 (F := Ideal) V c).flushed 4 t
      = ((cfg4.win 4).blk t).view.read (Elt Ideal) (fin (V c main_v47) (V c main_v37) (V c main_v15) (V c main_v50)) := by
  show (cfg4.win 4).cut (grid4.coords t) ((dat4 V c).after 4 t) = _
  rw [after4_4, out4_eq]
  exact tile4 (V c main_v47) (V c main_v37) (V c main_v15) (V c main_v50) t
    (iblk4 V c 0 t) (iblk4 V c 1 t) (iblk4 V c 2 t) (iblk4 V c 3 t)
    (iblk4_0_apply V c t) (iblk4_1_apply V c t) (iblk4_2_apply V c t) (iblk4_3_apply V c t)

/-- Row `r` of the result lies in the block of point `r / 2000`. -/
theorem cover4 (i : S50000x256.Idx) :
    ∃ t : Fin cfg4.N, (cfg4.win 4).flush t = true ∧ i ∈ ((cfg4.win 4).blk t).view.set := by
  have hi0 : (i 0).val < 50000 := (i 0).isLt
  have hi1 : (i 1).val < 256 := (i 1).isLt
  obtain ⟨t, ht⟩ : ∃ t : Fin cfg4.N, t.val = (i 0).val / 2000 :=
    ⟨⟨(i 0).val / 2000, by rw [show cfg4.N = 25 from N_4]; omega⟩, rfl⟩
  obtain ⟨-, -, -, -, -, -, -, -, e0, e1⟩ := idx4 t
  refine ⟨t, flush4_4 t, ?_⟩
  show i ∈ ((View.whole main_v51).slice (win4_4.rect t)).set
  rw [View.set_slice_whole, Rect.mem_set_unit]
  intro a
  match a with
  | ⟨0, _⟩ =>
    show win4_4.index t (0 : Fin 2) * 2000 ≤ (i 0).val ∧ (i 0).val < win4_4.index t (0 : Fin 2) * 2000 + 2000
    rw [e0, ht]; omega
  | ⟨1, _⟩ =>
    show win4_4.index t (1 : Fin 2) * 256 ≤ (i 1).val ∧ (i 1).val < win4_4.index t (1 : Fin 2) * 256 + 256
    rw [e1]; omega

/-- THE ARRAY after the region: `fin` of the region's four input arrays. -/
theorem region4 (c : Dev nD) :
    ((dat4 (F := Ideal) V c).arrAt 4 cfg4.N : SN.Idx → EReal)
      = fin (V c main_v47) (V c main_v37) (V c main_v15) (V c main_v50) :=
  (dat4 (F := Ideal) V c).arrAt_eq_of_cover 4 (fin (V c main_v47) (V c main_v37) (V c main_v15) (V c main_v50))
    (fun t _ => flushed4 V c t) cover4

end Cert.Gcn.Tiles

end
-- ==== Proof.Tiles.lean ====
/-
  The five tiled kernels of the network, each as one function of its whole operand arrays.

  Every one of them walks a grid of 25 points, and point t handles rows 2000·t … 2000·t + 1999: it loads that slab of each
  row-tiled operand ([50000, 256] features, the [50000, 1] normaliser column), the whole of each small operand (a
  [256, 256] weight matrix, a [1, 256] bias row), and writes back that slab of the result.  What a point stores at row p
  of its slab depends only on row 2000·t + p of the row-tiled operands, so it is that row of ONE function of the whole
  arrays; the slabs tile the 50000 rows, so after the 25 write-backs the result array is that function of the arrays the
  kernel was entered with:

    region 0   proj x w b          = relu (x · w + b)                        the dense layer
    region 1   mmScale x w d       = (x · w), row i scaled by d (i, 0)        the first convolution's product
    region 2   fin a h d b         = relu ((a + h) · d + b)                   the first convolution's finish
    region 3   mmScale x w d                                                  the second convolution's product
    region 4   fin a h d b                                                    the second convolution's finish

  This module only gathers the five statements (`region0` … `region4`), each proved in its own module.
-/
import proofs.«134774_j63513976373392_2_alg».proof.Proof.TileRegion0
import proofs.«134774_j63513976373392_2_alg».proof.Proof.TileRegion1
import proofs.«134774_j63513976373392_2_alg».proof.Proof.TileRegion2
import proofs.«134774_j63513976373392_2_alg».proof.Proof.TileRegion3
import proofs.«134774_j63513976373392_2_alg».proof.Proof.TileRegion4
-- ==== Proof.KernelValue.lean ====
/-
  What the idealized kernel program's result buffer holds when the program ends, as a function of the argument arrays.

  The buffer contents are followed from the launch through every host stretch and tiled region (the generated fold
  W0, …, W12).  Five buffers are carried along unchanged once computed — the source words, the target words, the
  normaliser laid as a column, the weight table and the bias table — and each region's output is named when it is
  written: the dense layer  x0 = relu (input · weight + bias);  per convolution layer the scaled rows (a scaling region), the
  rows added along the edges (a host stretch) and the finished layer (a finishing region).  The result is the second
  layer applied to the first layer applied to x0.
-/
import proofs.«134774_j63513976373392_2_alg».proof.Proof.Gen.KernelIdeal.Frame
import proofs.«134774_j63513976373392_2_alg».proof.Proof.KernelHost
import proofs.«134774_j63513976373392_2_alg».proof.Proof.Tiles

noncomputable section
namespace Cert.Gcn.KVal

open Cert.KernelIdeal Cert.KernelIdeal.Gen Cert.Gcn Cert.Gcn.K Cert.Gcn.KHost
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)
/-! ## After the opening stretch -/

theorem b1_v1 : W1 m ρ c (Proc.devRef .tc main_v1) = srcOf (m ((c : Thread nD τ).loc main_arg1)) := s0_v1 (W0 m ρ c)
theorem b1_v3 : W1 m ρ c (Proc.devRef .tc main_v3) = dstOf (m ((c : Thread nD τ).loc main_arg1)) := s0_v3 (W0 m ρ c)
theorem b1_v11 : W1 m ρ c (Proc.devRef .tc main_v11)
    = cmpf .ogt (kDeg (dstOf (m ((c : Thread nD τ).loc main_arg1)))) (broadcastInDim S50000 ![] bcast_S_S50000 (constant S_ .f32 0x00000000#32)) :=
  s0_v11 (W0 m ρ c)
theorem b1_v13 : W1 m ρ c (Proc.devRef .tc main_v13)
    = Host.powf (kDeg (dstOf (m ((c : Thread nD τ).loc main_arg1)))) (broadcastInDim S50000 ![] bcast_S_S50000 (constant S_ .f32 0xBF000000#32)) :=
  s0_v13 (W0 m ρ c)
theorem b1_cst_4 : W1 m ρ c (Proc.devRef .tc main_cst_4) = constant (F := Ideal) S_ .f32 0x00000000#32 := s0_cst_4 (W0 m ρ c)
theorem b1_arg0 : W1 m ρ c (Proc.devRef .tc main_arg0) = m ((c : Thread nD τ).loc main_arg0) := s0_arg0 (W0 m ρ c)
theorem b1_arg2 : W1 m ρ c (Proc.devRef .tc main_arg2) = m ((c : Thread nD τ).loc main_arg2) := s0_arg2 (W0 m ρ c)
theorem b1_arg3 : W1 m ρ c (Proc.devRef .tc main_arg3) = m ((c : Thread nD τ).loc main_arg3) := s0_arg3 (W0 m ρ c)
theorem b1_arg4 : W1 m ρ c (Proc.devRef .tc main_arg4) = m ((c : Thread nD τ).loc main_arg4) := s0_arg4 (W0 m ρ c)
theorem b1_arg5 : W1 m ρ c (Proc.devRef .tc main_arg5) = m ((c : Thread nD τ).loc main_arg5) := s0_arg5 (W0 m ρ c)

/-! ## After the choice: the normaliser -/

theorem b2_v14 : W2 m ρ c (Proc.devRef .tc main_v14) = kDinv (dstOf (m ((c : Thread nD τ).loc main_arg1))) :=
  (s01_v14 (W1 m ρ c)).trans (by rw [b1_v11, b1_v13, b1_cst_4]; rfl)
theorem b2_v1 : W2 m ρ c (Proc.devRef .tc main_v1) = srcOf (m ((c : Thread nD τ).loc main_arg1)) := (s01_v1 (W1 m ρ c)).trans (b1_v1 m ρ c)
theorem b2_v3 : W2 m ρ c (Proc.devRef .tc main_v3) = dstOf (m ((c : Thread nD τ).loc main_arg1)) := (s01_v3 (W1 m ρ c)).trans (b1_v3 m ρ c)
theorem b2_arg0 : W2 m ρ c (Proc.devRef .tc main_arg0) = m ((c : Thread nD τ).loc main_arg0) := (s01_arg0 (W1 m ρ c)).trans (b1_arg0 m ρ c)
theorem b2_arg2 : W2 m ρ c (Proc.devRef .tc main_arg2) = m ((c : Thread nD τ).loc main_arg2) := (s01_arg2 (W1 m ρ c)).trans (b1_arg2 m ρ c)
theorem b2_arg3 : W2 m ρ c (Proc.devRef .tc main_arg3) = m ((c : Thread nD τ).loc main_arg3) := (s01_arg3 (W1 m ρ c)).trans (b1_arg3 m ρ c)
theorem b2_arg4 : W2 m ρ c (Proc.devRef .tc main_arg4) = m ((c : Thread nD τ).loc main_arg4) := (s01_arg4 (W1 m ρ c)).trans (b1_arg4 m ρ c)
theorem b2_arg5 : W2 m ρ c (Proc.devRef .tc main_arg5) = m ((c : Thread nD τ).loc main_arg5) := (s01_arg5 (W1 m ρ c)).trans (b1_arg5 m ρ c)

/-! ## At the dense region's entry -/

/-- The normaliser laid as a column. -/
abbrev dcol : (⟨S50000x1, .f32⟩ : BufTy).Contents (Elt Ideal) := dcolOf (kDinv (dstOf (m ((c : Thread nD τ).loc main_arg1))))

theorem b3_v15 : W3 m ρ c (Proc.devRef .tc main_v15) = dcol m c := (s02_v15 (W2 m ρ c)).trans (by rw [b2_v14])
theorem b3_v16 : W3 m ρ c (Proc.devRef .tc main_v16) = browOf (m ((c : Thread nD τ).loc main_arg3)) := (s02_v16 (W2 m ρ c)).trans (by rw [b2_arg3])
theorem b3_v1 : W3 m ρ c (Proc.devRef .tc main_v1) = srcOf (m ((c : Thread nD τ).loc main_arg1)) := (s02_v1 (W2 m ρ c)).trans (b2_v1 m ρ c)
theorem b3_v3 : W3 m ρ c (Proc.devRef .tc main_v3) = dstOf (m ((c : Thread nD τ).loc main_arg1)) := (s02_v3 (W2 m ρ c)).trans (b2_v3 m ρ c)
theorem b3_arg0 : W3 m ρ c (Proc.devRef .tc main_arg0) = m ((c : Thread nD τ).loc main_arg0) := (s02_arg0 (W2 m ρ c)).trans (b2_arg0 m ρ c)
theorem b3_arg2 : W3 m ρ c (Proc.devRef .tc main_arg2) = m ((c : Thread nD τ).loc main_arg2) := (s02_arg2 (W2 m ρ c)).trans (b2_arg2 m ρ c)
theorem b3_arg4 : W3 m ρ c (Proc.devRef .tc main_arg4) = m ((c : Thread nD τ).loc main_arg4) := (s02_arg4 (W2 m ρ c)).trans (b2_arg4 m ρ c)
theorem b3_arg5 : W3 m ρ c (Proc.devRef .tc main_arg5) = m ((c : Thread nD τ).loc main_arg5) := (s02_arg5 (W2 m ρ c)).trans (b2_arg5 m ρ c)

/-! ## After the dense region -/

/-- The dense layer's output. -/
abbrev x0 : SN.Idx → EReal :=
  proj (m ((c : Thread nD τ).loc main_arg0)) (m ((c : Thread nD τ).loc main_arg2)) (browOf (m ((c : Thread nD τ).loc main_arg3)))

theorem b4_v17 : W4 m ρ c (Proc.devRef .tc main_v17) = x0 m c := by
  refine (W4_arr m ρ c 3).trans ((Tiles.region0 (V3 m ρ) c).trans ?_)
  show proj (W3 m ρ c (Proc.devRef .tc main_arg0)) (W3 m ρ c (Proc.devRef .tc main_arg2)) (W3 m ρ c (Proc.devRef .tc main_v16)) = _
  rw [b3_arg0, b3_arg2, b3_v16]
theorem b4_v15 : W4 m ρ c (Proc.devRef .tc main_v15) = dcol m c := (W4_of_ne m ρ c main_v15 (by decide)).trans (b3_v15 m ρ c)
theorem b4_v1 : W4 m ρ c (Proc.devRef .tc main_v1) = srcOf (m ((c : Thread nD τ).loc main_arg1)) := (W4_of_ne m ρ c main_v1 (by decide)).trans (b3_v1 m ρ c)
theorem b4_v3 : W4 m ρ c (Proc.devRef .tc main_v3) = dstOf (m ((c : Thread nD τ).loc main_arg1)) := (W4_of_ne m ρ c main_v3 (by decide)).trans (b3_v3 m ρ c)
theorem b4_arg4 : W4 m ρ c (Proc.devRef .tc main_arg4) = m ((c : Thread nD τ).loc main_arg4) := (W4_of_ne m ρ c main_arg4 (by decide)).trans (b3_arg4 m ρ c)
theorem b4_arg5 : W4 m ρ c (Proc.devRef .tc main_arg5) = m ((c : Thread nD τ).loc main_arg5) := (W4_of_ne m ρ c main_arg5 (by decide)).trans (b3_arg5 m ρ c)

/-! ## At the first scaling region's entry -/

theorem b5_v19 : W5 m ρ c (Proc.devRef .tc main_v19) = wOf0 (m ((c : Thread nD τ).loc main_arg4)) := (s1_v19 (W4 m ρ c)).trans (by rw [b4_arg4])
theorem b5_v17 : W5 m ρ c (Proc.devRef .tc main_v17) = x0 m c := (s1_v17 (W4 m ρ c)).trans (b4_v17 m ρ c)
theorem b5_v15 : W5 m ρ c (Proc.devRef .tc main_v15) = dcol m c := (s1_v15 (W4 m ρ c)).trans (b4_v15 m ρ c)
theorem b5_v1 : W5 m ρ c (Proc.devRef .tc main_v1) = srcOf (m ((c : Thread nD τ).loc main_arg1)) := (s1_v1 (W4 m ρ c)).trans (b4_v1 m ρ c)
theorem b5_v3 : W5 m ρ c (Proc.devRef .tc main_v3) = dstOf (m ((c : Thread nD τ).loc main_arg1)) := (s1_v3 (W4 m ρ c)).trans (b4_v3 m ρ c)
theorem b5_arg4 : W5 m ρ c (Proc.devRef .tc main_arg4) = m ((c : Thread nD τ).loc main_arg4) := (s1_arg4 (W4 m ρ c)).trans (b4_arg4 m ρ c)
theorem b5_arg5 : W5 m ρ c (Proc.devRef .tc main_arg5) = m ((c : Thread nD τ).loc main_arg5) := (s1_arg5 (W4 m ρ c)).trans (b4_arg5 m ρ c)

/-! ## After the first scaling region -/

/-- The first layer's scaled rows. -/
abbrev hp1 : SN.Idx → EReal := mmScale (x0 m c) (wOf0 (m ((c : Thread nD τ).loc main_arg4))) (dcol m c)

theorem b6_v20 : W6 m ρ c (Proc.devRef .tc main_v20) = hp1 m c := by
  refine (W6_arr m ρ c 3).trans ((Tiles.region1 (V5 m ρ) c).trans ?_)
  show mmScale (W5 m ρ c (Proc.devRef .tc main_v17)) (W5 m ρ c (Proc.devRef .tc main_v19)) (W5 m ρ c (Proc.devRef .tc main_v15)) = _
  rw [b5_v17, b5_v19, b5_v15]
theorem b6_v15 : W6 m ρ c (Proc.devRef .tc main_v15) = dcol m c :=
  ((W6_arr m ρ c 2).trans (((dat1 (V5 m ρ) c).arrAt_in 2 rfl _).trans (A_eq1 (V5 m ρ) c 2))).trans (b5_v15 m ρ c)
theorem b6_v1 : W6 m ρ c (Proc.devRef .tc main_v1) = srcOf (m ((c : Thread nD τ).loc main_arg1)) := (W6_of_ne m ρ c main_v1 (by decide)).trans (b5_v1 m ρ c)
theorem b6_v3 : W6 m ρ c (Proc.devRef .tc main_v3) = dstOf (m ((c : Thread nD τ).loc main_arg1)) := (W6_of_ne m ρ c main_v3 (by decide)).trans (b5_v3 m ρ c)
theorem b6_arg4 : W6 m ρ c (Proc.devRef .tc main_arg4) = m ((c : Thread nD τ).loc main_arg4) := (W6_of_ne m ρ c main_arg4 (by decide)).trans (b5_arg4 m ρ c)
theorem b6_arg5 : W6 m ρ c (Proc.devRef .tc main_arg5) = m ((c : Thread nD τ).loc main_arg5) := (W6_of_ne m ρ c main_arg5 (by decide)).trans (b5_arg5 m ρ c)

/-! ## At the first finishing region's entry -/

theorem b7_v30 : W7 m ρ c (Proc.devRef .tc main_v30)
    = kAgg (hp1 m c) (srcOf (m ((c : Thread nD τ).loc main_arg1))) (dstOf (m ((c : Thread nD τ).loc main_arg1))) :=
  (s2_v30 (W6 m ρ c)).trans (by rw [b6_v20, b6_v1, b6_v3])
theorem b7_v33 : W7 m ρ c (Proc.devRef .tc main_v33) = browOf (bOf0 (m ((c : Thread nD τ).loc main_arg5))) := (s2_v33 (W6 m ρ c)).trans (by rw [b6_arg5])
theorem b7_v20 : W7 m ρ c (Proc.devRef .tc main_v20) = hp1 m c := (s2_v20 (W6 m ρ c)).trans (b6_v20 m ρ c)
theorem b7_v15 : W7 m ρ c (Proc.devRef .tc main_v15) = dcol m c := (s2_v15 (W6 m ρ c)).trans (b6_v15 m ρ c)
theorem b7_v1 : W7 m ρ c (Proc.devRef .tc main_v1) = srcOf (m ((c : Thread nD τ).loc main_arg1)) := (s2_v1 (W6 m ρ c)).trans (b6_v1 m ρ c)
theorem b7_v3 : W7 m ρ c (Proc.devRef .tc main_v3) = dstOf (m ((c : Thread nD τ).loc main_arg1)) := (s2_v3 (W6 m ρ c)).trans (b6_v3 m ρ c)
theorem b7_arg4 : W7 m ρ c (Proc.devRef .tc main_arg4) = m ((c : Thread nD τ).loc main_arg4) := (s2_arg4 (W6 m ρ c)).trans (b6_arg4 m ρ c)
theorem b7_arg5 : W7 m ρ c (Proc.devRef .tc main_arg5) = m ((c : Thread nD τ).loc main_arg5) := (s2_arg5 (W6 m ρ c)).trans (b6_arg5 m ρ c)

/-! ## After the first finishing region -/

/-- The first convolution layer's output. -/
abbrev x1 : SN.Idx → EReal :=
  kLayer (x0 m c) (wOf0 (m ((c : Thread nD τ).loc main_arg4))) (bOf0 (m ((c : Thread nD τ).loc main_arg5)))
    (kDinv (dstOf (m ((c : Thread nD τ).loc main_arg1)))) (srcOf (m ((c : Thread nD τ).loc main_arg1))) (dstOf (m ((c : Thread nD τ).loc main_arg1)))

theorem b8_v34 : W8 m ρ c (Proc.devRef .tc main_v34) = x1 m c := by
  refine (W8_arr m ρ c 4).trans ((Tiles.region2 (V7 m ρ) c).trans ?_)
  show fin (W7 m ρ c (Proc.devRef .tc main_v30)) (W7 m ρ c (Proc.devRef .tc main_v20)) (W7 m ρ c (Proc.devRef .tc main_v15))
    (W7 m ρ c (Proc.devRef .tc main_v33)) = _
  rw [b7_v30, b7_v20, b7_v15, b7_v33]
  rfl
theorem b8_v15 : W8 m ρ c (Proc.devRef .tc main_v15) = dcol m c :=
  ((W8_arr m ρ c 2).trans (((dat2 (V7 m ρ) c).arrAt_in 2 rfl _).trans (A_eq2 (V7 m ρ) c 2))).trans (b7_v15 m ρ c)
theorem b8_v1 : W8 m ρ c (Proc.devRef .tc main_v1) = srcOf (m ((c : Thread nD τ).loc main_arg1)) := (W8_of_ne m ρ c main_v1 (by decide)).trans (b7_v1 m ρ c)
theorem b8_v3 : W8 m ρ c (Proc.devRef .tc main_v3) = dstOf (m ((c : Thread nD τ).loc main_arg1)) := (W8_of_ne m ρ c main_v3 (by decide)).trans (b7_v3 m ρ c)
theorem b8_arg4 : W8 m ρ c (Proc.devRef .tc main_arg4) = m ((c : Thread nD τ).loc main_arg4) := (W8_of_ne m ρ c main_arg4 (by decide)).trans (b7_arg4 m ρ c)
theorem b8_arg5 : W8 m ρ c (Proc.devRef .tc main_arg5) = m ((c : Thread nD τ).loc main_arg5) := (W8_of_ne m ρ c main_arg5 (by decide)).trans (b7_arg5 m ρ c)

/-! ## At the second scaling region's entry -/

theorem b9_v36 : W9 m ρ c (Proc.devRef .tc main_v36) = wOf1 (m ((c : Thread nD τ).loc main_arg4)) := (s3_v36 (W8 m ρ c)).trans (by rw [b8_arg4])
theorem b9_v34 : W9 m ρ c (Proc.devRef .tc main_v34) = x1 m c := (s3_v34 (W8 m ρ c)).trans (b8_v34 m ρ c)
theorem b9_v15 : W9 m ρ c (Proc.devRef .tc main_v15) = dcol m c := (s3_v15 (W8 m ρ c)).trans (b8_v15 m ρ c)
theorem b9_v1 : W9 m ρ c (Proc.devRef .tc main_v1) = srcOf (m ((c : Thread nD τ).loc main_arg1)) := (s3_v1 (W8 m ρ c)).trans (b8_v1 m ρ c)
theorem b9_v3 : W9 m ρ c (Proc.devRef .tc main_v3) = dstOf (m ((c : Thread nD τ).loc main_arg1)) := (s3_v3 (W8 m ρ c)).trans (b8_v3 m ρ c)
theorem b9_arg5 : W9 m ρ c (Proc.devRef .tc main_arg5) = m ((c : Thread nD τ).loc main_arg5) := (s3_arg5 (W8 m ρ c)).trans (b8_arg5 m ρ c)

/-! ## After the second scaling region -/

/-- The second layer's scaled rows. -/
abbrev hp2 : SN.Idx → EReal := mmScale (x1 m c) (wOf1 (m ((c : Thread nD τ).loc main_arg4))) (dcol m c)

theorem b10_v37 : W10 m ρ c (Proc.devRef .tc main_v37) = hp2 m c := by
  refine (W10_arr m ρ c 3).trans ((Tiles.region3 (V9 m ρ) c).trans ?_)
  show mmScale (W9 m ρ c (Proc.devRef .tc main_v34)) (W9 m ρ c (Proc.devRef .tc main_v36)) (W9 m ρ c (Proc.devRef .tc main_v15)) = _
  rw [b9_v34, b9_v36, b9_v15]
theorem b10_v15 : W10 m ρ c (Proc.devRef .tc main_v15) = dcol m c :=
  ((W10_arr m ρ c 2).trans (((dat3 (V9 m ρ) c).arrAt_in 2 rfl _).trans (A_eq3 (V9 m ρ) c 2))).trans (b9_v15 m ρ c)
theorem b10_v1 : W10 m ρ c (Proc.devRef .tc main_v1) = srcOf (m ((c : Thread nD τ).loc main_arg1)) := (W10_of_ne m ρ c main_v1 (by decide)).trans (b9_v1 m ρ c)
theorem b10_v3 : W10 m ρ c (Proc.devRef .tc main_v3) = dstOf (m ((c : Thread nD τ).loc main_arg1)) := (W10_of_ne m ρ c main_v3 (by decide)).trans (b9_v3 m ρ c)
theorem b10_arg5 : W10 m ρ c (Proc.devRef .tc main_arg5) = m ((c : Thread nD τ).loc main_arg5) := (W10_of_ne m ρ c main_arg5 (by decide)).trans (b9_arg5 m ρ c)

/-! ## At the second finishing region's entry -/

theorem b11_v47 : W11 m ρ c (Proc.devRef .tc main_v47)
    = kAgg (hp2 m c) (srcOf (m ((c : Thread nD τ).loc main_arg1))) (dstOf (m ((c : Thread nD τ).loc main_arg1))) :=
  (s4_v47 (W10 m ρ c)).trans (by rw [b10_v37, b10_v1, b10_v3])
theorem b11_v50 : W11 m ρ c (Proc.devRef .tc main_v50) = browOf (bOf1 (m ((c : Thread nD τ).loc main_arg5))) := (s4_v50 (W10 m ρ c)).trans (by rw [b10_arg5])
theorem b11_v37 : W11 m ρ c (Proc.devRef .tc main_v37) = hp2 m c := (s4_v37 (W10 m ρ c)).trans (b10_v37 m ρ c)
theorem b11_v15 : W11 m ρ c (Proc.devRef .tc main_v15) = dcol m c := (s4_v15 (W10 m ρ c)).trans (b10_v15 m ρ c)

/-! ## The result -/

/-- The result buffer ends at the second convolution layer applied to the first applied to the dense layer's output. -/
theorem result_eq : W12 m ρ c (Proc.devRef .tc main_v51)
    = kLayer (x1 m c) (wOf1 (m ((c : Thread nD τ).loc main_arg4))) (bOf1 (m ((c : Thread nD τ).loc main_arg5)))
        (kDinv (dstOf (m ((c : Thread nD τ).loc main_arg1)))) (srcOf (m ((c : Thread nD τ).loc main_arg1))) (dstOf (m ((c : Thread nD τ).loc main_arg1))) := by
  refine (W12_arr m ρ c 4).trans ((Tiles.region4 (V11 m ρ) c).trans ?_)
  show fin (W11 m ρ c (Proc.devRef .tc main_v47)) (W11 m ρ c (Proc.devRef .tc main_v37)) (W11 m ρ c (Proc.devRef .tc main_v15))
    (W11 m ρ c (Proc.devRef .tc main_v50)) = _
  rw [b11_v47, b11_v37, b11_v15, b11_v50]
  rfl

end Cert.Gcn.KVal

end
-- ==== Proof.LibRowBias.lean ====
/-
  A vector laid out as a one-row table.

  Reshaping a vector of length n to the table [1, n] moves no element: the table's one row is the vector.  So the
  table read at row 0, column k is the vector's entry k.  This is how a bias vector reaches a kernel that takes its
  bias as a [1, n] row.
-/
import Idealize.ShloMosaic.Lib.ValueIdx
import Idealize.ShloMosaic.Lib.ValueLayout

namespace Cert.LibRowBias

open Idealize.ShloMosaic Idealize.ShloMosaic.ValueIdx

/-- A length-n vector laid out as a one-row table reads, at the row's one coordinate u and column k, the vector's
    entry k. -/
theorem row_of_vec_apply_at {n : ℕ} {α : Type} (b : (⟨1, ![n]⟩ : Shape).Idx → α)
    (h : (⟨1, ![n]⟩ : Shape).ShapeCasts ⟨2, ![1, n]⟩) (u : Fin 1) (k : Fin n) :
    shapeCast (⟨2, ![1, n]⟩ : Shape) b h (ix2 u k) = b (ix1 k) :=
  shapeCast_a_1a_apply b h u k

/-- A length-n vector laid out as a one-row table reads, at row 0 and column k, the vector's entry k. -/
theorem row_of_vec_apply {n : ℕ} {α : Type} (b : (⟨1, ![n]⟩ : Shape).Idx → α)
    (h : (⟨1, ![n]⟩ : Shape).ShapeCasts ⟨2, ![1, n]⟩) (k : Fin n) :
    shapeCast (⟨2, ![1, n]⟩ : Shape) b h (ix2 (0 : Fin 1) k) = b (ix1 k) :=
  row_of_vec_apply_at b h 0 k

end Cert.LibRowBias
-- ==== Proof.KLayerRead.lean ====
/-
  The kernel program's host operations read at one index, at the extended reals.

  The in-degree count.  Scattering 800000 ones into a vector of 50000 zeros at the target words, adding where they land,
  leaves at node i the number 0 + (number of edges e whose target word, read signed, is i); the program then adds one.
  That is the specification's count 0 + deg i + 1.  The normaliser compares this count D with 0 and selects D ^ (-1/2)
  or 0; a comparison bit "0 < D" that is 1 exactly when 0 < D turns the select into the specification's "if 0 < D".

  One layer.  The rows hp = (x · W) scaled by the normaliser laid as a column read, at (r, j), (x · W)(r, j) times the
  normaliser of r, because laying a vector [n] as a column [n, 1] moves no element.  The gather fetches, for edge e,
  the row of hp named by the source word after the wrap-around normalisation "if s < 0 then s + 50000 else s" (computed
  on 32-bit words it is the same computation on integers, since 50000 < 2^31) and after clamping into [0, 49999]: the
  specification's row of e.  The accumulating row scatter into zeros leaves at (r, j) the number 0 + the sum, over the
  edges whose target word reads r, of the gathered entry.  The finishing region adds hp, multiplies by the normaliser of r
  and adds the bias, laid as a row [1, 256] that reads the bias vector.  Entry by entry this is the specification's
  kernel-form layer.
-/
import proofs.«134774_j63513976373392_2_alg».proof.Proof.KLayerDef
import proofs.«134774_j63513976373392_2_alg».proof.Proof.LibScatterRows
import proofs.«134774_j63513976373392_2_alg».proof.Proof.LibRowBias
import Idealize.ShloMosaic.Lib.IdealHost
import Idealize.ShloMosaic.Lib.ValueLayout
import Idealize.ShloMosaic.Lib.Pipeline.Value

noncomputable section

open scoped BigOperators

namespace Cert.Gcn.K

open Cert.KernelIdeal Cert.KernelIdeal.Gen Idealize.ShloMosaic Idealize.ShloMosaic.ValueIdx Cert.Lib.ScatterRows

/-! ## Operations read at an index -/

/-- A rank-0 array broadcast to any shape reads its one element everywhere. -/
theorem bcast_scalar_apply {α : Type} {t : Shape} (h : S_.BroadcastsInDim t (![] : Fin 0 → Fin t.rank))
    (y : S_.Idx → α) (i : t.Idx) : broadcastInDim t ![] h y i = y (fun a => a.elim0) :=
  broadcastInDim_apply _ h y i (fun a => a.elim0) (fun a => a.elim0)

/-- A float constant broadcast from rank 0 reads its word's value everywhere. -/
theorem bcast_const_apply {t : Shape} (h : S_.BroadcastsInDim t (![] : Fin 0 → Fin t.rank))
    (wd : BitVec FTy.f32.bits) (i : t.Idx) :
    broadcastInDim t ![] h (constant (F := Ideal) S_ .f32 wd) i = Ideal.ofBits .f32 wd :=
  bcast_scalar_apply h _ i

/-- An integer comparison of two arrays reads the comparison of their elements. -/
theorem cmpi_at {s : Shape} {w : ℕ} (p : CmpIPredicate) (a b : IVec s w) (i : s.Idx) :
    cmpi p a b i = IntOp.cmpi p (a i) (b i) := rfl

/-- An integer sum of two arrays reads the sum of their elements. -/
theorem addi_at {s : Shape} {w : ℕ} (a b : IVec s w) (i : s.Idx) : addi a b i = IntOp.addi (a i) (b i) := rfl

/-- The host's power of two arrays reads the power of their elements. -/
theorem hostPowf_at {s : Shape} {φ : FTy} (a b : FVec Ideal s φ) (i : s.Idx) :
    Host.powf a b i = Ideal.pow (a i) (b i) := rfl

/-- A list of words as a column reads, at (e, 0), word e. -/
theorem col_apply (v : (⟨S800000, .i32⟩ : BufTy).Contents (Elt Ideal)) (e : Fin 800000) :
    col (F := Ideal) v (ix2 e 0) = v (ix1 e) :=
  broadcastInDim_col_apply bcast_S800000_S800000x1_0 v e

/-- The normalised word at e: the select, the comparison and the sum read at e. -/
theorem nrm_apply (v : (⟨S800000, .i32⟩ : BufTy).Contents (Elt Ideal)) (e : Fin 800000) :
    nrm (F := Ideal) v (ix1 e)
      = Scalar.select (IntOp.cmpi .slt (v (ix1 e)) 0#32) (IntOp.addi (v (ix1 e)) (BitVec.ofNat 32 50000)) (v (ix1 e)) := by
  unfold nrm
  rw [select_apply, cmpi_at, addi_at, bcast_scalar_apply, bcast_scalar_apply]
  rfl

/-- The row the gather fetches for edge e is the specification's row of e. -/
theorem clamp_nrm_eq (src : (⟨S800000, .i32⟩ : BufTy).Contents (Elt Ideal)) (e : Fin 800000) (hN : 0 < 50000) :
    clampRow 50000 hN ((col (F := Ideal) (nrm (F := Ideal) src)) (ix2 e 0)).toInt = rowOf src e := by
  rw [col_apply, nrm_apply, nrm_toInt _ 50000 (by norm_num)]
  rfl

/-- A vector [a] laid as a column [a, 1] reads, at (i, u), entry i: both sit at row-major position i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The normaliser laid as a column reads, at (r, 0), the normaliser of r. -/
theorem dcolOf_apply (dv : (⟨S50000, .f32⟩ : BufTy).Contents (Elt Ideal)) (r : Fin 50000) :
    dcolOf (F := Ideal) dv (ix2 r (0 : Fin 1)) = dv (ix1 r) :=
  shapeCast_a_a1_apply dv shapeCasts_S50000_S50000x1 r 0

/-- The bias laid as a row reads, at (0, j), entry j of the bias. -/
theorem browOf_apply (b : (⟨S256, .f32⟩ : BufTy).Contents (Elt Ideal)) (j : Fin 256) :
    browOf (F := Ideal) b (ix2 (0 : Fin 1) j) = b (ix1 j) :=
  Cert.LibRowBias.row_of_vec_apply b shapeCasts_S256_S1x256 j

/-! ## The count and the normaliser -/

/-- The program's count at node i is the specification's: the zero it starts from, the edges into i, and one. -/
theorem kDeg_apply (dst : (⟨S800000, .i32⟩ : BufTy).Contents (Elt Ideal)) (i : Fin 50000) :
    kDeg (F := Ideal) dst (ix1 i) = 0 + deg dst i + 1 := by
  unfold kDeg
  rw [addf_apply, host_scatterAdd_flat_apply scatter_S50000_S800000x1_S800000_n_0_0_1 rfl rfl rfl rfl,
    bcast_const_apply, bcast_const_apply, Ideal.ofBits_zero_f32, Ideal.ofBits_one_f32]
  refine congrArg (fun s : EReal => 0 + s + 1) ?_
  unfold deg
  refine Finset.sum_congr rfl fun e _ => ?_
  rw [col_apply, bcast_const_apply, Ideal.ofBits_one_f32]

/-- A select on the bit of the comparison "D is greater than 0" is the choice "if 0 < D". -/
theorem select_cmp_ogt_zero (D a b : EReal) :
    Scalar.select (Ideal.cmp .ogt D 0) a b = if 0 < D then a else b := by
  by_cases h : 0 < D
  · have hb : Ideal.cmp .ogt D 0 = 1#1 := by
      unfold Ideal.cmp
      simp [h]
    rw [hb, select_one, if_pos h]
  · have hb : Ideal.cmp .ogt D 0 = 0#1 := by
      unfold Ideal.cmp
      simp [h]
    rw [hb, select_zero, if_neg h]

/-- The program's normaliser at node i is the specification's. -/
theorem kDinv_apply (dst : (⟨S800000, .i32⟩ : BufTy).Contents (Elt Ideal)) (i : Fin 50000) :
    kDinv (F := Ideal) dst (ix1 i) = dinv dst (ix1 i) := by
  unfold kDinv
  rw [select_apply, cmpf_apply, hostPowf_at, id_eq, bcast_const_apply, bcast_const_apply,
    kDeg_apply, Ideal.ofBits_zero_f32]
  show Scalar.select (Ideal.cmp .ogt (0 + deg dst i + 1) 0)
      (Ideal.pow (0 + deg dst i + 1) (Ideal.ofBits .f32 0xBF000000#32)) 0
    = if 0 < 0 + deg dst i + 1 then Ideal.pow (0 + deg dst i + 1) (Ideal.ofBits .f32 0xBF000000#32) else 0
  exact select_cmp_ogt_zero _ _ _

/-- The kernel program's normaliser is the specification's. -/
theorem kDinv_eq (dst : (⟨S800000, .i32⟩ : BufTy).Contents (Elt Ideal)) :
    (kDinv (F := Ideal) dst : SD.Idx → EReal) = dinv dst := by
  funext i
  obtain ⟨i', rfl⟩ : ∃ i' : Fin 50000, i = ix1 i' := ⟨i 0, eq_ix1 i⟩
  exact kDinv_apply dst i'

/-! ## One layer -/

/-- The scaled rows read at (r, j): the product entry times the normaliser of r. -/
theorem mmScale_dcol_apply (x : (⟨S50000x256, .f32⟩ : BufTy).Contents (Elt Ideal))
    (W : (⟨S256x256, .f32⟩ : BufTy).Contents (Elt Ideal)) (dv : (⟨S50000, .f32⟩ : BufTy).Contents (Elt Ideal))
    (r : Fin 50000) (j : Fin 256) :
    mmScale x W (dcolOf (F := Ideal) dv) (ix2 r j) = hpK x W dv r j := by
  show mm x W r j * dcolOf (F := Ideal) dv (ix2 r (0 : Fin 1)) = mm x W r j * dv (ix1 r)
  rw [dcolOf_apply]

/-- The gather-and-add along the edges read at (r, j). -/
theorem kAgg_apply (hp : (⟨S50000x256, .f32⟩ : BufTy).Contents (Elt Ideal))
    (src dst : (⟨S800000, .i32⟩ : BufTy).Contents (Elt Ideal)) (r : Fin 50000) (j : Fin 256) :
    kAgg (F := Ideal) hp src dst (ix2 r j)
      = 0 + ∑ e : Fin 800000, if (dst (ix1 e)).toInt = (r.val : ℤ) then hp (ix2 (rowOf src e) j) else 0 := by
  unfold kAgg
  rw [host_scatterAdd_rows_apply scatter_S50000x256_S800000x1_S800000x256_1_0_0_1 rfl rfl rfl rfl,
    bcast_const_apply, Ideal.ofBits_zero_f32]
  refine congrArg (fun s : EReal => 0 + s) ?_
  refine Finset.sum_congr rfl fun e _ => ?_
  rw [col_apply, gather_rows_apply (by norm_num : 0 < 50000) gather_S50000x256_S800000x1_S800000x256_1_0_n_n_0_1_1256
    rfl rfl rfl rfl rfl rfl rfl, clamp_nrm_eq]

/-- One layer of the kernel program, index by index, is the specification's kernel-form layer, for ANY normaliser array. -/
theorem kLayer_core (x : (⟨S50000x256, .f32⟩ : BufTy).Contents (Elt Ideal)) (W : (⟨S256x256, .f32⟩ : BufTy).Contents (Elt Ideal))
    (b : (⟨S256, .f32⟩ : BufTy).Contents (Elt Ideal)) (dv : (⟨S50000, .f32⟩ : BufTy).Contents (Elt Ideal))
    (src dst : (⟨S800000, .i32⟩ : BufTy).Contents (Elt Ideal)) : kLayer x W b dv src dst = layerK x W b dv src dst := by
  funext i
  obtain ⟨r, j, rfl⟩ : ∃ (r : Fin 50000) (j : Fin 256), i = ix2 r j := ⟨i 0, i 1, eq_ix2 i⟩
  show max ((kAgg (F := Ideal) (mmScale x W (dcolOf (F := Ideal) dv)) src dst (ix2 r j)
          + mmScale x W (dcolOf (F := Ideal) dv) (ix2 r j)) * dcolOf (F := Ideal) dv (ix2 r (0 : Fin 1))
        + browOf (F := Ideal) b (ix2 (0 : Fin 1) j)) 0
    = max (((0 + ∑ e : Fin 800000, if (dst (ix1 e)).toInt = (r.val : ℤ) then hpK x W dv (rowOf src e) j else 0)
        + hpK x W dv r j) * dv (ix1 r) + b (ix1 j)) 0
  have hsum : (∑ e : Fin 800000, if (dst (ix1 e)).toInt = (r.val : ℤ)
        then mmScale x W (dcolOf (F := Ideal) dv) (ix2 (rowOf src e) j) else 0)
      = ∑ e : Fin 800000, if (dst (ix1 e)).toInt = (r.val : ℤ) then hpK x W dv (rowOf src e) j else 0 :=
    Finset.sum_congr rfl fun e _ => by rw [mmScale_dcol_apply]
  rw [kAgg_apply, hsum, mmScale_dcol_apply, dcolOf_apply, browOf_apply]

/-- The first dense layer with its bias laid as a row is the specification's dense layer. -/
theorem proj_dense0 (x : SN.Idx → EReal) (w : SW.Idx → EReal) (b : (⟨S256, .f32⟩ : BufTy).Contents (Elt Ideal)) :
    proj x w (browOf (F := Ideal) b) = dense0 x w b := by
  funext i
  obtain ⟨r, j, rfl⟩ : ∃ (r : Fin 50000) (j : Fin 256), i = ix2 r j := ⟨i 0, i 1, eq_ix2 i⟩
  show max (mm x w r j + browOf (F := Ideal) b (ix2 (0 : Fin 1) j)) 0 = max (mm x w r j + b (ix1 j)) 0
  rw [browOf_apply]

end Cert.Gcn.K

end
-- ==== Proof.LayerLaw.lean ====
/-
  The law that joins the two forms of a graph-convolution layer, and the fact that the normaliser is a nonnegative real.

  Fix an entry (r, j) of the result and write c for the normaliser of row r, a nonnegative REAL by hypothesis.

  One form scales every row by its own normaliser, adds the rows an edge brings to r and the row r itself, and multiplies
  the whole sum by c afterwards:   ((0 + Σ_e [dst e = r] m_e · d_e) + m_r · c) · c.
  The other adds, over the given edges and then over one self-loop per node, rows weighted by the product of the
  normalisers of the edge's two ends:   0 + (Σ_e [dst e = r] m_e · (d_e · d_{dst e}) + Σ_k [k = r] m_k · (d_k · d_k)).

  Four facts turn one into the other.
  (1) For an edge whose target word, read signed, is r, that integer is nonnegative and below 50000, so normalising
      and clamping it change nothing: the row it names is r and its normaliser is c.
  (2) The self-loop sum has one nonzero term, the one at k = r.
  (3) Products re-associate, m · (a · c) = (m · a) · c.
  (4) A nonnegative real factor moves out of a sum of two extended reals and, by induction on the index set, out of a
      finite sum:  (A + B) · c = A · c + B · c  and  (Σ_e t_e) · c = Σ_e (t_e · c).  This fails for a negative or an
      infinite factor (⊤ + ⊥ = ⊥ among the extended reals), which is why the normaliser is assumed real and nonnegative.

  The normaliser itself: the in-degree of a node is a finite sum of ones and zeros, hence a nonnegative real n; the
  count n + 1 is a positive real; the exponent word 0xBF000000 is the real −1/2; a real power of a nonnegative real
  base is a nonnegative real; and where the count is not positive the normaliser is 0.
-/
import proofs.«134774_j63513976373392_2_alg».proof.Proof.Spec
import Idealize.ShloMosaic.Lib.IdealHost
import Mathlib.Data.EReal.Operations

noncomputable section

open scoped BigOperators

namespace Cert.Gcn

open Idealize.ShloMosaic Idealize.ShloMosaic.ValueIdx Cert.Lib.ScatterRows

/-! ## A nonnegative real factor and sums of extended reals -/

/-- A nonnegative real factor distributes over a sum of two extended reals. -/
theorem add_mul_coe_nonneg (A B : EReal) {c : ℝ} (hc : 0 ≤ c) :
    (A + B) * (c : EReal) = A * (c : EReal) + B * (c : EReal) :=
  EReal.right_distrib_of_nonneg_of_ne_top (EReal.coe_nonneg.mpr hc) (EReal.coe_ne_top c) A B

/-- A nonnegative real factor distributes over a finite sum of extended reals. -/
theorem sum_mul_coe_nonneg {ι : Type*} (s : Finset ι) (t : ι → EReal) {c : ℝ} (hc : 0 ≤ c) :
    (∑ e ∈ s, t e) * (c : EReal) = ∑ e ∈ s, t e * (c : EReal) := by
  classical
  induction s using Finset.induction_on with
  | empty => simp
  | insert a s ha ih => rw [Finset.sum_insert ha, Finset.sum_insert ha, add_mul_coe_nonneg _ _ hc, ih]

/-! ## The row an in-range index word names -/

/-- An index word that reads, signed, as a row number r names row r: nothing is normalised and nothing is clamped. -/
theorem rowOf_eq_of_toInt (a : SE.Idx → BitVec 32) (e : Fin 800000) (r : Fin 50000)
    (h : (a (ix1 e)).toInt = (r.val : ℤ)) : rowOf a e = r := by
  have hr := r.isLt
  apply Fin.ext
  show min (wrapZ (a (ix1 e))).toNat (50000 - 1) = r.val
  unfold wrapZ
  rw [h, if_neg (by omega), Int.toNat_natCast]
  omega

/-! ## The law of the layer -/

theorem layer_law (x : SN.Idx → EReal) (w : SW.Idx → EReal) (b : SB.Idx → EReal) (dv : SD.Idx → EReal)
    (src dst : SE.Idx → BitVec 32)
    (hd : ∀ i : Fin 50000, ∃ r : ℝ, 0 ≤ r ∧ dv (ix1 i) = (r : EReal)) :
    layerK x w b dv src dst = layerR x w b dv src dst := by
  funext i
  obtain ⟨r, j, rfl⟩ : ∃ (r : Fin 50000) (j : Fin 256), i = ix2 r j := ⟨i 0, i 1, eq_ix2 i⟩
  obtain ⟨c, hc, hdc⟩ := hd r
  show max (((0 + ∑ e : Fin 800000, if (dst (ix1 e)).toInt = (r.val : ℤ) then hpK x w dv (rowOf src e) j else 0)
        + hpK x w dv r j) * dv (ix1 r) + b (ix1 j)) 0
    = max ((0 + ((∑ e : Fin 800000, if (dst (ix1 e)).toInt = (r.val : ℤ)
            then mm x w (rowOf src e) j * (dv (ix1 (rowOf src e)) * dv (ix1 (rowOf dst e))) else 0)
          + ∑ k : Fin 50000, if (k.val : ℤ) = (r.val : ℤ) then mm x w k j * (dv (ix1 k) * dv (ix1 k)) else 0))
        + b (ix1 j)) 0
  -- the self-loop sum has one term
  have hself : (∑ k : Fin 50000, if (k.val : ℤ) = (r.val : ℤ) then mm x w k j * (dv (ix1 k) * dv (ix1 k)) else 0)
      = mm x w r j * (dv (ix1 r) * dv (ix1 r)) := by
    have hcond : ∀ k : Fin 50000, ((k.val : ℤ) = (r.val : ℤ)) ↔ k = r := fun k =>
      ⟨fun h => Fin.ext (by exact_mod_cast h), fun h => by rw [h]⟩
    simp only [hcond]
    rw [Finset.sum_ite_eq']
    simp
  -- the edge sum, term by term
  have hedge : (∑ e : Fin 800000, if (dst (ix1 e)).toInt = (r.val : ℤ)
        then mm x w (rowOf src e) j * (dv (ix1 (rowOf src e)) * dv (ix1 (rowOf dst e))) else 0)
      = ∑ e : Fin 800000, (if (dst (ix1 e)).toInt = (r.val : ℤ) then hpK x w dv (rowOf src e) j else 0) * (c : EReal) := by
    refine Finset.sum_congr rfl fun e _ => ?_
    by_cases h : (dst (ix1 e)).toInt = (r.val : ℤ)
    · rw [if_pos h, if_pos h, rowOf_eq_of_toInt dst e r h, hdc]
      unfold hpK
      rw [mul_assoc]
    · rw [if_neg h, if_neg h, zero_mul]
  rw [hself, hedge, hdc, zero_add, zero_add, add_mul_coe_nonneg _ _ hc, sum_mul_coe_nonneg _ _ hc]
  unfold hpK
  rw [hdc, mul_assoc]

/-! ## The normaliser is a nonnegative real -/

/-- The in-degree of a node, a finite sum of ones and zeros, is a nonnegative real. -/
theorem deg_real (dst : SE.Idx → BitVec 32) (i : Fin 50000) : ∃ n : ℝ, 0 ≤ n ∧ deg dst i = (n : EReal) := by
  have key : ∀ s : Finset (Fin 800000), ∃ n : ℝ, 0 ≤ n ∧
      (∑ e ∈ s, if (dst (ix1 e)).toInt = (i.val : ℤ) then (1 : EReal) else 0) = (n : EReal) := by
    intro s
    induction s using Finset.induction_on with
    | empty => exact ⟨0, le_refl _, by simp⟩
    | insert a s ha ih =>
      obtain ⟨n, hn, hs⟩ := ih
      rw [Finset.sum_insert ha, hs]
      by_cases h : (dst (ix1 a)).toInt = (i.val : ℤ)
      · rw [if_pos h]
        exact ⟨1 + n, by positivity, by rw [EReal.coe_add, EReal.coe_one]⟩
      · rw [if_neg h]
        exact ⟨n, hn, by rw [zero_add]⟩
  exact key Finset.univ

/-- The exponent word 0xBF000000 is the real −1/2. -/
theorem ofBits_neg_half_f32 : Ideal.ofBits .f32 0xBF000000#32 = ((-(1 / 2 : ℝ) : ℝ) : EReal) := by
  simp [Ideal.ofBits, Ideal.ieee, -EReal.coe_mul, -EReal.coe_neg]; norm_num

theorem dinv_real (dst : SE.Idx → BitVec 32) (i : Fin 50000) :
    ∃ r : ℝ, 0 ≤ r ∧ dinv dst (ix1 i) = (r : EReal) := by
  obtain ⟨n, hn, hdeg⟩ := deg_real dst i
  show ∃ r : ℝ, 0 ≤ r ∧ (if 0 < 0 + deg dst i + 1
      then Ideal.pow (0 + deg dst i + 1) (Ideal.ofBits .f32 0xBF000000#32) else 0) = (r : EReal)
  have h1 : (0 : EReal) + deg dst i + 1 = ((n + 1 : ℝ) : EReal) := by
    rw [hdeg, zero_add, EReal.coe_add, EReal.coe_one]
  rw [h1, ofBits_neg_half_f32]
  split
  · exact ⟨Real.rpow (n + 1) (-(1 / 2 : ℝ)), Real.rpow_nonneg (by linarith) _, Ideal.pow_coe_coe _ _⟩
  · exact ⟨0, le_refl _, rfl⟩

/-- Adding the self-loop to the in-degree, in either grouping. -/
theorem deg_assoc (dst : SE.Idx → BitVec 32) (i : Fin 50000) :
    (0 : EReal) + (deg dst i + 1) = 0 + deg dst i + 1 :=
  (add_assoc _ _ _).symm

end Cert.Gcn

end
-- ==== Proof.BridgeK.lean ====
/-
  The value both programs end with, and that the tiled program ends with it.

  `G` is two graph-convolution layers applied to the dense layer's output, each layer as ONE weighted sum over the given
  edges and the self-loops.  The tiled program's result is the same two layers in the form "scale the rows, add along the
  edges, scale the sum"; the law of the layer (a nonnegative real factor moves in and out of a finite sum of extended
  reals) turns that form into `G`'s, layer by layer, the normaliser being a nonnegative real at every node.
-/
import proofs.«134774_j63513976373392_2_alg».proof.Proof.KernelValue
import proofs.«134774_j63513976373392_2_alg».proof.Proof.KLayerRead
import proofs.«134774_j63513976373392_2_alg».proof.Proof.LayerLaw

noncomputable section

namespace Cert.Gcn.Bridge

open Cert.Gcn Cert.Gcn.K Cert.Gcn.KHost Idealize.ShloMosaic Idealize.ShloMosaic.TcCoe Idealize.SL.Sem

/-- The value both programs end with, as a function of the six argument arrays. -/
def G (a0 : (⟨Cert.KernelIdeal.S50000x256, .f32⟩ : BufTy).Contents (Elt Ideal))
    (a1 : (⟨Cert.KernelIdeal.S2x800000, .i32⟩ : BufTy).Contents (Elt Ideal))
    (a2 : (⟨Cert.KernelIdeal.S256x256, .f32⟩ : BufTy).Contents (Elt Ideal))
    (a3 : (⟨Cert.KernelIdeal.S256, .f32⟩ : BufTy).Contents (Elt Ideal))
    (a4 : (⟨Cert.KernelIdeal.S2x256x256, .f32⟩ : BufTy).Contents (Elt Ideal))
    (a5 : (⟨Cert.KernelIdeal.S2x256, .f32⟩ : BufTy).Contents (Elt Ideal)) : SN.Idx → EReal :=
  layerR (layerR (dense0 a0 a2 a3) (wOf0 (F := Ideal) a4) (bOf0 (F := Ideal) a5) (dinv (dstOf (F := Ideal) a1))
      (srcOf (F := Ideal) a1) (dstOf (F := Ideal) a1))
    (wOf1 (F := Ideal) a4) (bOf1 (F := Ideal) a5) (dinv (dstOf (F := Ideal) a1)) (srcOf (F := Ideal) a1) (dstOf (F := Ideal) a1)

/-! ## The kernel program ends at `G` -/

open Cert.KernelIdeal Cert.KernelIdeal.Gen in
theorem kernel_G (m : (ℓ : Loc nD τ sig) → Buf (Elt Ideal) ℓ) (ρ : Dev nD → PrngReg) (c : Dev nD) :
    W12 m ρ c (Proc.devRef .tc main_v51)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [KVal.result_eq]
  unfold KVal.x1 KVal.x0
  rw [kLayer_core, kLayer_core, kDinv_eq, proj_dense0]
  rw [layer_law _ _ _ _ _ _ (fun i => dinv_real _ i)]
  rw [layer_law _ _ _ _ _ _ (fun i => dinv_real _ i)]
  rfl

end Cert.Gcn.Bridge

end
-- ==== Proof.RefLayerDef.lean ====
/-
  One graph-convolution layer of the reference program as ONE function of its inputs, operation for operation as the
  program has it, so that both of the program's layers are this function at different inputs.

  From node features x, a weight matrix W, a bias vector b and the edge lists src, dst (800000 words each) the layer forms
  h = x · W; the lists s, d of 850000 edges (the given ones followed by the self-loops 0 … 49999); the normaliser
  dv = (number of edges into a node) ^ (-1/2) where that number is positive; per edge the weight dv[s] · dv[d] (each index
  normalised: a negative one counts from the end) and the message h[s] · weight; and the result
  relu (the messages added into the rows d, plus b).
-/
import proofs.«134774_j63513976373392_2_alg».proof.Proof.RefRead

noncomputable section

namespace Cert.Gcn.Ref

open Cert.ReferenceIdeal Cert.ReferenceIdeal.Gen Cert.ReferenceIdeal.ReadP Idealize.ShloMosaic

variable {F : FTy → Type} [FloatOps F]

/-- The given edge words followed by the self-loops 0 … 49999. -/
def cat (a : (⟨S800000, .i32⟩ : BufTy).Contents (Elt F)) : (⟨S850000, .i32⟩ : BufTy).Contents (Elt F) :=
  concatenate S850000 0 [⟨S800000, a⟩, ⟨S50000, (iotaInDim S50000 32 0)⟩] concatenates_S800000_S50000_S850000_d0

/-- A signed index word normalised: a negative one has 50000 added. -/
def nrm (v : (⟨S850000, .i32⟩ : BufTy).Contents (Elt F)) : (⟨S850000, .i32⟩ : BufTy).Contents (Elt F) :=
  select (cmpi .slt v (broadcastInDim S850000 ![] bcast_S_S850000 (constantI S_ 32 0#32)))
    (addi v (broadcastInDim S850000 ![] bcast_S_S850000 (constantI S_ 32 50000#32))) v

/-- A list of index words as a column of start indices. -/
def col (v : (⟨S850000, .i32⟩ : BufTy).Contents (Elt F)) : (⟨S850000x1, .i32⟩ : BufTy).Contents (Elt F) :=
  broadcastInDim S850000x1 ![0] bcast_S850000_S850000x1_0 v

/-- The number of edges (self-loops included) into each node. -/
def refDeg (dst : (⟨S800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (col (cat dst))
    (broadcastInDim S850000 ![] bcast_S_S850000 (constant S_ .f32 0x3F800000#32))

/-- The normaliser: that number to the power -1/2 where it is positive, else 0. -/
def refDinv (dst : (⟨S800000, .i32⟩ : BufTy).Contents (Elt F)) : (⟨S50000, .f32⟩ : BufTy).Contents (Elt F) :=
  select (cmpf .ogt (refDeg dst) (broadcastInDim S50000 ![] bcast_S_S50000 (constant S_ .f32 0x00000000#32)))
    (Host.powf (refDeg dst) (broadcastInDim S50000 ![] bcast_S_S50000 (constant S_ .f32 0xBF000000#32)))
    (broadcastInDim S50000 ![] bcast_S_S50000 (id (constant S_ .f32 0x00000000#32)))

/-- Per edge, the product of the normalisers of its two ends. -/
def refNorm (src dst : (⟨S800000, .i32⟩ : BufTy).Contents (Elt F)) : (⟨S850000, .f32⟩ : BufTy).Contents (Elt F) :=
  mulf (Host.gather gather_S50000_S850000x1_S850000_n_0_n_n_0_1_1 (refDinv dst) (col (nrm (cat src))))
    (Host.gather gather_S50000_S850000x1_S850000_n_0_n_n_0_1_1 (refDinv dst) (col (nrm (cat dst))))

/-- The layer. -/
def refLayer (x : (⟨S50000x256, .f32⟩ : BufTy).Contents (Elt F)) (W : (⟨S256x256, .f32⟩ : BufTy).Contents (Elt F))
    (b : (⟨S256, .f32⟩ : BufTy).Contents (Elt F)) (src dst : (⟨S800000, .i32⟩ : BufTy).Contents (Elt F)) :
    (⟨S50000x256, .f32⟩ : BufTy).Contents (Elt F) :=
  maximumf
    (addf
      (Host.scatterAdd scatter_S50000x256_S850000x1_S850000x256_1_0_0_1
        (broadcastInDim S50000x256 ![] bcast_S_S50000x256 (constant S_ .f32 0x00000000#32))
        (col (cat dst))
        (mulf
          (Host.gather gather_S50000x256_S850000x1_S850000x256_1_0_n_n_0_1_1256
            (Host.dotGeneral dot_S50000x256_S256x256_S50000x256_1_0_0_1_n_n none x W) (col (nrm (cat src))))
          (broadcastInDim S850000x256 ![0, 1] bcast_S850000x1_S850000x256_0_1
            (broadcastInDim S850000x1 ![0] bcast_S850000_S850000x1_0 (refNorm src dst)))))
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- The program's first convolution layer is `refLayer` at the dense layer's output, the first weight matrix and bias. -/
theorem v57_eq (x0 : (⟨S50000x256, .f32⟩ : BufTy).Contents (Elt F)) (x1 : (⟨S2x800000, .i32⟩ : BufTy).Contents (Elt F))
    (x2 : (⟨S256x256, .f32⟩ : BufTy).Contents (Elt F)) (x3 : (⟨S256, .f32⟩ : BufTy).Contents (Elt F))
    (x4 : (⟨S2x256x256, .f32⟩ : BufTy).Contents (Elt F)) (x5 : (⟨S2x256, .f32⟩ : BufTy).Contents (Elt F)) :
    val_main_v57 (F := F) x0 x1 x2 x3 x4 x5
      = refLayer (val_main_v8 (F := F) x0 x2 x3) (val_main_v10 (F := F) x4) (val_main_v12 (F := F) x5)
          (val_main_v1 (F := F) x1) (val_main_v3 (F := F) x1) := rfl

/-- Its second is `refLayer` at the first layer's output, the second weight matrix and bias. -/
theorem v106_eq (x0 : (⟨S50000x256, .f32⟩ : BufTy).Contents (Elt F)) (x1 : (⟨S2x800000, .i32⟩ : BufTy).Contents (Elt F))
    (x2 : (⟨S256x256, .f32⟩ : BufTy).Contents (Elt F)) (x3 : (⟨S256, .f32⟩ : BufTy).Contents (Elt F))
    (x4 : (⟨S2x256x256, .f32⟩ : BufTy).Contents (Elt F)) (x5 : (⟨S2x256, .f32⟩ : BufTy).Contents (Elt F)) :
    val_main_v106 (F := F) x0 x1 x2 x3 x4 x5
      = refLayer (val_main_v57 (F := F) x0 x1 x2 x3 x4 x5) (val_main_v59 (F := F) x4) (val_main_v61 (F := F) x5)
          (val_main_v1 (F := F) x1) (val_main_v3 (F := F) x1) := rfl

end Cert.Gcn.Ref

end
-- ==== Proof.RefDinv.lean ====
/-
  Two readings of the reference program at an index, at the extended reals.

  The normaliser.  The reference counts the edges into a node by adding 850000 ones into a zero vector along one column of
  target indices: the 800000 given target words followed by the words 0, 1, …, 49999 of the self-loops.  Read at a node i
  that count is 0 + Σ_e [target e = i].  The sum splits at 800000: its first part is the number of given edges into i, and
  in its second part exactly one term, the self-loop k = i, is 1 (a number below 2³¹ written as a 32-bit word and read back
  signed is itself).  So the count is 0 + (deg i + 1) = 0 + deg i + 1, and "the count to the power -1/2 where it is positive,
  else 0", with the comparison's bit turned into the condition it decides, is the specification's normaliser.

  The dense layer.  Read at (r, j) the reference's first stage is max (Σ_k x[r,k] · w[k,j] + b[j], 0): the contraction of the
  product runs over the one shared axis, the bias vector is laid as a row and repeated down the rows, and the rectifier's zero is
  a constant read everywhere.
-/
import proofs.«134774_j63513976373392_2_alg».proof.Proof.RefLayerDef
import proofs.«134774_j63513976373392_2_alg».proof.Proof.Spec
import proofs.«134774_j63513976373392_2_alg».proof.Proof.LibScatterRows
import Idealize.ShloMosaic.Lib.IdealHost
import Idealize.ShloMosaic.PureOps.Ideal.Laws

noncomputable section

open scoped BigOperators

namespace Cert.Gcn.Ref.DinvAux

open Cert.Gcn.Ref Cert.ReferenceIdeal Cert.ReferenceIdeal.Gen Cert.ReferenceIdeal.ReadP Idealize.ShloMosaic Idealize.ShloMosaic.ValueIdx
open Cert.Lib.ScatterRows

/-- A rank-0 constant repeated over any shape reads the extended real its word encodes, everywhere. -/
theorem bconst_apply {t : Shape} (dims : Fin S_.rank → Fin t.rank) (h : S_.BroadcastsInDim t dims) (w : BitVec FTy.f32.bits)
    (j : t.Idx) : broadcastInDim t dims h (constant (F := Ideal) S_ .f32 w) j = Ideal.ofBits .f32 w :=
  broadcastInDim_apply dims h _ j (fun a => a.elim0) (fun a => a.elim0)

/-- The list of 850000 target words read at e: the given word below 800000, the self-loop's own number from there on. -/
theorem cat_apply (a : (⟨S800000, .i32⟩ : BufTy).Contents (Elt Ideal)) (e : Fin 850000) :
    cat (F := Ideal) a (ix1 e)
      = if hlt : e.val < 800000 then a (ix1 ⟨e.val, hlt⟩) else BitVec.ofNat 32 (e.val - 800000) :=
  concatenate_flat_apply (A := 800000) (B := 50000) (C := 850000) (by norm_num) a (iotaInDim S50000 32 0)
    concatenates_S800000_S50000_S850000_d0 e

/-- The reference's count of edges into node i: zero plus one for every one of the 850000 target words equal to i. -/
theorem refDeg_apply (dst : (⟨S800000, .i32⟩ : BufTy).Contents (Elt Ideal)) (i : Fin 50000) :
    refDeg (F := Ideal) dst (ix1 i)
      = 0 + ∑ e : Fin 850000, if (cat (F := Ideal) dst (ix1 e)).toInt = (i.val : ℤ) then (1 : EReal) else 0 := by
  unfold refDeg
  refine (host_scatterAdd_flat_apply (N := 50000) (E := 850000) scatter_S50000_S850000x1_S850000_n_0_0_1 rfl rfl rfl rfl _ _ _ i).trans ?_
  rw [bconst_apply, Ideal.ofBits_zero_f32]
  refine congrArg (fun s : EReal => 0 + s) (Finset.sum_congr rfl fun e _ => ?_)
  rw [bconst_apply, Ideal.ofBits_one_f32]
  unfold col
  rw [broadcastInDim_col_apply]

/-- Of the 50000 self-loops exactly one, the node's own, points at node i. -/
theorem sum_loop (i : Fin 50000) :
    (∑ k : Fin 50000, if ((k.val : ℕ) : ℤ) = ((i.val : ℕ) : ℤ) then (1 : EReal) else 0) = 1 := by
  have h : ∀ k : Fin 50000, (((k.val : ℕ) : ℤ) = ((i.val : ℕ) : ℤ)) ↔ k = i := fun k => by
    rw [Int.natCast_inj, Fin.val_inj]
  simp only [h, Finset.sum_ite_eq', Finset.mem_univ, if_true]

/-- The reference's count at node i is zero, plus the given edges into i, plus the one self-loop. -/
theorem refDeg_eq (dst : (⟨S800000, .i32⟩ : BufTy).Contents (Elt Ideal)) (i : Fin 50000) :
    refDeg (F := Ideal) dst (ix1 i) = 0 + deg dst i + 1 := by
  rw [refDeg_apply, add_assoc (0 : EReal) (deg dst i) 1]
  refine congrArg (fun s : EReal => 0 + s) ?_
  rw [sum_fin_add_ereal (A := 800000) (B := 50000) (C := 850000) (by norm_num)]
  unfold deg
  refine congrArg₂ (fun s t : EReal => s + t) (Finset.sum_congr rfl fun e _ => ?_) ?_
  · rw [cat_apply, dif_pos (show (⟨e.val, by have := e.isLt; omega⟩ : Fin 850000).val < 800000 from e.isLt)]
  · refine Eq.trans (Finset.sum_congr rfl fun k _ => ?_) (sum_loop i)
    rw [cat_apply, dif_neg (show ¬ (⟨800000 + k.val, by have := k.isLt; omega⟩ : Fin 850000).val < 800000 from by
      show ¬ 800000 + k.val < 800000; omega)]
    show (if (BitVec.ofNat 32 (800000 + k.val - 800000)).toInt = ((i.val : ℕ) : ℤ) then (1 : EReal) else 0) = _
    rw [Nat.add_sub_cancel_left, toInt_ofNat_small k.val (by have := k.isLt; omega)]

/-- The host's power read at an index raises the element to the element, for every float instance. -/
theorem host_powf_apply {F : FTy → Type} [FloatOps F] {s : Shape} {φ : FTy} (x y : FVec F s φ) (i : s.Idx) :
    Host.powf x y i = FloatOps.hostPowf (x i) (y i) := rfl

/-- The specification's normaliser at node a. -/
theorem dinv_ix1 (dst : SE.Idx → BitVec 32) (a : Fin 50000) :
    dinv dst (ix1 a)
      = if 0 < 0 + deg dst a + 1 then Ideal.pow (0 + deg dst a + 1) (Ideal.ofBits .f32 0xBF000000#32) else 0 := rfl

/-- "Greater than zero" at the extended reals is the bit of the condition 0 < D. -/
theorem cmp_ogt_zero (D : EReal) : Ideal.cmp .ogt D 0 = BitVec.ofBool (decide (0 < D)) := rfl

end Cert.Gcn.Ref.DinvAux

namespace Cert.Gcn.Ref

open Cert.ReferenceIdeal Cert.ReferenceIdeal.Gen Cert.ReferenceIdeal.ReadP Idealize.ShloMosaic Idealize.ShloMosaic.ValueIdx
open Cert.Lib.ScatterRows Cert.Gcn.Ref.DinvAux

/-- The reference's normaliser is the specification's. -/
theorem refDinv_eq (dst : (⟨S800000, .i32⟩ : BufTy).Contents (Elt Ideal)) :
    (refDinv (F := Ideal) dst : SD.Idx → EReal) = dinv dst := by
  funext i
  obtain ⟨a, rfl⟩ : ∃ a : Fin 50000, i = ix1 a := ⟨i 0, eq_ix1 i⟩
  rw [dinv_ix1]
  unfold refDinv
  rw [select_apply, cmpf_apply, host_powf_apply]
  simp only [id_eq, bconst_apply]
  rw [refDeg_eq, Ideal.ofBits_zero_f32, Ideal.cmpf_def, Ideal.hostPowf_def, cmp_ogt_zero]
  by_cases h : (0 : EReal) < 0 + deg dst a + 1
  · rw [if_pos h, decide_eq_true h]; exact select_one _ _
  · rw [if_neg h, decide_eq_false h]; exact select_zero _ _

/-- The reference's dense layer is the specification's. -/
theorem dense0_ref (x0 : (⟨S50000x256, .f32⟩ : BufTy).Contents (Elt Ideal)) (x2 : (⟨S256x256, .f32⟩ : BufTy).Contents (Elt Ideal))
    (x3 : (⟨S256, .f32⟩ : BufTy).Contents (Elt Ideal)) :
    (val_main_v8 (F := Ideal) x0 x2 x3 : SN.Idx → EReal) = dense0 x0 x2 x3 := by
  funext i
  obtain ⟨r, j, rfl⟩ : ∃ (r : Fin 50000) (j : Fin 256), i = ix2 r j := ⟨i 0, i 1, eq_ix2 i⟩
  -- the contraction reads row r of x at column k and row k of w at column j
  have hl : ∀ k : Fin 256, lidx_main_v4 (ix2 r j) k = ix2 r k := fun k => funext fun a => by
    match a with
    | ⟨0, _⟩ => rfl
    | ⟨1, _⟩ => rfl
  have hr : ∀ k : Fin 256, ridx_main_v4 (ix2 r j) k = ix2 k j := fun k => funext fun a => by
    match a with
    | ⟨0, _⟩ => rfl
    | ⟨1, _⟩ => rfl
  -- the bias laid as a row and repeated down the rows reads entry j
  have hb : idx_main_v5 (idx_main_v6 (ix2 r j)) = ix1 j := funext fun a => by
    match a with
    | ⟨0, _⟩ => rfl
  rw [val_main_v8_apply, val_main_v7_apply, val_main_v4_apply, val_main_v6_apply, val_main_v5_apply,
    val_main_call0_v0_apply, val_main_call0_cst_apply, hb]
  simp only [hl, hr]
  rw [Ideal.maximumf_def, Ideal.addf_def, Ideal.ofBits_def, Ideal.ofBits_zero_f32]
  unfold dense0 mm
  rfl

end Cert.Gcn.Ref

end
-- ==== Proof.RefLayerRead.lean ====
/-
  One graph-convolution layer of the reference program read index by index, at the extended reals (every float an
  extended real, every operation exact), with the normaliser kept as an opaque array dv.

  The layer adds 850000 message rows into the zero matrix, adds the bias to every row and clips below at 0. Message row e
  is row (s e) of the product x · W times the weight dv (s e) · dv (d e), where s, d are the edge lists: the 800000 given
  words followed by the words 0 … 49999 (the self-loops), each normalised (a negative word has 50000 added) and clamped
  into [0, 49999] when a row or an entry of dv is fetched; message e is added into the row named by the d-word itself,
  not normalised and not clamped, so a word outside [0, 49999] drops its message.

  Read at (r, j): the sum over all 850000 edges whose target word is r of (x · W) (s e, j) · dv (s e) · dv (d e), split
  into the given edges — where the fetched rows are the specification's rowOf src e and rowOf dst e — and the self-loops,
  where edge 800000 + k has both words equal to k, so it fetches row k and lands on row r exactly when k = r. That is
  the specification's layerR, term for term.
-/
import proofs.«134774_j63513976373392_2_alg».proof.Proof.RefLayerDef
import proofs.«134774_j63513976373392_2_alg».proof.Proof.Spec
import proofs.«134774_j63513976373392_2_alg».proof.Proof.LibScatterRows
import proofs.«134774_j63513976373392_2_alg».proof.Proof.LibTileMatmul

noncomputable section

open scoped BigOperators

namespace Cert.Gcn.Ref

open Cert.ReferenceIdeal Cert.ReferenceIdeal.Gen Idealize.ShloMosaic Idealize.ShloMosaic.ValueIdx Cert.Lib.ScatterRows

/-! The readings of the layer's parts live in their own namespace; the layer's own reading `refLayer_core` is stated in
    `Cert.Gcn.Ref` at the end. -/
namespace LayerRead

section Words
variable {F : FTy → Type} [FloatOps F]

/-- The edge list at position e: the given word below 800000, the word e − 800000 from there on. -/
theorem cat_apply (a : (⟨S800000, .i32⟩ : BufTy).Contents (Elt F)) (e : Fin 850000) :
    cat (F := F) a (ix1 e)
      = if hlt : e.val < 800000 then a (ix1 ⟨e.val, hlt⟩) else BitVec.ofNat 32 (e.val - 800000) := by
  unfold cat
  refine (concatenate_flat_apply (A := 800000) (B := 50000) (C := 850000) rfl a (iotaInDim S50000 32 0)
    concatenates_S800000_S50000_S850000_d0 e).trans ?_
  rfl

/-- A given edge's word. -/
theorem cat_apply_lt (a : (⟨S800000, .i32⟩ : BufTy).Contents (Elt F)) (e : Fin 800000) :
    cat (F := F) a (ix1 (⟨e.val, by omega⟩ : Fin 850000)) = a (ix1 e) := by
  rw [cat_apply, dif_pos (show e.val < 800000 from e.isLt)]

/-- A self-loop's word. -/
theorem cat_apply_ge (a : (⟨S800000, .i32⟩ : BufTy).Contents (Elt F)) (k : Fin 50000) :
    cat (F := F) a (ix1 (⟨800000 + k.val, by omega⟩ : Fin 850000)) = BitVec.ofNat 32 k.val := by
  rw [cat_apply, dif_neg (show ¬ 800000 + k.val < 800000 by omega)]
  show BitVec.ofNat 32 (800000 + k.val - 800000) = BitVec.ofNat 32 k.val
  rw [Nat.add_sub_cancel_left]

/-- The normalisation, word by word. -/
theorem nrm_apply (v : (⟨S850000, .i32⟩ : BufTy).Contents (Elt F)) (i : S850000.Idx) :
    nrm (F := F) v i
      = Scalar.select (IntOp.cmpi .slt (v i) 0#32) (IntOp.addi (v i) (BitVec.ofNat 32 50000)) (v i) := by
  unfold nrm
  show Scalar.select (IntOp.cmpi .slt (v i) (broadcastInDim S850000 ![] bcast_S_S850000 (constantI S_ 32 0#32) i))
      (IntOp.addi (v i) (broadcastInDim S850000 ![] bcast_S_S850000 (constantI S_ 32 50000#32) i)) (v i) = _
  rw [broadcastInDim_apply _ bcast_S_S850000 (constantI S_ 32 0#32) i (fun a => a.elim0) (fun a => a.elim0),
    broadcastInDim_apply _ bcast_S_S850000 (constantI S_ 32 50000#32) i (fun a => a.elim0) (fun a => a.elim0)]
  rfl

/-- The normalised word read signed is the specification's normalised index. -/
theorem nrm_toInt_eq (v : (⟨S850000, .i32⟩ : BufTy).Contents (Elt F)) (i : S850000.Idx) :
    (nrm (F := F) v i).toInt = wrapZ (v i) := by
  rw [nrm_apply, nrm_toInt (v i) 50000 (by norm_num)]
  rfl

/-- The column of start indices reads its list. -/
theorem col_apply (v : (⟨S850000, .i32⟩ : BufTy).Contents (Elt F)) (e : Fin 850000) :
    col (F := F) v (ix2 e 0) = v (ix1 e) := by
  unfold col
  exact broadcastInDim_col_apply bcast_S850000_S850000x1_0 v e

/-- The row an edge fetches: its normalised word, clamped. -/
def rowAt (a : (⟨S800000, .i32⟩ : BufTy).Contents (Elt F)) (e : Fin 850000) : Fin 50000 :=
  clampRow 50000 (by norm_num) ((col (F := F) (nrm (cat a)) (ix2 e 0)).toInt)

/-- A given edge fetches the specification's row. -/
theorem rowAt_lt (a : (⟨S800000, .i32⟩ : BufTy).Contents (Elt F)) (e : Fin 800000) :
    rowAt (F := F) a (⟨e.val, by omega⟩ : Fin 850000) = rowOf a e := by
  unfold rowAt rowOf
  rw [col_apply, nrm_toInt_eq, cat_apply_lt]

/-- Self-loop k fetches row k: its word read signed is k, not negative and below 50000. -/
theorem rowAt_ge (a : (⟨S800000, .i32⟩ : BufTy).Contents (Elt F)) (k : Fin 50000) :
    rowAt (F := F) a (⟨800000 + k.val, by omega⟩ : Fin 850000) = k := by
  unfold rowAt
  rw [col_apply, nrm_toInt_eq, cat_apply_ge]
  have hk : (BitVec.ofNat 32 k.val).toInt = (k.val : ℤ) := toInt_ofNat_small k.val (by have := k.isLt; omega)
  unfold wrapZ
  rw [hk, if_neg (by omega)]
  refine Fin.ext ?_
  unfold clampRow
  show min (k.val : ℤ).toNat (50000 - 1) = k.val
  have := k.isLt
  omega

/-- The target word of a given edge, read signed. -/
theorem tgt_lt (a : (⟨S800000, .i32⟩ : BufTy).Contents (Elt F)) (e : Fin 800000) :
    (col (F := F) (cat a) (ix2 (⟨e.val, by omega⟩ : Fin 850000) 0)).toInt = (a (ix1 e)).toInt := by
  rw [col_apply, cat_apply_lt]

/-- The target word of self-loop k, read signed, is k. -/
theorem tgt_ge (a : (⟨S800000, .i32⟩ : BufTy).Contents (Elt F)) (k : Fin 50000) :
    (col (F := F) (cat a) (ix2 (⟨800000 + k.val, by omega⟩ : Fin 850000) 0)).toInt = (k.val : ℤ) := by
  rw [col_apply, cat_apply_ge]
  exact toInt_ofNat_small k.val (by have := k.isLt; omega)

end Words

section Layer

/-- Pointwise maximum, sum and product of arrays, read at an index. -/
theorem maximumf_apply {s : Shape} {φ : FTy} (A B : FVec Ideal s φ) (i : s.Idx) :
    maximumf (F := Ideal) A B i = max (A i) (B i) := rfl

theorem addf_apply {s : Shape} {φ : FTy} (A B : FVec Ideal s φ) (i : s.Idx) :
    addf (F := Ideal) A B i = A i + B i := rfl

theorem mulf_apply {s : Shape} {φ : FTy} (A B : FVec Ideal s φ) (i : s.Idx) :
    mulf (F := Ideal) A B i = A i * B i := rfl

/-- The all-zero matrix. -/
theorem zero_apply (i : S50000x256.Idx) :
    broadcastInDim S50000x256 ![] bcast_S_S50000x256 (constant (F := Ideal) S_ .f32 0x00000000#32) i = (0 : EReal) := by
  rw [broadcastInDim_apply _ bcast_S_S50000x256 (constant (F := Ideal) S_ .f32 0x00000000#32) i (fun a => a.elim0)
    (fun a => a.elim0)]
  show Ideal.ofBits .f32 0x00000000#32 = 0
  exact Ideal.ofBits_zero_f32

/-- The bias vector laid as a row and repeated down the rows reads b j at (r, j). -/
theorem bias_apply (b : (⟨S256, .f32⟩ : BufTy).Contents (Elt Ideal)) (r : Fin 50000) (j : Fin 256) :
    broadcastInDim S50000x256 ![0, 1] bcast_S1x256_S50000x256_0_1 (broadcastInDim S1x256 ![1] bcast_S256_S1x256_1 b)
      (ix2 r j) = b (ix1 j) := by
  rw [broadcastInDim_apply _ bcast_S1x256_S50000x256_0_1 _ (ix2 r j) (ix2 (0 : Fin 1) j) (fun a => match a with
      | ⟨0, _⟩ => by show 0 = if (1 : Nat) = 1 then 0 else r.val; rw [if_pos rfl]
      | ⟨1, _⟩ => by show j.val = if (256 : Nat) = 1 then 0 else j.val; rw [if_neg (by decide)]),
    broadcastInDim_apply _ bcast_S256_S1x256_1 b (ix2 (0 : Fin 1) j) (ix1 j) (fun a => match a with
      | ⟨0, _⟩ => by show j.val = if (256 : Nat) = 1 then 0 else j.val; rw [if_neg (by decide)])]

/-- A per-edge value laid as a column and repeated along the rows reads v e at (e, j). -/
theorem spread_apply (v : (⟨S850000, .f32⟩ : BufTy).Contents (Elt Ideal)) (e : Fin 850000) (j : Fin 256) :
    broadcastInDim S850000x256 ![0, 1] bcast_S850000x1_S850000x256_0_1
      (broadcastInDim S850000x1 ![0] bcast_S850000_S850000x1_0 v) (ix2 e j) = v (ix1 e) := by
  rw [broadcastInDim_apply _ bcast_S850000x1_S850000x256_0_1 _ (ix2 e j) (ix2 e (0 : Fin 1)) (fun a => match a with
      | ⟨0, _⟩ => by show e.val = if (850000 : Nat) = 1 then 0 else e.val; rw [if_neg (by decide)]
      | ⟨1, _⟩ => by show 0 = if (1 : Nat) = 1 then 0 else j.val; rw [if_pos rfl])]
  exact broadcastInDim_col_apply bcast_S850000_S850000x1_0 v e

/-- The product x · W at (a, j). -/
theorem dot_apply (x : (⟨S50000x256, .f32⟩ : BufTy).Contents (Elt Ideal)) (W : (⟨S256x256, .f32⟩ : BufTy).Contents (Elt Ideal))
    (a : Fin 50000) (j : Fin 256) :
    Host.dotGeneral (F := Ideal) (φ₁ := .f32) (φ₂ := .f32) dot_S50000x256_S256x256_S50000x256_1_0_0_1_n_n none x W (ix2 a j) = mm x W a j := by
  unfold mm
  exact TileMatmul.dotGeneral_apply (m := 50000) (k := 256) (n := 256) dot_S50000x256_S256x256_S50000x256_1_0_0_1_n_n_wf
    none x W a j

/-- The weight of edge e over any normaliser dv: dv at the source's row times dv at the target's row. -/
theorem weight_apply (dv : (⟨S50000, .f32⟩ : BufTy).Contents (Elt Ideal)) (src dst : (⟨S800000, .i32⟩ : BufTy).Contents (Elt Ideal))
    (e : Fin 850000) :
    mulf (F := Ideal) (s := S850000) (φ := .f32) (Host.gather gather_S50000_S850000x1_S850000_n_0_n_n_0_1_1 dv (col (F := Ideal) (nrm (cat src))))
        (Host.gather gather_S50000_S850000x1_S850000_n_0_n_n_0_1_1 dv (col (F := Ideal) (nrm (cat dst)))) (ix1 e)
      = dv (ix1 (rowAt (F := Ideal) src e)) * dv (ix1 (rowAt (F := Ideal) dst e)) := by
  rw [mulf_apply,
    gather_flat_apply (N := 50000) (E := 850000) (by norm_num) gather_S50000_S850000x1_S850000_n_0_n_n_0_1_1
      rfl rfl rfl rfl rfl rfl rfl dv (col (F := Ideal) (nrm (cat src))) e,
    gather_flat_apply (N := 50000) (E := 850000) (by norm_num) gather_S50000_S850000x1_S850000_n_0_n_n_0_1_1
      rfl rfl rfl rfl rfl rfl rfl dv (col (F := Ideal) (nrm (cat dst))) e]
  rfl

/-- The message of edge e at column j, over any per-edge weight array nv: the source's row of x · W times the weight. -/
theorem msg_apply (x : (⟨S50000x256, .f32⟩ : BufTy).Contents (Elt Ideal)) (W : (⟨S256x256, .f32⟩ : BufTy).Contents (Elt Ideal))
    (src : (⟨S800000, .i32⟩ : BufTy).Contents (Elt Ideal)) (nv : (⟨S850000, .f32⟩ : BufTy).Contents (Elt Ideal))
    (e : Fin 850000) (j : Fin 256) :
    mulf (F := Ideal) (s := S850000x256) (φ := .f32)
        (Host.gather gather_S50000x256_S850000x1_S850000x256_1_0_n_n_0_1_1256
          (Host.dotGeneral (F := Ideal) (φ₁ := .f32) (φ₂ := .f32) dot_S50000x256_S256x256_S50000x256_1_0_0_1_n_n none x W)
          (col (F := Ideal) (nrm (cat src))))
        (broadcastInDim S850000x256 ![0, 1] bcast_S850000x1_S850000x256_0_1
          (broadcastInDim S850000x1 ![0] bcast_S850000_S850000x1_0 nv)) (ix2 e j)
      = mm x W (rowAt (F := Ideal) src e) j * nv (ix1 e) := by
  rw [mulf_apply, spread_apply,
    gather_rows_apply (N := 50000) (D := 256) (E := 850000) (by norm_num)
      gather_S50000x256_S850000x1_S850000x256_1_0_n_n_0_1_1256 rfl rfl rfl rfl rfl rfl rfl
      (Host.dotGeneral (F := Ideal) (φ₁ := .f32) (φ₂ := .f32) dot_S50000x256_S256x256_S50000x256_1_0_0_1_n_n none x W)
      (col (F := Ideal) (nrm (cat src))) e j,
    dot_apply]
  rfl

/-- The rows added into zero, the bias added, clipped below at 0, read at (r, j): over any column of target words and
    any matrix of rows to add. -/
theorem relu_bias_scatter_apply (idx : (⟨S850000x1, .i32⟩ : BufTy).Contents (Elt Ideal))
    (upd : (⟨S850000x256, .f32⟩ : BufTy).Contents (Elt Ideal)) (b : (⟨S256, .f32⟩ : BufTy).Contents (Elt Ideal))
    (r : Fin 50000) (j : Fin 256) :
    maximumf (F := Ideal) (s := S50000x256) (φ := .f32)
        (addf (F := Ideal) (s := S50000x256) (φ := .f32)
          (Host.scatterAdd (F := Ideal) (φ := .f32) scatter_S50000x256_S850000x1_S850000x256_1_0_0_1
            (broadcastInDim S50000x256 ![] bcast_S_S50000x256 (constant (F := Ideal) S_ .f32 0x00000000#32)) idx upd)
          (broadcastInDim S50000x256 ![0, 1] bcast_S1x256_S50000x256_0_1
            (broadcastInDim S1x256 ![1] bcast_S256_S1x256_1 b)))
        (broadcastInDim S50000x256 ![] bcast_S_S50000x256 (constant (F := Ideal) S_ .f32 0x00000000#32)) (ix2 r j)
      = max ((0 + ∑ e : Fin 850000, if (idx (ix2 e 0)).toInt = (r.val : ℤ) then upd (ix2 e j) else 0) + b (ix1 j)) 0 := by
  rw [maximumf_apply, addf_apply, bias_apply, zero_apply,
    host_scatterAdd_rows_apply (N := 50000) (D := 256) (E := 850000) scatter_S50000x256_S850000x1_S850000x256_1_0_0_1
      rfl rfl rfl rfl _ idx upd r j,
    zero_apply]

end Layer

/-- The layer over any normaliser array dv, index by index: the specification's weighted sum over the given edges and
    the self-loops. -/
theorem layer_core (dv : (⟨S50000, .f32⟩ : BufTy).Contents (Elt Ideal)) (x : (⟨S50000x256, .f32⟩ : BufTy).Contents (Elt Ideal))
    (W : (⟨S256x256, .f32⟩ : BufTy).Contents (Elt Ideal)) (b : (⟨S256, .f32⟩ : BufTy).Contents (Elt Ideal))
    (src dst : (⟨S800000, .i32⟩ : BufTy).Contents (Elt Ideal)) :
    (maximumf (F := Ideal) (s := S50000x256) (φ := .f32)
        (addf (F := Ideal) (s := S50000x256) (φ := .f32)
          (Host.scatterAdd (F := Ideal) (φ := .f32) scatter_S50000x256_S850000x1_S850000x256_1_0_0_1
            (broadcastInDim S50000x256 ![] bcast_S_S50000x256 (constant (F := Ideal) S_ .f32 0x00000000#32))
            (col (F := Ideal) (cat dst))
            (mulf (F := Ideal) (s := S850000x256) (φ := .f32)
              (Host.gather gather_S50000x256_S850000x1_S850000x256_1_0_n_n_0_1_1256
                (Host.dotGeneral (F := Ideal) (φ₁ := .f32) (φ₂ := .f32) dot_S50000x256_S256x256_S50000x256_1_0_0_1_n_n none x W)
                (col (F := Ideal) (nrm (cat src))))
              (broadcastInDim S850000x256 ![0, 1] bcast_S850000x1_S850000x256_0_1
                (broadcastInDim S850000x1 ![0] bcast_S850000_S850000x1_0
                  (mulf (F := Ideal) (s := S850000) (φ := .f32)
                    (Host.gather gather_S50000_S850000x1_S850000_n_0_n_n_0_1_1 dv (col (F := Ideal) (nrm (cat src))))
                    (Host.gather gather_S50000_S850000x1_S850000_n_0_n_n_0_1_1 dv (col (F := Ideal) (nrm (cat dst)))))))))
          (broadcastInDim S50000x256 ![0, 1] bcast_S1x256_S50000x256_0_1
            (broadcastInDim S1x256 ![1] bcast_S256_S1x256_1 b)))
        (broadcastInDim S50000x256 ![] bcast_S_S50000x256 (constant (F := Ideal) S_ .f32 0x00000000#32)) : SN.Idx → EReal)
      = layerR x W b dv src dst := by
  funext i
  obtain ⟨r, j, rfl⟩ : ∃ (r : Fin 50000) (j : Fin 256), i = ix2 r j := ⟨i 0, i 1, eq_ix2 i⟩
  rw [relu_bias_scatter_apply]
  show _ = max ((0 + ((∑ e : Fin 800000, if (dst (ix1 e)).toInt = (r.val : ℤ)
            then mm x W (rowOf src e) j * (dv (ix1 (rowOf src e)) * dv (ix1 (rowOf dst e))) else 0)
          + ∑ k : Fin 50000, if (k.val : ℤ) = (r.val : ℤ) then mm x W k j * (dv (ix1 k) * dv (ix1 k)) else 0))
        + b (ix1 j)) 0
  refine congrArg (fun t : EReal => max ((0 + t) + b (ix1 j)) 0) ?_
  rw [sum_fin_add_ereal (A := 800000) (B := 50000) (C := 850000) rfl]
  refine congrArg₂ (fun s t : EReal => s + t) (Finset.sum_congr rfl fun e _ => ?_) (Finset.sum_congr rfl fun k _ => ?_)
  · rw [tgt_lt, msg_apply, weight_apply, rowAt_lt, rowAt_lt]
  · rw [tgt_ge, msg_apply, weight_apply, rowAt_ge, rowAt_ge]

end LayerRead

/-- The reference's layer, index by index, is the weighted sum over the given edges and the self-loops; the normaliser
    array stays as the program computes it. -/
theorem refLayer_core (x : (⟨S50000x256, .f32⟩ : BufTy).Contents (Elt Ideal)) (W : (⟨S256x256, .f32⟩ : BufTy).Contents (Elt Ideal))
    (b : (⟨S256, .f32⟩ : BufTy).Contents (Elt Ideal)) (src dst : (⟨S800000, .i32⟩ : BufTy).Contents (Elt Ideal)) :
    (refLayer (F := Ideal) x W b src dst : SN.Idx → EReal) = layerR x W b (refDinv (F := Ideal) dst) src dst :=
  LayerRead.layer_core (refDinv (F := Ideal) dst) x W b src dst

end Cert.Gcn.Ref

end
-- ==== Proof.Bridge.lean ====
/-
  The reference program ends with the common value `G`.

  Its two convolution layers are one function `refLayer` at different inputs; read index by index that function is the
  weighted sum over the given edges and the self-loops with the program's own normaliser, which is the specification's;
  its dense layer is the specification's; and the weight matrices, biases and edge words are cut from the argument tables
  by the same two operations (a slice, a reshape) in both programs.
-/
import proofs.«134774_j63513976373392_2_alg».proof.Proof.BridgeK
import proofs.«134774_j63513976373392_2_alg».proof.Proof.RefDinv
import proofs.«134774_j63513976373392_2_alg».proof.Proof.RefLayerRead

noncomputable section

namespace Cert.Gcn.Bridge

open Cert.Gcn Cert.Gcn.K Cert.Gcn.KHost Cert.Gcn.Ref Idealize.ShloMosaic Idealize.ShloMosaic.TcCoe Idealize.SL.Sem

section Pieces
open Cert.ReferenceIdeal Cert.ReferenceIdeal.ReadP

/-! Both programs cut the same pieces out of the argument tables, by the same two operations (a slice, a reshape). -/

theorem src_eq (a1 : (⟨S2x800000, .i32⟩ : BufTy).Contents (Elt Ideal)) : val_main_v1 (F := Ideal) a1 = srcOf (F := Ideal) a1 := rfl
theorem dst_eq (a1 : (⟨S2x800000, .i32⟩ : BufTy).Contents (Elt Ideal)) : val_main_v3 (F := Ideal) a1 = dstOf (F := Ideal) a1 := rfl
theorem w0_eq (a4 : (⟨S2x256x256, .f32⟩ : BufTy).Contents (Elt Ideal)) : val_main_v10 (F := Ideal) a4 = wOf0 (F := Ideal) a4 := rfl
theorem b0_eq (a5 : (⟨S2x256, .f32⟩ : BufTy).Contents (Elt Ideal)) : val_main_v12 (F := Ideal) a5 = bOf0 (F := Ideal) a5 := rfl
theorem w1_eq (a4 : (⟨S2x256x256, .f32⟩ : BufTy).Contents (Elt Ideal)) : val_main_v59 (F := Ideal) a4 = wOf1 (F := Ideal) a4 := rfl
theorem b1_eq (a5 : (⟨S2x256, .f32⟩ : BufTy).Contents (Elt Ideal)) : val_main_v61 (F := Ideal) a5 = bOf1 (F := Ideal) a5 := rfl

end Pieces

open Cert.ReferenceIdeal Cert.ReferenceIdeal.ReadP in
theorem ref_G (a0 : (⟨S50000x256, .f32⟩ : BufTy).Contents (Elt Ideal)) (a1 : (⟨S2x800000, .i32⟩ : BufTy).Contents (Elt Ideal))
    (a2 : (⟨S256x256, .f32⟩ : BufTy).Contents (Elt Ideal)) (a3 : (⟨S256, .f32⟩ : BufTy).Contents (Elt Ideal))
    (a4 : (⟨S2x256x256, .f32⟩ : BufTy).Contents (Elt Ideal)) (a5 : (⟨S2x256, .f32⟩ : BufTy).Contents (Elt Ideal)) :
    val_main_v106 (F := Ideal) a0 a1 a2 a3 a4 a5 = G a0 a1 a2 a3 a4 a5 := by
  rw [v106_eq, v57_eq, refLayer_core, refLayer_core, refDinv_eq, dense0_ref, src_eq, dst_eq, w0_eq, b0_eq, w1_eq, b1_eq]
  rfl

end Cert.Gcn.Bridge

end
-- ==== Proof.lean ====
/-
  The certificate: the tiled program and its idealization run and leave their arguments unchanged, the reference runs and
  leaves its arguments unchanged, and at the extended reals the idealized tiled program and the idealized reference end with
  equal results.

  The programs compute two graph-convolution layers after one dense layer over 50000 nodes with 256 features and 800000
  edges.  The tiled program computes, per layer, the rows of x · W scaled by the symmetric normaliser dv (a tiled region),
  adds the scaled rows along the edges (host operations), and finishes with relu ((sum + own row) · dv + bias) (a second tiled
  region); the reference forms one weighted sum over the edges and one self-loop per node.  The frames of the two tiled
  programs are the generated frame certificates; the reference's frame is its run with the result dropped.  The value claim
  puts three readings together: the tiled program's result buffer at the end of its run (Proof/KernelRun.lean) is the two
  layers in the first form (Proof/KernelValue.lean, over Proof/Tiles.lean and Proof/KernelHost.lean); the reference's result
  is the two layers in the second form (Proof/RefLayerDef.lean, RefLayerRead.lean, RefDinv.lean); and the two forms are
  one function of the arguments (Proof/LayerLaw.lean, Proof/Bridge.lean).  No operation was rewritten by the idealization,
  so it preserves the program's text trivially.
-/
import proofs.«134774_j63513976373392_2_alg».proof.Defs
import proofs.«134774_j63513976373392_2_alg».proof.Proof.Gen.Kernel
import proofs.«134774_j63513976373392_2_alg».proof.Proof.Gen.Kernel.Skeleton
import proofs.«134774_j63513976373392_2_alg».proof.Proof.Gen.Kernel.Launch
import proofs.«134774_j63513976373392_2_alg».proof.Proof.Gen.Kernel.Points
import proofs.«134774_j63513976373392_2_alg».proof.Proof.Gen.Kernel.Frame
import proofs.«134774_j63513976373392_2_alg».proof.Proof.Gen.KernelIdeal
import proofs.«134774_j63513976373392_2_alg».proof.Proof.Gen.KernelIdeal.Skeleton
import proofs.«134774_j63513976373392_2_alg».proof.Proof.Gen.KernelIdeal.Launch
import proofs.«134774_j63513976373392_2_alg».proof.Proof.Gen.KernelIdeal.Points
import proofs.«134774_j63513976373392_2_alg».proof.Proof.Gen.KernelIdeal.Frame
import proofs.«134774_j63513976373392_2_alg».proof.Proof.Gen.ReferenceIdeal
import proofs.«134774_j63513976373392_2_alg».proof.Proof.Gen.Pre_finite_inputs
import proofs.«134774_j63513976373392_2_alg».proof.Proof.RefRead
import proofs.«134774_j63513976373392_2_alg».proof.Proof.KernelRun
import proofs.«134774_j63513976373392_2_alg».proof.Proof.Bridge
import Idealize.ShloMosaic.Adequacy
import Idealize.ShloMosaic.Init

noncomputable section

namespace Cert.Proof

open Idealize.ShloMosaic Idealize.SL.Sem

namespace Claims

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with what the run says of the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs, run from memories that agree on the arguments, end with the common value `G` of the
    arguments in their result buffers, and with the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.Bridge.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.Bridge.kernel_G m ρ c), (h c).2⟩) (Cert.Gcn.KRun.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v106_eq, Cert.Gcn.Bridge.ref_G, (hagree c).1, (hagree c).2.1, (hagree c).2.2.1,
      (hagree c).2.2.2.1, (hagree c).2.2.2.2.1, (hagree c).2.2.2.2.2]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
